-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S65536x128 : Shape := ⟨2, ![65536, 128]⟩
abbrev S393216x128 : Shape := ⟨2, ![393216, 128]⟩
abbrev S65536x1 : Shape := ⟨2, ![65536, 1]⟩
abbrev S129x128 : Shape := ⟨2, ![129, 128]⟩
abbrev S128 : Shape := ⟨1, ![128]⟩
abbrev S128x128 : Shape := ⟨2, ![128, 128]⟩
abbrev S2x384x128 : Shape := ⟨3, ![2, 384, 128]⟩
abbrev S2x128 : Shape := ⟨2, ![2, 128]⟩
abbrev S2x128x128 : Shape := ⟨3, ![2, 128, 128]⟩
abbrev S2x256x128 : Shape := ⟨3, ![2, 256, 128]⟩
abbrev S2x393216 : Shape := ⟨2, ![2, 393216]⟩
abbrev S65536 : Shape := ⟨1, ![65536]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S393216x128 : S_.BroadcastsInDim S393216x128 (![] : Fin 0 → Fin S393216x128.rank)
  reducesTo_S393216x128_S_d0_1 : S393216x128.ReducesTo [0, 1] S_
  bcast_S_S65536x1 : S_.BroadcastsInDim S65536x1 (![] : Fin 0 → Fin S65536x1.rank)
  reducesTo_S65536x1_S_d0_1 : S65536x1.ReducesTo [0, 1] S_
  bcast_S_S129x128 : S_.BroadcastsInDim S129x128 (![] : Fin 0 → Fin S129x128.rank)
  reducesTo_S129x128_S_d0_1 : S129x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x384x128 : S_.BroadcastsInDim S2x384x128 (![] : Fin 0 → Fin S2x384x128.rank)
  reducesTo_S2x384x128_S_d0_1_2 : S2x384x128.ReducesTo [0, 1, 2] S_
  bcast_S_S2x128 : S_.BroadcastsInDim S2x128 (![] : Fin 0 → Fin S2x128.rank)
  reducesTo_S2x128_S_d0_1 : S2x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x256x128 : S_.BroadcastsInDim S2x256x128 (![] : Fin 0 → Fin S2x256x128.rank)
  reducesTo_S2x256x128_S_d0_1_2 : S2x256x128.ReducesTo [0, 1, 2] S_

variable [Facts]

def fn_part4 {F : FTy → Type} [FloatOps F] (main_arg14 : FVec F S2x128x128 .f32) (main_arg15 : FVec F S2x128 .f32) (main_v63 : IVec S_ 1) (main_v67 : IVec S_ 1) : IVec S_ 1 :=
  let main_v68 : IVec S_ 1 := andi main_v63 main_v67
  let main_v69 : FVec F S2x128x128 .f32 := Host.absf main_arg14
  let main_cst_26 : FVec F S_ .f32 := constant S_ .f32 0x7F800000#32
  let main_v70 : FVec F S2x128x128 .f32 := broadcastInDim S2x128x128 ![] bcast_S_S2x128x128 main_cst_26
  let main_v71 : IVec S2x128x128 1 := cmpf .olt main_v69 main_v70
  let main_c_27 : IVec S_ 1 := constantI S_ 1 1#1
  let main_v72 : IVec S_ 1 := (fun x v => Host.reduce IntOp.andi x v reducesTo_S2x128x128_S_d0_1_2 h_S_) main_v71 main_c_27
  let main_v73 : IVec S_ 1 := andi main_v68 main_v72
  let main_v74 : FVec F S2x128 .f32 := Host.absf main_arg15
  let main_cst_28 : FVec F S_ .f32 := constant S_ .f32 0x7F800000#32
  let main_v75 : FVec F S2x128 .f32 := broadcastInDim S2x128 ![] bcast_S_S2x128 main_cst_28
  let main_v76 : IVec S2x128 1 := cmpf .olt main_v74 main_v75
  let main_c_29 : IVec S_ 1 := constantI S_ 1 1#1
  let main_v77 : IVec S_ 1 := (fun x v => Host.reduce IntOp.andi x v reducesTo_S2x128_S_d0_1 h_S_) main_v76 main_c_29
  let main_v78 : IVec S_ 1 := andi main_v73 main_v77
  main_v78

def fn_part3 {F : FTy → Type} [FloatOps F] (main_arg11 : FVec F S2x128 .f32) (main_arg12 : FVec F S2x256x128 .f32) (main_arg13 : FVec F S2x128 .f32) (main_arg14 : FVec F S2x128x128 .f32) (main_arg15 : FVec F S2x128 .f32) (main_v48 : IVec S_ 1) (main_v49 : FVec F S2x128x128 .f32) (main_v50 : FVec F S2x128x128 .f32) : IVec S_ 1 :=
  let main_v51 : IVec S2x128x128 1 := cmpf .olt main_v49 main_v50
  let main_c_19 : IVec S_ 1 := constantI S_ 1 1#1
  let main_v52 : IVec S_ 1 := (fun x v => Host.reduce IntOp.andi x v reducesTo_S2x128x128_S_d0_1_2 h_S_) main_v51 main_c_19
  let main_v53 : IVec S_ 1 := andi main_v48 main_v52
  let main_v54 : FVec F S2x128 .f32 := Host.absf main_arg11
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S2x256x128 .f32 := Host.absf main_arg12
  let main_cst_22 : FVec F S_ .f32 := constant S_ .f32 0x7F800000#32
  let main_v60 : FVec F S2x256x128 .f32 := broadcastInDim S2x256x128 ![] bcast_S_S2x256x128 main_cst_22
  let main_v61 : IVec S2x256x128 1 := cmpf .olt main_v59 main_v60
  let main_c_23 : IVec S_ 1 := constantI S_ 1 1#1
  let main_v62 : IVec S_ 1 := (fun x v => Host.reduce IntOp.andi x v reducesTo_S2x256x128_S_d0_1_2 h_S_) main_v61 main_c_23
  let main_v63 : IVec S_ 1 := andi main_v58 main_v62
  let main_v64 : FVec F S2x128 .f32 := Host.absf main_arg13
  let main_cst_24 : FVec F S_ .f32 := constant S_ .f32 0x7F800000#32
  let main_v65 : FVec F S2x128 .f32 := broadcastInDim S2x128 ![] bcast_S_S2x128 main_cst_24
  let main_v66 : IVec S2x128 1 := cmpf .olt main_v64 main_v65
  let main_c_25 : IVec S_ 1 := constantI S_ 1 1#1
  let main_v67 : IVec S_ 1 := (fun x v => Host.reduce IntOp.andi x v reducesTo_S2x128_S_d0_1 h_S_) main_v66 main_c_25
  fn_part4 (F := F) main_arg14 main_arg15 main_v63 main_v67

def fn_part2 {F : FTy → Type} [FloatOps F] (main_arg7 : FVec F S128 .f32) (main_arg8 : FVec F S2x384x128 .f32) (main_arg9 : FVec F S2x128 .f32) (main_arg10 : FVec F S2x128x128 .f32) (main_arg11 : FVec F S2x128 .f32) (main_arg12 : FVec F S2x256x128 .f32) (main_arg13 : FVec F S2x128 .f32) (main_arg14 : FVec F S2x128x128 .f32) (main_arg15 : FVec F S2x128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S2x384x128 .f32 := Host.absf main_arg8
  let main_cst_14 : FVec F S_ .f32 := constant S_ .f32 0x7F800000#32
  let main_v40 : FVec F S2x384x128 .f32 := broadcastInDim S2x384x128 ![] bcast_S_S2x384x128 main_cst_14
  let main_v41 : IVec S2x384x128 1 := cmpf .olt main_v39 main_v40
  let main_c_15 : IVec S_ 1 := constantI S_ 1 1#1
  let main_v42 : IVec S_ 1 := (fun x v => Host.reduce IntOp.andi x v reducesTo_S2x384x128_S_d0_1_2 h_S_) main_v41 main_c_15
  let main_v43 : IVec S_ 1 := andi main_v38 main_v42
  let main_v44 : FVec F S2x128 .f32 := Host.absf main_arg9
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128x128 .f32 := Host.absf main_arg10
  let main_cst_18 : FVec F S_ .f32 := constant S_ .f32 0x7F800000#32
  let main_v50 : FVec F S2x128x128 .f32 := broadcastInDim S2x128x128 ![] bcast_S_S2x128x128 main_cst_18
  fn_part3 (F := F) main_arg11 main_arg12 main_arg13 main_arg14 main_arg15 main_v48 main_v49 main_v50

def fn_part1 {F : FTy → Type} [FloatOps F] (main_arg4 : FVec F S129x128 .f32) (main_arg5 : FVec F S128 .f32) (main_arg6 : FVec F S128x128 .f32) (main_arg7 : FVec F S128 .f32) (main_arg8 : FVec F S2x384x128 .f32) (main_arg9 : FVec F S2x128 .f32) (main_arg10 : FVec F S2x128x128 .f32) (main_arg11 : FVec F S2x128 .f32) (main_arg12 : FVec F S2x256x128 .f32) (main_arg13 : FVec F S2x128 .f32) (main_arg14 : FVec F S2x128x128 .f32) (main_arg15 : FVec F S2x128 .f32) (main_v13 : IVec S_ 1) (main_v16 : IVec S65536x1 1) : IVec S_ 1 :=
  let main_c_5 : IVec S_ 1 := constantI S_ 1 1#1
  let main_v17 : IVec S_ 1 := (fun x v => Host.reduce IntOp.andi x v reducesTo_S65536x1_S_d0_1 h_S_) main_v16 main_c_5
  let main_v18 : IVec S_ 1 := andi main_v13 main_v17
  let main_v19 : FVec F S129x128 .f32 := Host.absf main_arg4
  let main_cst_6 : FVec F S_ .f32 := constant S_ .f32 0x7F800000#32
  let main_v20 : FVec F S129x128 .f32 := broadcastInDim S129x128 ![] bcast_S_S129x128 main_cst_6
  let main_v21 : IVec S129x128 1 := cmpf .olt main_v19 main_v20
  let main_c_7 : IVec S_ 1 := constantI S_ 1 1#1
  let main_v22 : IVec S_ 1 := (fun x v => Host.reduce IntOp.andi x v reducesTo_S129x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S16384x128 .f32) (main_arg1 : FVec F S65536x128 .f32) (main_arg2 : FVec F S393216x128 .f32) (main_arg3 : FVec F S65536x1 .f32) (main_arg4 : FVec F S129x128 .f32) (main_arg5 : FVec F S128 .f32) (main_arg6 : FVec F S128x128 .f32) (main_arg7 : FVec F S128 .f32) (main_arg8 : FVec F S2x384x128 .f32) (main_arg9 : FVec F S2x128 .f32) (main_arg10 : FVec F S2x128x128 .f32) (main_arg11 : FVec F S2x128 .f32) (main_arg12 : FVec F S2x256x128 .f32) (main_arg13 : FVec F S2x128 .f32) (main_arg14 : FVec F S2x128x128 .f32) (main_arg15 : FVec F S2x128 .f32) (main_arg16 : IVec S2x393216 32) (main_arg17 : IVec S65536 32) (main_arg18 : IVec S65536 32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S393216x128 .f32 := Host.absf main_arg2
  let main_cst_2 : FVec F S_ .f32 := constant S_ .f32 0x7F800000#32
  let main_v10 : FVec F S393216x128 .f32 := broadcastInDim S393216x128 ![] bcast_S_S393216x128 main_cst_2
  let main_v11 : IVec S393216x128 1 := cmpf .olt main_v9 main_v10
  let main_c_3 : IVec S_ 1 := constantI S_ 1 1#1
  let main_v12 : IVec S_ 1 := (fun x v => Host.reduce IntOp.andi x v reducesTo_S393216x128_S_d0_1 h_S_) main_v11 main_c_3
  let main_v13 : IVec S_ 1 := andi main_v8 main_v12
  let main_v14 : FVec F S65536x1 .f32 := Host.absf main_arg3
  let main_cst_4 : FVec F S_ .f32 := constant S_ .f32 0x7F800000#32
  let main_v15 : FVec F S65536x1 .f32 := broadcastInDim S65536x1 ![] bcast_S_S65536x1 main_cst_4
  let main_v16 : IVec S65536x1 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S16384x128 : Shape := ⟨2, ![16384, 128]⟩
abbrev S65536x128 : Shape := ⟨2, ![65536, 128]⟩
abbrev S393216x128 : Shape := ⟨2, ![393216, 128]⟩
abbrev S65536x1 : Shape := ⟨2, ![65536, 1]⟩
abbrev S129x128 : Shape := ⟨2, ![129, 128]⟩
abbrev S128 : Shape := ⟨1, ![128]⟩
abbrev S128x128 : Shape := ⟨2, ![128, 128]⟩
abbrev S2x384x128 : Shape := ⟨3, ![2, 384, 128]⟩
abbrev S2x128 : Shape := ⟨2, ![2, 128]⟩
abbrev S2x128x128 : Shape := ⟨3, ![2, 128, 128]⟩
abbrev S2x256x128 : Shape := ⟨3, ![2, 256, 128]⟩
abbrev S2x393216 : Shape := ⟨2, ![2, 393216]⟩
abbrev S65536 : Shape := ⟨1, ![65536]⟩
abbrev S_ : Shape := ⟨0, ![]⟩
abbrev S1x128 : Shape := ⟨2, ![1, 128]⟩
abbrev S4096x128 : Shape := ⟨2, ![4096, 128]⟩
abbrev S4096x1 : Shape := ⟨2, ![4096, 1]⟩
abbrev S1x393216 : Shape := ⟨2, ![1, 393216]⟩
abbrev S393216 : Shape := ⟨1, ![393216]⟩
abbrev S393216x1 : Shape := ⟨2, ![393216, 1]⟩
abbrev S1x384x128 : Shape := ⟨3, ![1, 384, 128]⟩
abbrev S384x128 : Shape := ⟨2, ![384, 128]⟩
abbrev S1x128x128 : Shape := ⟨3, ![1, 128, 128]⟩
abbrev S1x256x128 : Shape := ⟨3, ![1, 256, 128]⟩
abbrev S256x128 : Shape := ⟨2, ![256, 128]⟩

abbrev nBuf : Space → Nat
  | .hbm => 147
  | .vmem => 63
  | .smem => 0
  | _ => 0

abbrev hbmTy0_0 (i : Nat) : BufTy := match i % 128 with
  | 0 => ⟨S16384x128, .f32⟩
  | 1 => ⟨S65536x128, .f32⟩
  | 2 => ⟨S393216x128, .f32⟩
  | 3 => ⟨S65536x1, .f32⟩
  | 4 => ⟨S129x128, .f32⟩
  | 5 => ⟨S128, .f32⟩
  | 6 => ⟨S128x128, .f32⟩
  | 7 => ⟨S128, .f32⟩
  | 8 => ⟨S2x384x128, .f32⟩
  | 9 => ⟨S2x128, .f32⟩
  | 10 => ⟨S2x128x128, .f32⟩
  | 11 => ⟨S2x128, .f32⟩
  | 12 => ⟨S2x256x128, .f32⟩
  | 13 => ⟨S2x128, .f32⟩
  | 14 => ⟨S2x128x128, .f32⟩
  | 15 => ⟨S2x128, .f32⟩
  | 16 => ⟨S2x393216, .i32⟩
  | 17 => ⟨S65536, .i32⟩
  | 18 => ⟨S65536, .i32⟩
  | 19 => ⟨S_, .i32⟩
  | 20 => ⟨S65536, .i32⟩
  | 21 => ⟨S65536, .i1⟩
  | 22 => ⟨S_, .i32⟩
  | 23 => ⟨S65536, .i32⟩
  | 24 => ⟨S65536, .i32⟩
  | 25 => ⟨S65536, .i32⟩
  | 26 => ⟨S65536x1, .i32⟩
  | 27 => ⟨S65536x128, .f32⟩
  | 28 => ⟨S128x128, .f32⟩
  | 29 => ⟨S1x128, .f32⟩
  | 30 => ⟨S1x128, .f32⟩
  | 31 => ⟨S1x128, .f32⟩
  | 32 => ⟨S65536x128, .f32⟩
  | 33 => ⟨S1x393216, .i32⟩
  | 34 => ⟨S393216, .i32⟩
  | 35 => ⟨S1x393216, .i32⟩
  | 36 => ⟨S393216, .i32⟩
  | 37 => ⟨S_, .i32⟩
  | 38 => ⟨S393216, .i32⟩
  | 39 => ⟨S393216, .i1⟩
  | 40 => ⟨S_, .i32⟩
  | 41 => ⟨S393216, .i32⟩
  | 42 => ⟨S393216, .i32⟩
  | 43 => ⟨S393216, .i32⟩
  | 44 => ⟨S393216x1, .i32⟩
  | 45 => ⟨S393216x128, .f32⟩
  | 46 => ⟨S_, .i32⟩
  | 47 => ⟨S393216, .i32⟩
  | 48 => ⟨S393216, .i1⟩
  | 49 => ⟨S_, .i32⟩
  | 50 => ⟨S393216, .i32⟩
  | 51 => ⟨S393216, .i32⟩
  | 52 => ⟨S393216, .i32⟩
  | 53 => ⟨S393216x1, .i32⟩
  | 54 => ⟨S393216x128, .f32⟩
  | 55 => ⟨S1x384x128, .f32⟩
  | 56 => ⟨S384x128, .f32⟩
  | 57 => ⟨S128x128, .f32⟩
  | 58 => ⟨S1x384x128, .f32⟩
  | 59 => ⟨S384x128, .f32⟩
  | 60 => ⟨S128x128, .f32⟩
  | 61 => ⟨S1x384x128, .f32⟩
  | 62 => ⟨S384x128, .f32⟩
  | 63 => ⟨S128x128, .f32⟩
  | 64 => ⟨S1x128, .f32⟩
  | 65 => ⟨S128, .f32⟩
  | 66 => ⟨S1x128, .f32⟩
  | 67 => ⟨S1x128, .f32⟩
  | 68 => ⟨S128, .f32⟩
  | 69 => ⟨S1x128, .f32⟩
  | 70 => ⟨S1x128x128, .f32⟩
  | 71 => ⟨S128x128, .f32⟩
  | 72 => ⟨S393216x128, .f32⟩
  | 73 => ⟨S_, .f32⟩
  | 74 => ⟨S65536x128, .f32⟩
  | 75 => ⟨S393216x1, .i32⟩
  | 76 => ⟨S65536x128, .f32⟩
  | 77 => ⟨S1x256x128, .f32⟩
  | 78 => ⟨S256x128, .f32⟩
  | 79 => ⟨S128x128, .f32⟩
  | 80 => ⟨S1x256x128, .f32⟩
  | 81 => ⟨S256x128, .f32⟩
  | 82 => ⟨S128x128, .f32⟩
  | 83 => ⟨S1x128, .f32⟩
  | 84 => ⟨S128, .f32⟩
  | 85 => ⟨S1x128, .f32⟩
  | 86 => ⟨S1x128, .f32⟩
  | 87 => ⟨S128, .f32⟩
  | 88 => ⟨S1x128, .f32⟩
  | 89 => ⟨S1x128x128, .f32⟩
  | 90 => ⟨S128x128, .f32⟩
  | 91 => ⟨S65536x128, .f32⟩
  | 92 => ⟨S_, .i32⟩
  | 93 => ⟨S393216, .i32⟩
  | 94 => ⟨S393216, .i1⟩
  | 95 => ⟨S_, .i32⟩
  | 96 => ⟨S393216, .i32⟩
  | 97 => ⟨S393216, .i32⟩
  | 98 => ⟨S393216, .i32⟩
  | 99 => ⟨S393216x1, .i32⟩
  | 100 => ⟨S393216x128, .f32⟩
  | 101 => ⟨S_, .i32⟩
  | 102 => ⟨S393216, .i32⟩
  | 103 => ⟨S393216, .i1⟩
  | 104 => ⟨S_, .i32⟩
  | 105 => ⟨S393216, .i32⟩
  | 106 => ⟨S393216, .i32⟩
  | 107 => ⟨S393216, .i32⟩
  | 108 => ⟨S393216x1, .i32⟩
  | 109 => ⟨S393216x128, .f32⟩
  | 110 => ⟨S1x384x128, .f32⟩
  | 111 => ⟨S384x128, .f32⟩
  | 112 => ⟨S128x128, .f32⟩
  | 113 => ⟨S1x384x128, .f32⟩
  | 114 => ⟨S384x128, .f32⟩
  | 115 => ⟨S128x128, .f32⟩
  | 116 => ⟨S1x384x128, .f32⟩
  | 117 => ⟨S384x128, .f32⟩
  | 118 => ⟨S128x128, .f32⟩
  | 119 => ⟨S1x128, .f32⟩
  | 120 => ⟨S128, .f32⟩
  | 121 => ⟨S1x128, .f32⟩
  | 122 => ⟨S1x128, .f32⟩
  | 123 => ⟨S128, .f32⟩
  | 124 => ⟨S1x128, .f32⟩
  | 125 => ⟨S1x128x128, .f32⟩
  | 126 => ⟨S128x128, .f32⟩
  | 127 => ⟨S393216x128, .f32⟩
  | _ => ⟨S16384x128, .f32⟩

abbrev hbmTy0_1 (i : Nat) : BufTy := match i % 128 with
  | 0 => ⟨S_, .f32⟩
  | 1 => ⟨S65536x128, .f32⟩
  | 2 => ⟨S393216x1, .i32⟩
  | 3 => ⟨S65536x128, .f32⟩
  | 4 => ⟨S1x256x128, .f32⟩
  | 5 => ⟨S256x128, .f32⟩
  | 6 => ⟨S128x128, .f32⟩
  | 7 => ⟨S1x256x128, .f32⟩
  | 8 => ⟨S256x128, .f32⟩
  | 9 => ⟨S128x128, .f32⟩
  | 10 => ⟨S1x128, .f32⟩
  | 11 => ⟨S128, .f32⟩
  | 12 => ⟨S1x128, .f32⟩
  | 13 => ⟨S1x128, .f32⟩
  | 14 => ⟨S128, .f32⟩
  | 15 => ⟨S1x128, .f32⟩
  | 16 => ⟨S1x128x128, .f32⟩
  | 17 => ⟨S128x128, .f32⟩
  | 18 => ⟨S65536x128, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x1, .f32⟩
  | .local _ .vmem, ⟨3, _⟩ => ⟨S4096x1, .f32⟩
  | .local _ .vmem, ⟨4, _⟩ => ⟨S4096x128, .f32⟩
  | .local _ .vmem, ⟨5, _⟩ => ⟨S4096x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | .local _ .vmem, ⟨28, _⟩ => ⟨S4096x128, .f32⟩
  | .local _ .vmem, ⟨29, _⟩ => ⟨S4096x128, .f32⟩
  | .local _ .vmem, ⟨30, _⟩ => ⟨S4096x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S4096x128, .f32⟩
  | .local _ .vmem, ⟨37, _⟩ => ⟨S4096x128, .f32⟩
  | .local _ .vmem, ⟨38, _⟩ => ⟨S4096x128, .f32⟩
  | .local _ .vmem, ⟨39, _⟩ => ⟨S4096x128, .f32⟩
  | .local _ .vmem, ⟨40, _⟩ => ⟨S4096x128, .f32⟩
  | .local _ .vmem, ⟨41, _⟩ => ⟨S4096x128, .f32⟩
  | .local _ .vmem, ⟨42, _⟩ => ⟨S4096x128, .f32⟩
  | .local _ .vmem, ⟨43, _⟩ => ⟨S4096x128, .f32⟩
  | .local _ .vmem, ⟨44, _⟩ => ⟨S128x128, .f32⟩
  | .local _ .vmem, ⟨45, _⟩ => ⟨S128x128, .f32⟩
  | .local _ .vmem, ⟨46, _⟩ => ⟨S128x128, .f32⟩
  | .local _ .vmem, ⟨47, _⟩ => ⟨S1x128, .f32⟩
  | .local _ .vmem, ⟨48, _⟩ => ⟨S128x128, .f32⟩
  | .local _ .vmem, ⟨49, _⟩ => ⟨S1x128, .f32⟩
  | .local _ .vmem, ⟨50, _⟩ => ⟨S4096x128, .f32⟩
  | .local _ .vmem, ⟨51, _⟩ => ⟨S4096x128, .f32⟩
  | .local _ .vmem, ⟨52, _⟩ => ⟨S4096x128, .f32⟩
  | .local _ .vmem, ⟨53, _⟩ => ⟨S4096x128, .f32⟩
  | .local _ .vmem, ⟨54, _⟩ => ⟨S4096x128, .f32⟩
  | .local _ .vmem, ⟨55, _⟩ => ⟨S4096x128, .f32⟩
  | .local _ .vmem, ⟨56, _⟩ => ⟨S128x128, .f32⟩
  | .local _ .vmem, ⟨57, _⟩ => ⟨S128x128, .f32⟩
  | .local _ .vmem, ⟨58, _⟩ => ⟨S1x128, .f32⟩
  | .local _ .vmem, ⟨59, _⟩ => ⟨S128x128, .f32⟩
  | .local _ .vmem, ⟨60, _⟩ => ⟨S1x128, .f32⟩
  | .local _ .vmem, ⟨61, _⟩ => ⟨S4096x128, .f32⟩
  | .local _ .vmem, ⟨62, _⟩ => ⟨S4096x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c_1 : Ref sig .tc := ⟨.hbm, 37, rfl⟩
abbrev main_v16 : Ref sig .tc := ⟨.hbm, 38, rfl⟩
abbrev main_v17 : Ref sig .tc := ⟨.hbm, 39, rfl⟩
abbrev main_c_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_3 : Ref sig .tc := ⟨.hbm, 46, rfl⟩
abbrev main_v23 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_5 : Ref sig .tc := ⟨.hbm, 92, rfl⟩
abbrev main_v66 : Ref sig .tc := ⟨.hbm, 93, rfl⟩
abbrev main_v67 : Ref sig .tc := ⟨.hbm, 94, rfl⟩
abbrev main_c_6 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_7 : Ref sig .tc := ⟨.hbm, 101, rfl⟩
abbrev main_v73 : Ref sig .tc := ⟨.hbm, 102, rfl⟩
abbrev main_v74 : Ref sig .tc := ⟨.hbm, 103, rfl⟩
abbrev main_c_8 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_9 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg9_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg7_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg8_0 : Ref sig .tc := ⟨.vmem, 49, rfl⟩
abbrev cc3_stg9_0 : Ref sig .tc := ⟨.vmem, 50, rfl⟩
abbrev cc3_stg9_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg1_1 : Ref sig .tc := ⟨.vmem, 55, rfl⟩
abbrev cc4_stg2_0 : Ref sig .tc := ⟨.vmem, 56, rfl⟩
abbrev cc4_stg3_0 : Ref sig .tc := ⟨.vmem, 57, rfl⟩
abbrev cc4_stg4_0 : Ref sig .tc := ⟨.vmem, 58, rfl⟩
abbrev cc4_stg5_0 : Ref sig .tc := ⟨.vmem, 59, rfl⟩
abbrev cc4_stg6_0 : Ref sig .tc := ⟨.vmem, 60, rfl⟩
abbrev cc4_stg7_0 : Ref sig .tc := ⟨.vmem, 61, rfl⟩
abbrev cc4_stg7_1 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem9_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem7_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc3_sem3_0 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem8_0 : DmaSem sig := 49
abbrev cc3_sem9_0 : DmaSem sig := 50
abbrev cc3_sem9_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem3_0 : DmaSem sig := 57
abbrev cc4_sem4_0 : DmaSem sig := 58
abbrev cc4_sem5_0 : DmaSem sig := 59
abbrev cc4_sem6_0 : DmaSem sig := 60
abbrev cc4_sem7_0 : DmaSem sig := 61
abbrev cc4_sem7_1 : DmaSem sig := 62

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![96], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4096x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4096x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![96], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S4096x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S4096x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  slices_S129x128_S128x128_0_0 : S129x128.Slices ![0, 0] S128x128
  slices_S129x128_S1x128_128_0 : S129x128.Slices ![128, 0] S1x128
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4096x1_S4096x1_0_0 : ∀ a, (![0, 0] : Fin 2 → Nat) a + S4096x1.size a ≤ S4096x1.size a
  h_S4096x1 : 0 < S4096x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4096x1_S4096x128 : S4096x1.Broadcasts S4096x128
  broadcasts_S1x128_S4096x128 : S1x128.Broadcasts S4096x128
  slices_S2x393216_S1x393216_0_0 : S2x393216.Slices ![0, 0] S1x393216
  shapeCasts_S1x393216_S393216 : S1x393216.ShapeCasts S393216
  slices_S2x393216_S1x393216_1_0 : S2x393216.Slices ![1, 0] S1x393216
  bcast_S_S393216 : S_.BroadcastsInDim S393216 (![] : Fin 0 → Fin S393216.rank)
  bcast_S393216_S393216x1_0 : S393216.BroadcastsInDim S393216x1 (![0] : Fin 1 → Fin S393216x1.rank)
  slices_S2x384x128_S1x384x128_0_0_0 : S2x384x128.Slices ![0, 0, 0] S1x384x128
  shapeCasts_S1x384x128_S384x128 : S1x384x128.ShapeCasts S384x128
  slices_S384x128_S128x128_0_0 : S384x128.Slices ![0, 0] S128x128
  slices_S384x128_S128x128_128_0 : S384x128.Slices ![128, 0] S128x128
  slices_S384x128_S128x128_256_0 : S384x128.Slices ![256, 0] S128x128
  slices_S2x128_S1x128_0_0 : S2x128.Slices ![0, 0] S1x128
  shapeCasts_S1x128_S128 : S1x128.ShapeCasts S128
  slices_S2x128x128_S1x128x128_0_0_0 : S2x128x128.Slices ![0, 0, 0] S1x128x128
  shapeCasts_S1x128x128_S128x128 : S1x128x128.ShapeCasts S128x128
  bcast_S_S65536x128 : S_.BroadcastsInDim S65536x128 (![] : Fin 0 → Fin S65536x128.rank)
  slices_S2x256x128_S1x256x128_0_0_0 : S2x256x128.Slices ![0, 0, 0] S1x256x128
  shapeCasts_S1x256x128_S256x128 : S1x256x128.ShapeCasts S256x128
  slices_S256x128_S128x128_0_0 : S256x128.Slices ![0, 0] S128x128
  slices_S256x128_S128x128_128_0 : S256x128.Slices ![128, 0] S128x128
  slices_S2x384x128_S1x384x128_1_0_0 : S2x384x128.Slices ![1, 0, 0] S1x384x128
  slices_S2x128_S1x128_1_0 : S2x128.Slices ![1, 0] S1x128
  slices_S2x128x128_S1x128x128_1_0_0 : S2x128x128.Slices ![1, 0, 0] S1x128x128
  slices_S2x256x128_S1x256x128_1_0_0 : S2x256x128.Slices ![1, 0, 0] S1x256x128
  gather_S16384x128_S65536x1_S65536x128_1_0_n_n_0_1_1128_wf : GatherDims.WF S16384x128 S65536x1 S65536x128 [1] [0] [] [0] [] 1 ![1, 128]
  dot_S4096x128_S128x128_S4096x128_1_0_0_1_n_n_wf : DotDims.WF S4096x128 S128x128 S4096x128 [1] [0] [0] [1] [] []
  gather_S65536x128_S393216x1_S393216x128_1_0_n_n_0_1_1128_wf : GatherDims.WF S65536x128 S393216x1 S393216x128 [1] [0] [] [0] [] 1 ![1, 128]
  scatter_S65536x128_S393216x1_S393216x128_1_0_0_1_wf : ScatterDims.WF S65536x128 S393216x1 S393216x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S65536x1.size a
  hwx0_1 : ∀ i : grid0.Coords, EltTy.bits .f32 = 32 ∨ (Rect.block (s := S65536x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S65536x128.size a
  hwx0_2 : ∀ i : grid0.Coords, EltTy.bits .f32 = 32 ∨ (Rect.block (s := S65536x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x128.size a ≤ S65536x128.size a
  hwx0_8 : ∀ i : grid0.Coords, EltTy.bits .f32 = 32 ∨ (Rect.block (s := S65536x128) S4096x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S393216x128.size a
  hwx1_0 : ∀ i : grid1.Coords, EltTy.bits .f32 = 32 ∨ (Rect.block (s := S393216x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S393216x128.size a
  hwx1_1 : ∀ i : grid1.Coords, EltTy.bits .f32 = 32 ∨ (Rect.block (s := S393216x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S393216x128.size a
  hwx1_2 : ∀ i : grid1.Coords, EltTy.bits .f32 = 32 ∨ (Rect.block (s := S393216x128) S4096x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4096x128.size a ≤ S393216x128.size a
  hwx1_9 : ∀ i : grid1.Coords, EltTy.bits .f32 = 32 ∨ (Rect.block (s := S393216x128) S4096x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S65536x128.size a
  hwx2_0 : ∀ i : grid2.Coords, EltTy.bits .f32 = 32 ∨ (Rect.block (s := S65536x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S65536x128.size a
  hwx2_1 : ∀ i : grid2.Coords, EltTy.bits .f32 = 32 ∨ (Rect.block (s := S65536x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4096x128.size a ≤ S65536x128.size a
  hwx2_7 : ∀ i : grid2.Coords, EltTy.bits .f32 = 32 ∨ (Rect.block (s := S65536x128) S4096x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S393216x128.size a
  hwx3_0 : ∀ i : grid3.Coords, EltTy.bits .f32 = 32 ∨ (Rect.block (s := S393216x128) S4096x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S393216x128.size a
  hwx3_1 : ∀ i : grid3.Coords, EltTy.bits .f32 = 32 ∨ (Rect.block (s := S393216x128) S4096x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x128.size a ≤ S393216x128.size a
  hwx3_2 : ∀ i : grid3.Coords, EltTy.bits .f32 = 32 ∨ (Rect.block (s := S393216x128) S4096x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S4096x128.size a ≤ S393216x128.size a
  hwx3_9 : ∀ i : grid3.Coords, EltTy.bits .f32 = 32 ∨ (Rect.block (s := S393216x128) S4096x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x128.size a ≤ S65536x128.size a
  hwx4_0 : ∀ i : grid4.Coords, EltTy.bits .f32 = 32 ∨ (Rect.block (s := S65536x128) S4096x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x128.size a ≤ S65536x128.size a
  hwx4_1 : ∀ i : grid4.Coords, EltTy.bits .f32 = 32 ∨ (Rect.block (s := S65536x128) S4096x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4096x128.size a ≤ S65536x128.size a
  hwx4_7 : ∀ i : grid4.Coords, EltTy.bits .f32 = 32 ∨ (Rect.block (s := S65536x128) S4096x128.size (cc4_transform_7 i) (hinb4_7 i)).WholeWords (EltTy.packing .f32)

variable [Facts₀]

def gather_S16384x128_S65536x1_S65536x128_1_0_n_n_0_1_1128 : GatherDims S16384x128 S65536x1 S65536x128 where
  offsetDims := [1]
  collapsedSliceDims := [0]
  operandBatchingDims := []
  startIndicesBatchingDims := []
  startIndexMap := [0]
  indexVectorDim := 1
  sliceSizes := ![1, 128]
  wf := gather_S16384x128_S65536x1_S65536x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S65536x128_S393216x1_S393216x128_1_0_n_n_0_1_1128 : GatherDims S65536x128 S393216x1 S393216x128 where
  offsetDims := [1]
  collapsedSliceDims := [0]
  operandBatchingDims := []
  startIndicesBatchingDims := []
  startIndexMap := [0]
  indexVectorDim := 1
  sliceSizes := ![1, 128]
  wf := gather_S65536x128_S393216x1_S393216x128_1_0_n_n_0_1_1128_wf
def scatter_S65536x128_S393216x1_S393216x128_1_0_0_1 : ScatterDims S65536x128 S393216x1 S393216x128 where
  updateWindowDims := [1]
  insertedWindowDims := [0]
  scatterDimsToOperandDims := [0]
  indexVectorDim := 1
  wf := scatter_S65536x128_S393216x1_S393216x128_1_0_0_1_wf

abbrev win0_0 : Pipeline.Window sig grid0 :=
  Pipeline.Window.ofSpec (Memref.whole main_v6) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S4096x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg2) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v44) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v47) S4096x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v11) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v65) S4096x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v47) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S4096x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v79) S4096x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v82) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v85) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v88) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v91) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v96) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v94) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v97) S4096x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v65) S4096x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v100) S4096x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v103) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v106) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v109) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v114) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v112) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v115) S4096x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S16384x128 : Shape := ⟨2, ![16384, 128]⟩
abbrev S65536x128 : Shape := ⟨2, ![65536, 128]⟩
abbrev S393216x128 : Shape := ⟨2, ![393216, 128]⟩
abbrev S65536x1 : Shape := ⟨2, ![65536, 1]⟩
abbrev S129x128 : Shape := ⟨2, ![129, 128]⟩
abbrev S128 : Shape := ⟨1, ![128]⟩
abbrev S128x128 : Shape := ⟨2, ![128, 128]⟩
abbrev S2x384x128 : Shape := ⟨3, ![2, 384, 128]⟩
abbrev S2x128 : Shape := ⟨2, ![2, 128]⟩
abbrev S2x128x128 : Shape := ⟨3, ![2, 128, 128]⟩
abbrev S2x256x128 : Shape := ⟨3, ![2, 256, 128]⟩
abbrev S2x393216 : Shape := ⟨2, ![2, 393216]⟩
abbrev S65536 : Shape := ⟨1, ![65536]⟩
abbrev S_ : Shape := ⟨0, ![]⟩
abbrev S65536x129 : Shape := ⟨2, ![65536, 129]⟩
abbrev S1x128 : Shape := ⟨2, ![1, 128]⟩
abbrev S1x393216 : Shape := ⟨2, ![1, 393216]⟩
abbrev S393216 : Shape := ⟨1, ![393216]⟩
abbrev S393216x1 : Shape := ⟨2, ![393216, 1]⟩
abbrev S393216x384 : Shape := ⟨2, ![393216, 384]⟩
abbrev S1x384x128 : Shape := ⟨3, ![1, 384, 128]⟩
abbrev S384x128 : Shape := ⟨2, ![384, 128]⟩
abbrev S1x128x128 : Shape := ⟨3, ![1, 128, 128]⟩
abbrev S65536x256 : Shape := ⟨2, ![65536, 256]⟩
abbrev S1x256x128 : Shape := ⟨3, ![1, 256, 128]⟩
abbrev S256x128 : Shape := ⟨2, ![256, 128]⟩

abbrev nBuf : Space → Nat
  | .hbm => 253
  | .vmem => 0
  | .smem => 0
  | _ => 0

abbrev hbmTy0_0 (i : Nat) : BufTy := match i % 128 with
  | 0 => ⟨S16384x128, .f32⟩
  | 1 => ⟨S65536x128, .f32⟩
  | 2 => ⟨S393216x128, .f32⟩
  | 3 => ⟨S65536x1, .f32⟩
  | 4 => ⟨S129x128, .f32⟩
  | 5 => ⟨S128, .f32⟩
  | 6 => ⟨S128x128, .f32⟩
  | 7 => ⟨S128, .f32⟩
  | 8 => ⟨S2x384x128, .f32⟩
  | 9 => ⟨S2x128, .f32⟩
  | 10 => ⟨S2x128x128, .f32⟩
  | 11 => ⟨S2x128, .f32⟩
  | 12 => ⟨S2x256x128, .f32⟩
  | 13 => ⟨S2x128, .f32⟩
  | 14 => ⟨S2x128x128, .f32⟩
  | 15 => ⟨S2x128, .f32⟩
  | 16 => ⟨S2x393216, .i32⟩
  | 17 => ⟨S65536, .i32⟩
  | 18 => ⟨S65536, .i32⟩
  | 19 => ⟨S_, .i32⟩
  | 20 => ⟨S65536, .i32⟩
  | 21 => ⟨S65536, .i1⟩
  | 22 => ⟨S_, .i32⟩
  | 23 => ⟨S65536, .i32⟩
  | 24 => ⟨S65536, .i32⟩
  | 25 => ⟨S65536, .i32⟩
  | 26 => ⟨S65536x1, .i32⟩
  | 27 => ⟨S65536x128, .f32⟩
  | 28 => ⟨S65536x129, .f32⟩
  | 29 => ⟨S65536x128, .f32⟩
  | 30 => ⟨S1x128, .f32⟩
  | 31 => ⟨S65536x128, .f32⟩
  | 32 => ⟨S65536x128, .f32⟩
  | 33 => ⟨S_, .f32⟩
  | 34 => ⟨S_, .f32⟩
  | 35 => ⟨S65536x128, .f32⟩
  | 36 => ⟨S65536x128, .i1⟩
  | 37 => ⟨S_, .f32⟩
  | 38 => ⟨S65536x128, .f32⟩
  | 39 => ⟨S65536x128, .i1⟩
  | 40 => ⟨S_, .f32⟩
  | 41 => ⟨S_, .f32⟩
  | 42 => ⟨S65536x128, .f32⟩
  | 43 => ⟨S65536x128, .f32⟩
  | 44 => ⟨S65536x128, .f32⟩
  | 45 => ⟨S_, .f32⟩
  | 46 => ⟨S65536x128, .f32⟩
  | 47 => ⟨S65536x128, .f32⟩
  | 48 => ⟨S65536x128, .f32⟩
  | 49 => ⟨S_, .f32⟩
  | 50 => ⟨S65536x128, .f32⟩
  | 51 => ⟨S65536x128, .f32⟩
  | 52 => ⟨S65536x128, .f32⟩
  | 53 => ⟨S1x128, .f32⟩
  | 54 => ⟨S65536x128, .f32⟩
  | 55 => ⟨S65536x128, .f32⟩
  | 56 => ⟨S65536x128, .f32⟩
  | 57 => ⟨S1x393216, .i32⟩
  | 58 => ⟨S393216, .i32⟩
  | 59 => ⟨S1x393216, .i32⟩
  | 60 => ⟨S393216, .i32⟩
  | 61 => ⟨S_, .i32⟩
  | 62 => ⟨S393216, .i32⟩
  | 63 => ⟨S393216, .i1⟩
  | 64 => ⟨S_, .i32⟩
  | 65 => ⟨S393216, .i32⟩
  | 66 => ⟨S393216, .i32⟩
  | 67 => ⟨S393216, .i32⟩
  | 68 => ⟨S393216x1, .i32⟩
  | 69 => ⟨S393216x128, .f32⟩
  | 70 => ⟨S_, .i32⟩
  | 71 => ⟨S393216, .i32⟩
  | 72 => ⟨S393216, .i1⟩
  | 73 => ⟨S_, .i32⟩
  | 74 => ⟨S393216, .i32⟩
  | 75 => ⟨S393216, .i32⟩
  | 76 => ⟨S393216, .i32⟩
  | 77 => ⟨S393216x1, .i32⟩
  | 78 => ⟨S393216x128, .f32⟩
  | 79 => ⟨S393216x384, .f32⟩
  | 80 => ⟨S1x384x128, .f32⟩
  | 81 => ⟨S384x128, .f32⟩
  | 82 => ⟨S1x128, .f32⟩
  | 83 => ⟨S128, .f32⟩
  | 84 => ⟨S1x128x128, .f32⟩
  | 85 => ⟨S128x128, .f32⟩
  | 86 => ⟨S1x128, .f32⟩
  | 87 => ⟨S128, .f32⟩
  | 88 => ⟨S393216x128, .f32⟩
  | 89 => ⟨S1x128, .f32⟩
  | 90 => ⟨S393216x128, .f32⟩
  | 91 => ⟨S393216x128, .f32⟩
  | 92 => ⟨S_, .f32⟩
  | 93 => ⟨S_, .f32⟩
  | 94 => ⟨S393216x128, .f32⟩
  | 95 => ⟨S393216x128, .i1⟩
  | 96 => ⟨S_, .f32⟩
  | 97 => ⟨S393216x128, .f32⟩
  | 98 => ⟨S393216x128, .i1⟩
  | 99 => ⟨S_, .f32⟩
  | 100 => ⟨S_, .f32⟩
  | 101 => ⟨S393216x128, .f32⟩
  | 102 => ⟨S393216x128, .f32⟩
  | 103 => ⟨S393216x128, .f32⟩
  | 104 => ⟨S_, .f32⟩
  | 105 => ⟨S393216x128, .f32⟩
  | 106 => ⟨S393216x128, .f32⟩
  | 107 => ⟨S393216x128, .f32⟩
  | 108 => ⟨S_, .f32⟩
  | 109 => ⟨S393216x128, .f32⟩
  | 110 => ⟨S393216x128, .f32⟩
  | 111 => ⟨S393216x128, .f32⟩
  | 112 => ⟨S1x128, .f32⟩
  | 113 => ⟨S393216x128, .f32⟩
  | 114 => ⟨S393216x128, .f32⟩
  | 115 => ⟨S393216x128, .f32⟩
  | 116 => ⟨S_, .f32⟩
  | 117 => ⟨S65536x128, .f32⟩
  | 118 => ⟨S393216x1, .i32⟩
  | 119 => ⟨S65536x128, .f32⟩
  | 120 => ⟨S65536x256, .f32⟩
  | 121 => ⟨S1x256x128, .f32⟩
  | 122 => ⟨S256x128, .f32⟩
  | 123 => ⟨S1x128, .f32⟩
  | 124 => ⟨S128, .f32⟩
  | 125 => ⟨S1x128x128, .f32⟩
  | 126 => ⟨S128x128, .f32⟩
  | 127 => ⟨S1x128, .f32⟩
  | _ => ⟨S16384x128, .f32⟩

abbrev hbmTy0_1 (i : Nat) : BufTy := match i % 128 with
  | 0 => ⟨S128, .f32⟩
  | 1 => ⟨S65536x128, .f32⟩
  | 2 => ⟨S1x128, .f32⟩
  | 3 => ⟨S65536x128, .f32⟩
  | 4 => ⟨S65536x128, .f32⟩
  | 5 => ⟨S_, .f32⟩
  | 6 => ⟨S_, .f32⟩
  | 7 => ⟨S65536x128, .f32⟩
  | 8 => ⟨S65536x128, .i1⟩
  | 9 => ⟨S_, .f32⟩
  | 10 => ⟨S65536x128, .f32⟩
  | 11 => ⟨S65536x128, .i1⟩
  | 12 => ⟨S_, .f32⟩
  | 13 => ⟨S_, .f32⟩
  | 14 => ⟨S65536x128, .f32⟩
  | 15 => ⟨S65536x128, .f32⟩
  | 16 => ⟨S65536x128, .f32⟩
  | 17 => ⟨S_, .f32⟩
  | 18 => ⟨S65536x128, .f32⟩
  | 19 => ⟨S65536x128, .f32⟩
  | 20 => ⟨S65536x128, .f32⟩
  | 21 => ⟨S_, .f32⟩
  | 22 => ⟨S65536x128, .f32⟩
  | 23 => ⟨S65536x128, .f32⟩
  | 24 => ⟨S65536x128, .f32⟩
  | 25 => ⟨S1x128, .f32⟩
  | 26 => ⟨S65536x128, .f32⟩
  | 27 => ⟨S65536x128, .f32⟩
  | 28 => ⟨S65536x128, .f32⟩
  | 29 => ⟨S_, .i32⟩
  | 30 => ⟨S393216, .i32⟩
  | 31 => ⟨S393216, .i1⟩
  | 32 => ⟨S_, .i32⟩
  | 33 => ⟨S393216, .i32⟩
  | 34 => ⟨S393216, .i32⟩
  | 35 => ⟨S393216, .i32⟩
  | 36 => ⟨S393216x1, .i32⟩
  | 37 => ⟨S393216x128, .f32⟩
  | 38 => ⟨S_, .i32⟩
  | 39 => ⟨S393216, .i32⟩
  | 40 => ⟨S393216, .i1⟩
  | 41 => ⟨S_, .i32⟩
  | 42 => ⟨S393216, .i32⟩
  | 43 => ⟨S393216, .i32⟩
  | 44 => ⟨S393216, .i32⟩
  | 45 => ⟨S393216x1, .i32⟩
  | 46 => ⟨S393216x128, .f32⟩
  | 47 => ⟨S393216x384, .f32⟩
  | 48 => ⟨S1x384x128, .f32⟩
  | 49 => ⟨S384x128, .f32⟩
  | 50 => ⟨S1x128, .f32⟩
  | 51 => ⟨S128, .f32⟩
  | 52 => ⟨S1x128x128, .f32⟩
  | 53 => ⟨S128x128, .f32⟩
  | 54 => ⟨S1x128, .f32⟩
  | 55 => ⟨S128, .f32⟩
  | 56 => ⟨S393216x128, .f32⟩
  | 57 => ⟨S1x128, .f32⟩
  | 58 => ⟨S393216x128, .f32⟩
  | 59 => ⟨S393216x128, .f32⟩
  | 60 => ⟨S_, .f32⟩
  | 61 => ⟨S_, .f32⟩
  | 62 => ⟨S393216x128, .f32⟩
  | 63 => ⟨S393216x128, .i1⟩
  | 64 => ⟨S_, .f32⟩
  | 65 => ⟨S393216x128, .f32⟩
  | 66 => ⟨S393216x128, .i1⟩
  | 67 => ⟨S_, .f32⟩
  | 68 => ⟨S_, .f32⟩
  | 69 => ⟨S393216x128, .f32⟩
  | 70 => ⟨S393216x128, .f32⟩
  | 71 => ⟨S393216x128, .f32⟩
  | 72 => ⟨S_, .f32⟩
  | 73 => ⟨S393216x128, .f32⟩
  | 74 => ⟨S393216x128, .f32⟩
  | 75 => ⟨S393216x128, .f32⟩
  | 76 => ⟨S_, .f32⟩
  | 77 => ⟨S393216x128, .f32⟩
  | 78 => ⟨S393216x128, .f32⟩
  | 79 => ⟨S393216x128, .f32⟩
  | 80 => ⟨S1x128, .f32⟩
  | 81 => ⟨S393216x128, .f32⟩
  | 82 => ⟨S393216x128, .f32⟩
  | 83 => ⟨S393216x128, .f32⟩
  | 84 => ⟨S_, .f32⟩
  | 85 => ⟨S65536x128, .f32⟩
  | 86 => ⟨S393216x1, .i32⟩
  | 87 => ⟨S65536x128, .f32⟩
  | 88 => ⟨S65536x256, .f32⟩
  | 89 => ⟨S1x256x128, .f32⟩
  | 90 => ⟨S256x128, .f32⟩
  | 91 => ⟨S1x128, .f32⟩
  | 92 => ⟨S128, .f32⟩
  | 93 => ⟨S1x128x128, .f32⟩
  | 94 => ⟨S128x128, .f32⟩
  | 95 => ⟨S1x128, .f32⟩
  | 96 => ⟨S128, .f32⟩
  | 97 => ⟨S65536x128, .f32⟩
  | 98 => ⟨S1x128, .f32⟩
  | 99 => ⟨S65536x128, .f32⟩
  | 100 => ⟨S65536x128, .f32⟩
  | 101 => ⟨S_, .f32⟩
  | 102 => ⟨S_, .f32⟩
  | 103 => ⟨S65536x128, .f32⟩
  | 104 => ⟨S65536x128, .i1⟩
  | 105 => ⟨S_, .f32⟩
  | 106 => ⟨S65536x128, .f32⟩
  | 107 => ⟨S65536x128, .i1⟩
  | 108 => ⟨S_, .f32⟩
  | 109 => ⟨S_, .f32⟩
  | 110 => ⟨S65536x128, .f32⟩
  | 111 => ⟨S65536x128, .f32⟩
  | 112 => ⟨S65536x128, .f32⟩
  | 113 => ⟨S_, .f32⟩
  | 114 => ⟨S65536x128, .f32⟩
  | 115 => ⟨S65536x128, .f32⟩
  | 116 => ⟨S65536x128, .f32⟩
  | 117 => ⟨S_, .f32⟩
  | 118 => ⟨S65536x128, .f32⟩
  | 119 => ⟨S65536x128, .f32⟩
  | 120 => ⟨S65536x128, .f32⟩
  | 121 => ⟨S1x128, .f32⟩
  | 122 => ⟨S65536x128, .f32⟩
  | 123 => ⟨S65536x128, .f32⟩
  | 124 => ⟨S65536x128, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_call0_cst : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_cst_0 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_cst_1 : Ref sig .tc := ⟨.hbm, 40, rfl⟩
abbrev main_call0_call0_call0_v0 : Ref sig .tc := ⟨.hbm, 41, rfl⟩
abbrev main_call0_call0_call0_v1 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_v0 : Ref sig .tc := ⟨.hbm, 48, rfl⟩
abbrev main_call0_cst_0 : Ref sig .tc := ⟨.hbm, 49, rfl⟩
abbrev main_call0_v1 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_c_1 : Ref sig .tc := ⟨.hbm, 61, rfl⟩
abbrev main_v22 : Ref sig .tc := ⟨.hbm, 62, rfl⟩
abbrev main_v23 : Ref sig .tc := ⟨.hbm, 63, rfl⟩
abbrev main_c_2 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_c_3 : Ref sig .tc := ⟨.hbm, 70, rfl⟩
abbrev main_v29 : Ref sig .tc := ⟨.hbm, 71, rfl⟩
abbrev main_v30 : Ref sig .tc := ⟨.hbm, 72, rfl⟩
abbrev main_c_4 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_call1_cst : Ref sig .tc := ⟨.hbm, 92, rfl⟩
abbrev main_call1_call0_cst : Ref sig .tc := ⟨.hbm, 93, rfl⟩
abbrev main_call1_call0_v0 : Ref sig .tc := ⟨.hbm, 94, rfl⟩
abbrev main_call1_call0_v1 : Ref sig .tc := ⟨.hbm, 95, rfl⟩
abbrev main_call1_call0_cst_0 : Ref sig .tc := ⟨.hbm, 96, rfl⟩
abbrev main_call1_call0_v2 : Ref sig .tc := ⟨.hbm, 97, rfl⟩
abbrev main_call1_call0_v3 : Ref sig .tc := ⟨.hbm, 98, rfl⟩
abbrev main_call1_call0_cst_1 : Ref sig .tc := ⟨.hbm, 99, rfl⟩
abbrev main_call1_call0_call0_v0 : Ref sig .tc := ⟨.hbm, 100, rfl⟩
abbrev main_call1_call0_call0_v1 : Ref sig .tc := ⟨.hbm, 101, rfl⟩
abbrev main_call1_call0_v4 : Ref sig .tc := ⟨.hbm, 102, rfl⟩
abbrev main_call1_call0_v5 : Ref sig .tc := ⟨.hbm, 103, rfl⟩
abbrev main_call1_call0_v6 : Ref sig .tc := ⟨.hbm, 104, rfl⟩
abbrev main_call1_call0_v7 : Ref sig .tc := ⟨.hbm, 105, rfl⟩
abbrev main_call1_call0_v8 : Ref sig .tc := ⟨.hbm, 106, rfl⟩
abbrev main_call1_v0 : Ref sig .tc := ⟨.hbm, 107, rfl⟩
abbrev main_call1_cst_0 : Ref sig .tc := ⟨.hbm, 108, rfl⟩
abbrev main_call1_v1 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_cst : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_call2_cst : Ref sig .tc := ⟨.hbm, 133, rfl⟩
abbrev main_call2_call0_cst : Ref sig .tc := ⟨.hbm, 134, rfl⟩
abbrev main_call2_call0_v0 : Ref sig .tc := ⟨.hbm, 135, rfl⟩
abbrev main_call2_call0_v1 : Ref sig .tc := ⟨.hbm, 136, rfl⟩
abbrev main_call2_call0_cst_0 : Ref sig .tc := ⟨.hbm, 137, rfl⟩
abbrev main_call2_call0_v2 : Ref sig .tc := ⟨.hbm, 138, rfl⟩
abbrev main_call2_call0_v3 : Ref sig .tc := ⟨.hbm, 139, rfl⟩
abbrev main_call2_call0_cst_1 : Ref sig .tc := ⟨.hbm, 140, rfl⟩
abbrev main_call2_call0_call0_v0 : Ref sig .tc := ⟨.hbm, 141, rfl⟩
abbrev main_call2_call0_call0_v1 : Ref sig .tc := ⟨.hbm, 142, rfl⟩
abbrev main_call2_call0_v4 : Ref sig .tc := ⟨.hbm, 143, rfl⟩
abbrev main_call2_call0_v5 : Ref sig .tc := ⟨.hbm, 144, rfl⟩
abbrev main_call2_call0_v6 : Ref sig .tc := ⟨.hbm, 145, rfl⟩
abbrev main_call2_call0_v7 : Ref sig .tc := ⟨.hbm, 146, rfl⟩
abbrev main_call2_call0_v8 : Ref sig .tc := ⟨.hbm, 147, rfl⟩
abbrev main_call2_v0 : Ref sig .tc := ⟨.hbm, 148, rfl⟩
abbrev main_call2_cst_0 : Ref sig .tc := ⟨.hbm, 149, rfl⟩
abbrev main_call2_v1 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_c_5 : Ref sig .tc := ⟨.hbm, 157, rfl⟩
abbrev main_v77 : Ref sig .tc := ⟨.hbm, 158, rfl⟩
abbrev main_v78 : Ref sig .tc := ⟨.hbm, 159, rfl⟩
abbrev main_c_6 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_c_7 : Ref sig .tc := ⟨.hbm, 166, rfl⟩
abbrev main_v84 : Ref sig .tc := ⟨.hbm, 167, rfl⟩
abbrev main_v85 : Ref sig .tc := ⟨.hbm, 168, rfl⟩
abbrev main_c_8 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_call3_cst : Ref sig .tc := ⟨.hbm, 188, rfl⟩
abbrev main_call3_call0_cst : Ref sig .tc := ⟨.hbm, 189, rfl⟩
abbrev main_call3_call0_v0 : Ref sig .tc := ⟨.hbm, 190, rfl⟩
abbrev main_call3_call0_v1 : Ref sig .tc := ⟨.hbm, 191, rfl⟩
abbrev main_call3_call0_cst_0 : Ref sig .tc := ⟨.hbm, 192, rfl⟩
abbrev main_call3_call0_v2 : Ref sig .tc := ⟨.hbm, 193, rfl⟩
abbrev main_call3_call0_v3 : Ref sig .tc := ⟨.hbm, 194, rfl⟩
abbrev main_call3_call0_cst_1 : Ref sig .tc := ⟨.hbm, 195, rfl⟩
abbrev main_call3_call0_call0_v0 : Ref sig .tc := ⟨.hbm, 196, rfl⟩
abbrev main_call3_call0_call0_v1 : Ref sig .tc := ⟨.hbm, 197, rfl⟩
abbrev main_call3_call0_v4 : Ref sig .tc := ⟨.hbm, 198, rfl⟩
abbrev main_call3_call0_v5 : Ref sig .tc := ⟨.hbm, 199, rfl⟩
abbrev main_call3_call0_v6 : Ref sig .tc := ⟨.hbm, 200, rfl⟩
abbrev main_call3_call0_v7 : Ref sig .tc := ⟨.hbm, 201, rfl⟩
abbrev main_call3_call0_v8 : Ref sig .tc := ⟨.hbm, 202, rfl⟩
abbrev main_call3_v0 : Ref sig .tc := ⟨.hbm, 203, rfl⟩
abbrev main_call3_cst_0 : Ref sig .tc := ⟨.hbm, 204, rfl⟩
abbrev main_call3_v1 : Ref sig .tc := ⟨.hbm, 205, rfl⟩
abbrev main_v104 : Ref sig .tc := ⟨.hbm, 206, rfl⟩
abbrev main_v105 : Ref sig .tc := ⟨.hbm, 207, rfl⟩
abbrev main_v106 : Ref sig .tc := ⟨.hbm, 208, rfl⟩
abbrev main_v107 : Ref sig .tc := ⟨.hbm, 209, rfl⟩
abbrev main_v108 : Ref sig .tc := ⟨.hbm, 210, rfl⟩
abbrev main_v109 : Ref sig .tc := ⟨.hbm, 211, rfl⟩
abbrev main_cst_9 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_call4_cst : Ref sig .tc := ⟨.hbm, 229, rfl⟩
abbrev main_call4_call0_cst : Ref sig .tc := ⟨.hbm, 230, rfl⟩
abbrev main_call4_call0_v0 : Ref sig .tc := ⟨.hbm, 231, rfl⟩
abbrev main_call4_call0_v1 : Ref sig .tc := ⟨.hbm, 232, rfl⟩
abbrev main_call4_call0_cst_0 : Ref sig .tc := ⟨.hbm, 233, rfl⟩
abbrev main_call4_call0_v2 : Ref sig .tc := ⟨.hbm, 234, rfl⟩
abbrev main_call4_call0_v3 : Ref sig .tc := ⟨.hbm, 235, rfl⟩
abbrev main_call4_call0_cst_1 : Ref sig .tc := ⟨.hbm, 236, rfl⟩
abbrev main_call4_call0_call0_v0 : Ref sig .tc := ⟨.hbm, 237, rfl⟩
abbrev main_call4_call0_call0_v1 : Ref sig .tc := ⟨.hbm, 238, rfl⟩
abbrev main_call4_call0_v4 : Ref sig .tc := ⟨.hbm, 239, rfl⟩
abbrev main_call4_call0_v5 : Ref sig .tc := ⟨.hbm, 240, rfl⟩
abbrev main_call4_call0_v6 : Ref sig .tc := ⟨.hbm, 241, rfl⟩
abbrev main_call4_call0_v7 : Ref sig .tc := ⟨.hbm, 242, rfl⟩
abbrev main_call4_call0_v8 : Ref sig .tc := ⟨.hbm, 243, rfl⟩
abbrev main_call4_v0 : Ref sig .tc := ⟨.hbm, 244, rfl⟩
abbrev main_call4_cst_0 : Ref sig .tc := ⟨.hbm, 245, rfl⟩
abbrev main_call4_v1 : Ref sig .tc := ⟨.hbm, 246, rfl⟩
abbrev main_v126 : Ref sig .tc := ⟨.hbm, 247, rfl⟩
abbrev main_v127 : Ref sig .tc := ⟨.hbm, 248, rfl⟩
abbrev main_v128 : Ref sig .tc := ⟨.hbm, 249, rfl⟩
abbrev main_v129 : Ref sig .tc := ⟨.hbm, 250, rfl⟩
abbrev main_v130 : Ref sig .tc := ⟨.hbm, 251, rfl⟩
abbrev main_v131 : Ref sig .tc := ⟨.hbm, 252, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  concatenates_S65536x128_S65536x1_S65536x129_d1 : Shape.Concatenates [S65536x128, S65536x1] S65536x129 1
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  slices_S2x393216_S1x393216_0_0 : S2x393216.Slices ![0, 0] S1x393216
  shapeCasts_S1x393216_S393216 : S1x393216.ShapeCasts S393216
  slices_S2x393216_S1x393216_1_0 : S2x393216.Slices ![1, 0] S1x393216
  bcast_S_S393216 : S_.BroadcastsInDim S393216 (![] : Fin 0 → Fin S393216.rank)
  bcast_S393216_S393216x1_0 : S393216.BroadcastsInDim S393216x1 (![0] : Fin 1 → Fin S393216x1.rank)
  concatenates_S393216x128_S393216x128_S393216x128_S393216x384_d1 : Shape.Concatenates [S393216x128, S393216x128, S393216x128] S393216x384 1
  slices_S2x384x128_S1x384x128_0_0_0 : S2x384x128.Slices ![0, 0, 0] S1x384x128
  shapeCasts_S1x384x128_S384x128 : S1x384x128.ShapeCasts S384x128
  slices_S2x128_S1x128_0_0 : S2x128.Slices ![0, 0] S1x128
  shapeCasts_S1x128_S128 : S1x128.ShapeCasts S128
  slices_S2x128x128_S1x128x128_0_0_0 : S2x128x128.Slices ![0, 0, 0] S1x128x128
  shapeCasts_S1x128x128_S128x128 : S1x128x128.ShapeCasts S128x128
  bcast_S1x128_S393216x128_0_1 : S1x128.BroadcastsInDim S393216x128 (![0, 1] : Fin 2 → Fin S393216x128.rank)
  bcast_S_S393216x128 : S_.BroadcastsInDim S393216x128 (![] : Fin 0 → Fin S393216x128.rank)
  concatenates_S65536x128_S65536x128_S65536x256_d1 : Shape.Concatenates [S65536x128, S65536x128] S65536x256 1
  slices_S2x256x128_S1x256x128_0_0_0 : S2x256x128.Slices ![0, 0, 0] S1x256x128
  shapeCasts_S1x256x128_S256x128 : S1x256x128.ShapeCasts S256x128
  slices_S2x384x128_S1x384x128_1_0_0 : S2x384x128.Slices ![1, 0, 0] S1x384x128
  slices_S2x128_S1x128_1_0 : S2x128.Slices ![1, 0] S1x128
  slices_S2x128x128_S1x128x128_1_0_0 : S2x128x128.Slices ![1, 0, 0] S1x128x128
  slices_S2x256x128_S1x256x128_1_0_0 : S2x256x128.Slices ![1, 0, 0] S1x256x128
  gather_S16384x128_S65536x1_S65536x128_1_0_n_n_0_1_1128_wf : GatherDims.WF S16384x128 S65536x1 S65536x128 [1] [0] [] [0] [] 1 ![1, 128]
  dot_S65536x129_S129x128_S65536x128_1_0_0_1_n_n_wf : DotDims.WF S65536x129 S129x128 S65536x128 [1] [0] [0] [1] [] []
  dot_S65536x128_S128x128_S65536x128_1_0_0_1_n_n_wf : DotDims.WF S65536x128 S128x128 S65536x128 [1] [0] [0] [1] [] []
  gather_S65536x128_S393216x1_S393216x128_1_0_n_n_0_1_1128_wf : GatherDims.WF S65536x128 S393216x1 S393216x128 [1] [0] [] [0] [] 1 ![1, 128]
  dot_S393216x384_S384x128_S393216x128_1_0_0_1_n_n_wf : DotDims.WF S393216x384 S384x128 S393216x128 [1] [0] [0] [1] [] []
  dot_S393216x128_S128x128_S393216x128_1_0_0_1_n_n_wf : DotDims.WF S393216x128 S128x128 S393216x128 [1] [0] [0] [1] [] []
  scatter_S65536x128_S393216x1_S393216x128_1_0_0_1_wf : ScatterDims.WF S65536x128 S393216x1 S393216x128 [1] [0] [0] 1
  dot_S65536x256_S256x128_S65536x128_1_0_0_1_n_n_wf : DotDims.WF S65536x256 S256x128 S65536x128 [1] [0] [0] [1] [] []

variable [Facts₀]

def gather_S16384x128_S65536x1_S65536x128_1_0_n_n_0_1_1128 : GatherDims S16384x128 S65536x1 S65536x128 where
  offsetDims := [1]
  collapsedSliceDims := [0]
  operandBatchingDims := []
  startIndicesBatchingDims := []
  startIndexMap := [0]
  indexVectorDim := 1
  sliceSizes := ![1, 128]
  wf := gather_S16384x128_S65536x1_S65536x128_1_0_n_n_0_1_1128_wf
def dot_S65536x129_S129x128_S65536x128_1_0_0_1_n_n : DotDims S65536x129 S129x128 S65536x128 where
  lhsContracting := [1]
  rhsContracting := [0]
  lhsNonContracting := [0]
  rhsNonContracting := [1]
  lhsBatch := []
  rhsBatch := []
  wf := dot_S65536x129_S129x128_S65536x128_1_0_0_1_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def gather_S65536x128_S393216x1_S393216x128_1_0_n_n_0_1_1128 : GatherDims S65536x128 S393216x1 S393216x128 where
  offsetDims := [1]
  collapsedSliceDims := [0]
  operandBatchingDims := []
  startIndicesBatchingDims := []
  startIndexMap := [0]
  indexVectorDim := 1
  sliceSizes := ![1, 128]
  wf := gather_S65536x128_S393216x1_S393216x128_1_0_n_n_0_1_1128_wf
def dot_S393216x384_S384x128_S393216x128_1_0_0_1_n_n : DotDims S393216x384 S384x128 S393216x128 where
  lhsContracting := [1]
  rhsContracting := [0]
  lhsNonContracting := [0]
  rhsNonContracting := [1]
  lhsBatch := []
  rhsBatch := []
  wf := dot_S393216x384_S384x128_S393216x128_1_0_0_1_n_n_wf
def dot_S393216x128_S128x128_S393216x128_1_0_0_1_n_n : DotDims S393216x128 S128x128 S393216x128 where
  lhsContracting := [1]
  rhsContracting := [0]
  lhsNonContracting := [0]
  rhsNonContracting := [1]
  lhsBatch := []
  rhsBatch := []
  wf := dot_S393216x128_S128x128_S393216x128_1_0_0_1_n_n_wf
def scatter_S65536x128_S393216x1_S393216x128_1_0_0_1 : ScatterDims S65536x128 S393216x1 S393216x128 where
  updateWindowDims := [1]
  insertedWindowDims := [0]
  scatterDimsToOperandDims := [0]
  indexVectorDim := 1
  wf := scatter_S65536x128_S393216x1_S393216x128_1_0_0_1_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf

class Facts : Prop extends Facts₀ where

variable [Facts]
-- ==== Proof.KernelRun.lean ====
/-
  The kernel program's run with its result named: every weakly fair execution ends, nothing faulting, with the result
  buffer at the contents the last segment boundary gives it (the fold of the host stretches and the five regions'
  write-backs over the launch memory) and every argument array as launched. This is the frame run of the generated
  module with one more buffer read off the final thread state.
-/
import proofs.«134789_j62947040690362_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer read against the last boundary's contents. -/
theorem run_named : θ_run defs (onTc (τ := τ) (main (F := F))) ⟨m, fun _ => 0, ρ⟩ (fun r => ∀ c : Dev nD,
      r.2.mem ((c.tc : Thread nD τ).loc main_v115) = W10 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v115 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c)⟩)

end Cert.KernelIdeal.Named

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibSeluMlp.lean ====
/-
  General lemmas: two-layer perceptrons with a scaled exponential linear unit between the layers, one row at a time,
  over the extended reals.

  A row of features is a function on Fin k. A first layer turns one or several rows into a row of n pre-activations:
  each pre-activation is a sum of products of a row with a column of a weight, one such sum per input row, plus a bias
  entry (and, for the layer that also takes a scalar, that scalar times a weight entry). The unit is applied entry by
  entry, the second layer is one more sum of products plus a bias entry, and a residual row is added.

  * selu: the unit as written with exp x - 1 on the non-positive side; seluHost: the same unit written with the
    function x ↦ exp x - 1 applied to the argument clamped from above at zero; seluHost_eq: they are one function.
  * rowTail: the second layer applied to a row of pre-activations.
  * preScalar, preThree, preTwo: the three first layers (a row and a scalar; three rows; two rows), each with one weight
    block per input row, and rowScalar, rowThree, rowTwo: the whole residual blocks.
  * sum_snoc, sum_two, sum_three: a sum over Fin (k + 1), Fin (k + k), Fin (k + k + k) as the sums over its pieces, which
    is how one product with a weight of k + 1, 2k or 3k rows equals the sum of the products with its row blocks.
  Nothing here mentions a program.
-/
import Idealize.ShloMosaic.Lib.ValueIdx
import Idealize.ShloMosaic.PureOps.Ideal.Laws

noncomputable section

namespace Cert.LibSeluMlp

open Idealize.ShloMosaic

/-- The float word of 1.0 denotes the real number one. -/
theorem ofBits_one_f32 : Ideal.ofBits .f32 0x3F800000#32 = 1 := by
  simp [Ideal.ofBits, Ideal.ieee]
  rw [← EReal.coe_mul]
  norm_num

/-- The unit: scale · (x if x > 0, else alpha · (exp x − 1)), the constants the float words of the two decimals. -/
def selu (x : Ideal .f32) : Ideal .f32 :=
  (Scalar.ofBits .f32 0x3F867D5F#32 : Ideal .f32) *
    Scalar.select (FloatOps.cmpf .ogt x (Scalar.ofBits .f32 0x00000000#32 : Ideal .f32)) x
      ((Scalar.ofBits .f32 0x3FD62D7D#32 : Ideal .f32) * (FloatOps.exp x - (Scalar.ofBits .f32 0x3F800000#32 : Ideal .f32)))

/-- The same unit with the exponential-minus-one function, its argument replaced by zero where x > 0. -/
def seluHost (x : Ideal .f32) : Ideal .f32 :=
  (Ideal.ofBits .f32 0x3F867D5F#32 : Ideal .f32) *
    Scalar.select (FloatOps.cmpf .ogt x (Ideal.ofBits .f32 0x00000000#32 : Ideal .f32)) x
      ((Ideal.ofBits .f32 0x3FD62D7D#32 : Ideal .f32) *
        FloatOps.hostUnary .expm1
          (Scalar.select (FloatOps.cmpf .ogt x (Ideal.ofBits .f32 0x00000000#32 : Ideal .f32)) (Ideal.ofBits .f32 0x00000000#32 : Ideal .f32) x))

/-- Where x > 0 both take x; elsewhere the clamp leaves x and exp x − 1 is the function's value. -/
theorem seluHost_eq (x : Ideal .f32) : seluHost x = selu x := by
  unfold seluHost selu
  show _ = (Ideal.ofBits .f32 0x3F867D5F#32 : Ideal .f32) *
    Scalar.select (FloatOps.cmpf .ogt x (Ideal.ofBits .f32 0x00000000#32 : Ideal .f32)) x
      ((Ideal.ofBits .f32 0x3FD62D7D#32 : Ideal .f32) * (FloatOps.exp x - (Ideal.ofBits .f32 0x3F800000#32 : Ideal .f32)))
  by_cases h : FloatOps.cmpf .ogt x (Ideal.ofBits .f32 0x00000000#32 : Ideal .f32) = 1#1
  · rw [h, ValueIdx.select_one, ValueIdx.select_one]
  · rw [ValueIdx.eq_zero_of_ne_one h, ValueIdx.select_zero, ValueIdx.select_zero, ValueIdx.select_zero,
      Ideal.hostUnary_expm1_def, ofBits_one_f32]
    rfl

variable {k n : ℕ}

/-- The second layer on a row of pre-activations: entry j is the sum over q of selu (h q) · w (q, j), plus b j. -/
def rowTail (h : Fin n → Ideal .f32) (w : Fin n → Fin n → Ideal .f32) (b : Fin n → Ideal .f32) (j : Fin n) : Ideal .f32 :=
  (∑ q : Fin n, selu (h q) * w q j) + b j

/-- First layer on a row x and a scalar r: x · wx + r · wr + b. -/
def preScalar (x : Fin k → Ideal .f32) (r : Ideal .f32) (wx : Fin k → Fin n → Ideal .f32) (wr : Fin n → Ideal .f32)
    (b : Fin n → Ideal .f32) (q : Fin n) : Ideal .f32 :=
  ((∑ l : Fin k, x l * wx l q) + r * wr q) + b q

/-- First layer on three rows: x · wx + y · wy + z · wz + b. -/
def preThree (x y z : Fin k → Ideal .f32) (wx wy wz : Fin k → Fin n → Ideal .f32) (b : Fin n → Ideal .f32) (q : Fin n) :
    Ideal .f32 :=
  (((∑ l : Fin k, x l * wx l q) + ∑ l : Fin k, y l * wy l q) + ∑ l : Fin k, z l * wz l q) + b q

/-- First layer on two rows: x · wx + y · wy + b. -/
def preTwo (x y : Fin k → Ideal .f32) (wx wy : Fin k → Fin n → Ideal .f32) (b : Fin n → Ideal .f32) (q : Fin n) : Ideal .f32 :=
  ((∑ l : Fin k, x l * wx l q) + ∑ l : Fin k, y l * wy l q) + b q

/-- The block on a row and a scalar, its residual row added last. -/
def rowScalar (x : Fin k → Ideal .f32) (r : Ideal .f32) (wx : Fin k → Fin n → Ideal .f32) (wr : Fin n → Ideal .f32)
    (b1 : Fin n → Ideal .f32) (w2 : Fin n → Fin n → Ideal .f32) (b2 : Fin n → Ideal .f32) (res : Fin n → Ideal .f32)
    (j : Fin n) : Ideal .f32 :=
  rowTail (preScalar x r wx wr b1) w2 b2 j + res j

/-- The block on three rows, added to its residual row. -/
def rowThree (x y z : Fin k → Ideal .f32) (wx wy wz : Fin k → Fin n → Ideal .f32) (b1 : Fin n → Ideal .f32)
    (w2 : Fin n → Fin n → Ideal .f32) (b2 : Fin n → Ideal .f32) (res : Fin n → Ideal .f32) (j : Fin n) : Ideal .f32 :=
  res j + rowTail (preThree x y z wx wy wz b1) w2 b2 j

/-- The block on two rows, added to its residual row. -/
def rowTwo (x y : Fin k → Ideal .f32) (wx wy : Fin k → Fin n → Ideal .f32) (b1 : Fin n → Ideal .f32)
    (w2 : Fin n → Fin n → Ideal .f32) (b2 : Fin n → Ideal .f32) (res : Fin n → Ideal .f32) (j : Fin n) : Ideal .f32 :=
  res j + rowTail (preTwo x y wx wy b1) w2 b2 j

/-- A sum over Fin (k + 1): the first k terms, then the last. -/
theorem sum_snoc {M : Type*} [AddCommMonoid M] (f : Fin (k + 1) → M) :
    ∑ q : Fin (k + 1), f q = (∑ l : Fin k, f (Fin.castSucc l)) + f (Fin.last k) := Fin.sum_univ_castSucc f

/-- A sum over Fin (k + k): the two halves. -/
theorem sum_two {M : Type*} [AddCommMonoid M] (f : Fin (k + k) → M) :
    ∑ q : Fin (k + k), f q = (∑ l : Fin k, f (Fin.castAdd k l)) + ∑ l : Fin k, f (Fin.natAdd k l) := Fin.sum_univ_add f

/-- A sum over Fin (k + k + k): the three thirds. -/
theorem sum_three {M : Type*} [AddCommMonoid M] (f : Fin (k + k + k) → M) :
    ∑ q : Fin (k + k + k), f q
      = ((∑ l : Fin k, f (Fin.castAdd k (Fin.castAdd k l))) + ∑ l : Fin k, f (Fin.castAdd k (Fin.natAdd k l)))
        + ∑ l : Fin k, f (Fin.natAdd (k + k) l) := by
  rw [Fin.sum_univ_add, Fin.sum_univ_add]

end Cert.LibSeluMlp

end
-- ==== Proof.KernelBody.lean ====
/-
  The three kernel bodies at the ideal instance, read one entry at a time.

  Each body takes a block of 4096 rows of its row-tiled operands and the whole of its small weights. Casting to the
  short float format is the identity on extended reals, a matrix-unit product into a zero accumulator is the plain sum of
  products, a [1,128] row broadcast down the rows reads its entry of the column, a [4096,1] column broadcast across
  the columns reads its entry of the row, and the unit's comparison, exponential and select act entry by entry. So
  entry (p, j) of what a body stores is the row-wise block of LibSeluMlp on row p of the tiled operands.
-/
import proofs.«134789_j62947040690362_1_alg».proof.Proof.Gen.KernelIdeal.Skeleton
import proofs.«134789_j62947040690362_1_alg».proof.Proof.LibAffine
import proofs.«134789_j62947040690362_1_alg».proof.Proof.LibSeluMlp
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.LibSeluMlp

/-- The one matrix product shape of the three bodies: [4096,128] by [128,128], contracting the columns of the left
    against the rows of the right. -/
abbrev D := dot_S4096x128_S128x128_S4096x128_1_0_0_1_n_n

theorem D_rank : D.contr.rank = 1 := rfl
theorem D_size : D.contr.size ⟨0, by rw [D_rank]; exact Nat.one_pos⟩ = 128 := rfl
theorem D_l0 (i : S4096x128.Idx) (q : D.contr.Idx) : (D.lhsIdx i q 0).val = (i 0).val := rfl
theorem D_l1 (i : S4096x128.Idx) (q : D.contr.Idx) : (D.lhsIdx i q 1).val = (q ⟨0, by rw [D_rank]; exact Nat.one_pos⟩).val :=
  D.lhsIdx_val_of_single rfl i q
theorem D_r0 (i : S4096x128.Idx) (q : D.contr.Idx) : (D.rhsIdx i q 0).val = (q ⟨0, by rw [D_rank]; exact Nat.one_pos⟩).val :=
  D.rhsIdx_val_of_single rfl i q
theorem D_r1 (i : S4096x128.Idx) (q : D.contr.Idx) : (D.rhsIdx i q 1).val = (i 1).val := rfl

/-- A product into the zero accumulator at (p, j): the sum over q of L (p, q) · R (q, j). -/
theorem mm_at {φ₁ φ₂ : FTy} (L : FVec Ideal S4096x128 φ₁) (R : FVec Ideal S128x128 φ₂) (p : Fin 4096) (j : Fin 128) :
    matmul D none L R (constant S4096x128 .f32 0x00000000#32) (ix2 p j) = ∑ q : Fin 128, L (ix2 p q) * R (ix2 q j) :=
  Cert.LibAffine.coreDot_ix2 D D_rank D_size D_l0 D_l1 D_r0 D_r1 none L R p j

/-- An [a,1] column broadcast to [a,b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The unit on a whole block, as the bodies spell it. -/
def seluV (h : FVec Ideal S4096x128 .f32) : FVec Ideal S4096x128 .f32 :=
  mulf (broadcast S4096x128 (Scalar.ofBits .f32 0x3F867D5F#32))
    (select (cmpf .ogt h (broadcast S4096x128 (Scalar.ofBits .f32 0x00000000#32))) h
      (mulf (broadcast S4096x128 (Scalar.ofBits .f32 0x3FD62D7D#32))
        (subf (exp h) (broadcast S4096x128 (Scalar.ofBits .f32 0x3F800000#32)))))

theorem seluV_apply (h : FVec Ideal S4096x128 .f32) (i : S4096x128.Idx) : seluV h i = selu (h i) := rfl

/-- The second layer on a block of pre-activations: unit, cast, product with the second weight, bias row. -/
def tailV (h : FVec Ideal S4096x128 .f32) (w2 : Vec Ideal S128x128 .f32) (b2 : Vec Ideal S1x128 .f32)
    (hb : S1x128.Broadcasts S4096x128) (hlt : FTy.bits .bf16 < FTy.bits .f32) : FVec Ideal S4096x128 .f32 :=
  addf (matmul D none (truncf .bf16 (seluV h) hlt) (truncf .bf16 w2 hlt) (constant S4096x128 .f32 0x00000000#32))
    (broadcastTo S4096x128 b2 hb)

theorem tailV_at (h : FVec Ideal S4096x128 .f32) (w2 : Vec Ideal S128x128 .f32) (b2 : Vec Ideal S1x128 .f32)
    (hb : S1x128.Broadcasts S4096x128) (hlt : FTy.bits .bf16 < FTy.bits .f32) (p : Fin 4096) (j : Fin 128) :
    tailV h w2 b2 hb hlt (ix2 p j)
      = rowTail (fun q => h (ix2 p q)) (fun q j => w2 (ix2 q j)) (fun j => b2 (ix2 (0 : Fin 1) j)) j := by
  unfold tailV rowTail
  rw [addf_apply, mm_at, broadcastTo_1b_ab_apply]
  rfl

/-- The unpooling body's pre-activations: product, column times row, bias row. -/
def preV0 (x : Vec Ideal S4096x128 .f32) (wx : Vec Ideal S128x128 .f32) (r : Vec Ideal S4096x1 .f32) (wr b : Vec Ideal S1x128 .f32)
    (hb : S1x128.Broadcasts S4096x128) (hc : S4096x1.Broadcasts S4096x128) (hlt : FTy.bits .bf16 < FTy.bits .f32) :
    FVec Ideal S4096x128 .f32 :=
  addf (addf (matmul D none (truncf .bf16 x hlt) (truncf .bf16 wx hlt) (constant S4096x128 .f32 0x00000000#32))
      (mulf (broadcastTo S4096x128 r hc) (broadcastTo S4096x128 wr hb)))
    (broadcastTo S4096x128 b hb)

theorem preV0_at (x : Vec Ideal S4096x128 .f32) (wx : Vec Ideal S128x128 .f32) (r : Vec Ideal S4096x1 .f32) (wr b : Vec Ideal S1x128 .f32)
    (hb : S1x128.Broadcasts S4096x128) (hc : S4096x1.Broadcasts S4096x128) (hlt : FTy.bits .bf16 < FTy.bits .f32)
    (p : Fin 4096) (q : Fin 128) :
    preV0 x wx r wr b hb hc hlt (ix2 p q)
      = preScalar (fun l => x (ix2 p l)) (r (ix2 p (0 : Fin 1))) (fun l q => wx (ix2 l q)) (fun q => wr (ix2 (0 : Fin 1) q))
          (fun q => b (ix2 (0 : Fin 1) q)) q := by
  unfold preV0 preScalar
  rw [addf_apply, addf_apply, mm_at, mulf_apply, broadcastTo_a1_ab_apply, broadcastTo_1b_ab_apply, broadcastTo_1b_ab_apply]
  rfl

/-- The edge body's pre-activations: three products and the bias row. -/
def preV3 (x y z : Vec Ideal S4096x128 .f32) (wx wy wz : Vec Ideal S128x128 .f32) (b : Vec Ideal S1x128 .f32)
    (hb : S1x128.Broadcasts S4096x128) (hlt : FTy.bits .bf16 < FTy.bits .f32) : FVec Ideal S4096x128 .f32 :=
  addf (addf (addf (matmul D none (truncf .bf16 x hlt) (truncf .bf16 wx hlt) (constant S4096x128 .f32 0x00000000#32))
        (matmul D none (truncf .bf16 y hlt) (truncf .bf16 wy hlt) (constant S4096x128 .f32 0x00000000#32)))
      (matmul D none (truncf .bf16 z hlt) (truncf .bf16 wz hlt) (constant S4096x128 .f32 0x00000000#32)))
    (broadcastTo S4096x128 b hb)

theorem preV3_at (x y z : Vec Ideal S4096x128 .f32) (wx wy wz : Vec Ideal S128x128 .f32) (b : Vec Ideal S1x128 .f32)
    (hb : S1x128.Broadcasts S4096x128) (hlt : FTy.bits .bf16 < FTy.bits .f32) (p : Fin 4096) (q : Fin 128) :
    preV3 x y z wx wy wz b hb hlt (ix2 p q)
      = preThree (fun l => x (ix2 p l)) (fun l => y (ix2 p l)) (fun l => z (ix2 p l)) (fun l q => wx (ix2 l q))
          (fun l q => wy (ix2 l q)) (fun l q => wz (ix2 l q)) (fun q => b (ix2 (0 : Fin 1) q)) q := by
  unfold preV3 preThree
  rw [addf_apply, addf_apply, addf_apply, mm_at, mm_at, mm_at, broadcastTo_1b_ab_apply]
  rfl

/-- The node body's pre-activations: two products and the bias row. -/
def preV2 (x y : Vec Ideal S4096x128 .f32) (wx wy : Vec Ideal S128x128 .f32) (b : Vec Ideal S1x128 .f32)
    (hb : S1x128.Broadcasts S4096x128) (hlt : FTy.bits .bf16 < FTy.bits .f32) : FVec Ideal S4096x128 .f32 :=
  addf (addf (matmul D none (truncf .bf16 x hlt) (truncf .bf16 wx hlt) (constant S4096x128 .f32 0x00000000#32))
      (matmul D none (truncf .bf16 y hlt) (truncf .bf16 wy hlt) (constant S4096x128 .f32 0x00000000#32)))
    (broadcastTo S4096x128 b hb)

theorem preV2_at (x y : Vec Ideal S4096x128 .f32) (wx wy : Vec Ideal S128x128 .f32) (b : Vec Ideal S1x128 .f32)
    (hb : S1x128.Broadcasts S4096x128) (hlt : FTy.bits .bf16 < FTy.bits .f32) (p : Fin 4096) (q : Fin 128) :
    preV2 x y wx wy b hb hlt (ix2 p q)
      = preTwo (fun l => x (ix2 p l)) (fun l => y (ix2 p l)) (fun l q => wx (ix2 l q)) (fun l q => wy (ix2 l q))
          (fun q => b (ix2 (0 : Fin 1) q)) q := by
  unfold preV2 preTwo
  rw [addf_apply, addf_apply, mm_at, mm_at, broadcastTo_1b_ab_apply]
  rfl

/-! ## The bodies' stored values -/

/-- The unpooling body (region 0). -/
theorem k0_at (x0 : Vec Ideal S4096x128 .f32) (x3 : Vec Ideal S128x128 .f32) (x1 : Vec Ideal S4096x1 .f32)
    (x4 x5 : Vec Ideal S1x128 .f32) (x6 : Vec Ideal S128x128 .f32) (x7 : Vec Ideal S1x128 .f32) (x2 : Vec Ideal S4096x128 .f32)
    (p : Fin 4096) (j : Fin 128) :
    Gen.k0_pay1 (F := Ideal) (Gen.k0_pay2 x0 x3 x1 x4 x5 x6 x7) x2 (ix2 p j)
      = rowScalar (fun l => x0 (ix2 p l)) (x1 (ix2 p (0 : Fin 1))) (fun l q => x3 (ix2 l q)) (fun q => x4 (ix2 (0 : Fin 1) q))
          (fun q => x5 (ix2 (0 : Fin 1) q)) (fun l q => x6 (ix2 l q)) (fun q => x7 (ix2 (0 : Fin 1) q))
          (fun q => x2 (ix2 p q)) j := by
  have e : Gen.k0_pay1 (F := Ideal) (Gen.k0_pay2 x0 x3 x1 x4 x5 x6 x7) x2
      = addf (tailV (preV0 x0 x3 x1 x4 x5 Gen.broadcasts_S1x128_S4096x128 Gen.broadcasts_S4096x1_S4096x128 Gen.bitsLt_bf16_f32) x6 x7
          Gen.broadcasts_S1x128_S4096x128 Gen.bitsLt_bf16_f32) (x2 : FVec Ideal S4096x128 .f32) := by
    unfold Gen.k0_pay1 Gen.k0_pay2
    simp only [shapeCast_self]
    rfl
  rw [e, addf_apply, tailV_at]
  unfold rowScalar
  refine congrArg (· + x2 (ix2 p j)) ?_
  exact congrArg (fun h => rowTail h _ _ j) (funext fun q => preV0_at x0 x3 x1 x4 x5 _ _ _ p q)

/-- The edge body of the first round (region 1). -/
theorem k1_at (x0 x1 x2 : Vec Ideal S4096x128 .f32) (x3 x4 x5 : Vec Ideal S128x128 .f32) (x6 : Vec Ideal S1x128 .f32)
    (x7 : Vec Ideal S128x128 .f32) (x8 : Vec Ideal S1x128 .f32) (p : Fin 4096) (j : Fin 128) :
    Gen.k1_pay1 (F := Ideal) x0 (Gen.k1_pay2 x0 x1 x2 x3 x4 x5 x6) x7 x8 (ix2 p j)
      = rowThree (fun l => x0 (ix2 p l)) (fun l => x1 (ix2 p l)) (fun l => x2 (ix2 p l)) (fun l q => x3 (ix2 l q))
          (fun l q => x4 (ix2 l q)) (fun l q => x5 (ix2 l q)) (fun q => x6 (ix2 (0 : Fin 1) q)) (fun l q => x7 (ix2 l q))
          (fun q => x8 (ix2 (0 : Fin 1) q)) (fun q => x0 (ix2 p q)) j := by
  have e : Gen.k1_pay1 (F := Ideal) x0 (Gen.k1_pay2 x0 x1 x2 x3 x4 x5 x6) x7 x8
      = addf (x0 : FVec Ideal S4096x128 .f32) (tailV (preV3 x0 x1 x2 x3 x4 x5 x6 Gen.broadcasts_S1x128_S4096x128 Gen.bitsLt_bf16_f32) x7 x8
          Gen.broadcasts_S1x128_S4096x128 Gen.bitsLt_bf16_f32) := by
    unfold Gen.k1_pay1 Gen.k1_pay2
    simp only [shapeCast_self]
    rfl
  rw [e, addf_apply, tailV_at]
  unfold rowThree
  refine congrArg (x0 (ix2 p j) + ·) ?_
  exact congrArg (fun h => rowTail h _ _ j) (funext fun q => preV3_at x0 x1 x2 x3 x4 x5 x6 _ _ p q)

/-- The node body of the first round (region 2). -/
theorem k2_at (x0 x1 : Vec Ideal S4096x128 .f32) (x2 x3 : Vec Ideal S128x128 .f32) (x4 : Vec Ideal S1x128 .f32)
    (x5 : Vec Ideal S128x128 .f32) (x6 : Vec Ideal S1x128 .f32) (p : Fin 4096) (j : Fin 128) :
    Gen.k2_pay1 (F := Ideal) (Gen.k2_pay2 x0) (Gen.k2_pay3 x0 x1 x2 x3 x4 x5 x6) (ix2 p j)
      = rowTwo (fun l => x0 (ix2 p l)) (fun l => x1 (ix2 p l)) (fun l q => x2 (ix2 l q)) (fun l q => x3 (ix2 l q))
          (fun q => x4 (ix2 (0 : Fin 1) q)) (fun l q => x5 (ix2 l q)) (fun q => x6 (ix2 (0 : Fin 1) q))
          (fun q => x0 (ix2 p q)) j := by
  have e : Gen.k2_pay1 (F := Ideal) (Gen.k2_pay2 x0) (Gen.k2_pay3 x0 x1 x2 x3 x4 x5 x6)
      = addf (x0 : FVec Ideal S4096x128 .f32) (tailV (preV2 x0 x1 x2 x3 x4 Gen.broadcasts_S1x128_S4096x128 Gen.bitsLt_bf16_f32) x5 x6
          Gen.broadcasts_S1x128_S4096x128 Gen.bitsLt_bf16_f32) := by
    unfold Gen.k2_pay1 Gen.k2_pay3 Gen.k2_pay2
    simp only [shapeCast_self]
    rfl
  rw [e, addf_apply, tailV_at]
  unfold rowTwo
  refine congrArg (x0 (ix2 p j) + ·) ?_
  exact congrArg (fun h => rowTail h _ _ j) (funext fun q => preV2_at x0 x1 x2 x3 x4 _ _ p q)

/-- The edge body of the second round (region 3). -/
theorem k3_at (x0 x1 x2 : Vec Ideal S4096x128 .f32) (x3 x4 x5 : Vec Ideal S128x128 .f32) (x6 : Vec Ideal S1x128 .f32)
    (x7 : Vec Ideal S128x128 .f32) (x8 : Vec Ideal S1x128 .f32) (p : Fin 4096) (j : Fin 128) :
    Gen.k3_pay1 (F := Ideal) (Gen.k3_pay2 x0) (Gen.k3_pay3 x0 x1 x2 x3 x4 x5 x6) x7 x8 (ix2 p j)
      = rowThree (fun l => x0 (ix2 p l)) (fun l => x1 (ix2 p l)) (fun l => x2 (ix2 p l)) (fun l q => x3 (ix2 l q))
          (fun l q => x4 (ix2 l q)) (fun l q => x5 (ix2 l q)) (fun q => x6 (ix2 (0 : Fin 1) q)) (fun l q => x7 (ix2 l q))
          (fun q => x8 (ix2 (0 : Fin 1) q)) (fun q => x0 (ix2 p q)) j := by
  have e : Gen.k3_pay1 (F := Ideal) (Gen.k3_pay2 x0) (Gen.k3_pay3 x0 x1 x2 x3 x4 x5 x6) x7 x8
      = addf (x0 : FVec Ideal S4096x128 .f32) (tailV (preV3 x0 x1 x2 x3 x4 x5 x6 Gen.broadcasts_S1x128_S4096x128 Gen.bitsLt_bf16_f32) x7 x8
          Gen.broadcasts_S1x128_S4096x128 Gen.bitsLt_bf16_f32) := by
    unfold Gen.k3_pay1 Gen.k3_pay3 Gen.k3_pay2
    simp only [shapeCast_self]
    rfl
  rw [e, addf_apply, tailV_at]
  unfold rowThree
  refine congrArg (x0 (ix2 p j) + ·) ?_
  exact congrArg (fun h => rowTail h _ _ j) (funext fun q => preV3_at x0 x1 x2 x3 x4 x5 x6 _ _ p q)

/-- The node body of the second round (region 4). -/
theorem k4_at (x0 x1 : Vec Ideal S4096x128 .f32) (x2 x3 : Vec Ideal S128x128 .f32) (x4 : Vec Ideal S1x128 .f32)
    (x5 : Vec Ideal S128x128 .f32) (x6 : Vec Ideal S1x128 .f32) (p : Fin 4096) (j : Fin 128) :
    Gen.k4_pay1 (F := Ideal) (Gen.k4_pay2 x0) (Gen.k4_pay3 x0 x1 x2 x3 x4 x5 x6) (ix2 p j)
      = rowTwo (fun l => x0 (ix2 p l)) (fun l => x1 (ix2 p l)) (fun l q => x2 (ix2 l q)) (fun l q => x3 (ix2 l q))
          (fun q => x4 (ix2 (0 : Fin 1) q)) (fun l q => x5 (ix2 l q)) (fun q => x6 (ix2 (0 : Fin 1) q))
          (fun q => x0 (ix2 p q)) j := by
  have e : Gen.k4_pay1 (F := Ideal) (Gen.k4_pay2 x0) (Gen.k4_pay3 x0 x1 x2 x3 x4 x5 x6)
      = addf (x0 : FVec Ideal S4096x128 .f32) (tailV (preV2 x0 x1 x2 x3 x4 Gen.broadcasts_S1x128_S4096x128 Gen.bitsLt_bf16_f32) x5 x6
          Gen.broadcasts_S1x128_S4096x128 Gen.bitsLt_bf16_f32) := by
    unfold Gen.k4_pay1 Gen.k4_pay3 Gen.k4_pay2
    simp only [shapeCast_self]
    rfl
  rw [e, addf_apply, tailV_at]
  unfold rowTwo
  refine congrArg (x0 (ix2 p j) + ·) ?_
  exact congrArg (fun h => rowTail h _ _ j) (funext fun q => preV2_at x0 x1 x2 x3 x4 _ _ p q)

end Cert.KernelIdeal.Body

end
-- ==== Proof.Net.lean ====
/-
  The network both programs compute, as one function of the argument arrays.

  Fine nodes first receive the features of their coarse cluster (a gather), and a two-layer perceptron on those
  features and one scalar per node, plus a skip array, gives the first node array. Then two rounds: on every edge a
  perceptron on the edge's features and the features of its two end nodes is added to the edge features; the new edge
  features are summed into their receiving nodes; on every node a perceptron on the node's features and that sum is added
  to the node features. The three perceptron blocks are the row-wise blocks of LibSeluMlp applied to every row, their
  first weights the row blocks of one stacked weight (129 = 128 + 1 rows, 384 = 3 · 128 rows, 256 = 2 · 128 rows).
  The gathers and the sum over incoming edges are parameters: both programs perform them with the same host operations.
-/
import proofs.«134789_j62947040690362_1_alg».proof.Proof.LibSeluMlp

noncomputable section

namespace Cert.Net

open Idealize.ShloMosaic Idealize.ShloMosaic.ValueIdx Cert.LibSeluMlp

/-- A float matrix of r rows and c columns at the ideal instance. -/
abbrev Mat (r c : ℕ) := FVec Ideal ⟨2, ![r, c]⟩ .f32
/-- A float vector of n entries at the ideal instance. -/
abbrev Vc (n : ℕ) := FVec Ideal ⟨1, ![n]⟩ .f32

variable {a : ℕ}

/-- The unpooling block on every row: gathered features x, one scalar r per row, the stacked first weight's first 128
    rows against x and its last row against r. -/
def unpoolL (x : Mat a 128) (r : Mat a 1) (res : Mat a 128) (W1 : Mat 129 128) (b1 : Vc 128) (W2 : Mat 128 128) (b2 : Vc 128) :
    Mat a 128 :=
  fun i => rowScalar (fun l => x (ix2 (i 0) l)) (r (ix2 (i 0) (0 : Fin 1)))
    (fun l q => W1 (ix2 (Fin.castSucc l) q)) (fun q => W1 (ix2 (Fin.last 128) q)) (fun q => b1 (ix1 q))
    (fun l q => W2 (ix2 l q)) (fun q => b2 (ix1 q)) (fun q => res (ix2 (i 0) q)) (i 1)

/-- The edge block on every row: edge features e and the two gathered node rows, the stacked first weight's three
    blocks of 128 rows against them in that order; the residual is e. -/
def edgeL (e vs vr : Mat a 128) (W1 : Mat 384 128) (b1 : Vc 128) (W2 : Mat 128 128) (b2 : Vc 128) : Mat a 128 :=
  fun i => rowThree (fun l => e (ix2 (i 0) l)) (fun l => vs (ix2 (i 0) l)) (fun l => vr (ix2 (i 0) l))
    (fun l q => W1 (ix2 (Fin.castAdd 128 (Fin.castAdd 128 l)) q)) (fun l q => W1 (ix2 (Fin.castAdd 128 (Fin.natAdd 128 l)) q))
    (fun l q => W1 (ix2 (Fin.natAdd (128 + 128) l) q)) (fun q => b1 (ix1 q))
    (fun l q => W2 (ix2 l q)) (fun q => b2 (ix1 q)) (fun q => e (ix2 (i 0) q)) (i 1)

/-- The node block on every row: node features v and the summed incoming edge features g, the stacked first weight's
    two blocks of 128 rows against them; the residual is v. -/
def nodeL (v g : Mat a 128) (W1 : Mat 256 128) (b1 : Vc 128) (W2 : Mat 128 128) (b2 : Vc 128) : Mat a 128 :=
  fun i => rowTwo (fun l => v (ix2 (i 0) l)) (fun l => g (ix2 (i 0) l))
    (fun l q => W1 (ix2 (Fin.castAdd 128 l) q)) (fun l q => W1 (ix2 (Fin.natAdd 128 l) q)) (fun q => b1 (ix1 q))
    (fun l q => W2 (ix2 l q)) (fun q => b2 (ix1 q)) (fun q => v (ix2 (i 0) q)) (i 1)

/-- The whole network: unpooling, then two rounds of edge update, sum into receivers, node update. gC gathers coarse
    rows to fine nodes, gS and gR gather node rows to the edges' senders and receivers, agg sums edge rows into their
    receivers. -/
def net (gC : Mat 16384 128 → Mat 65536 128) (gS gR : Mat 65536 128 → Mat 393216 128) (agg : Mat 393216 128 → Mat 65536 128)
    (v : Mat 16384 128) (cskip : Mat 65536 128) (eskip : Mat 393216 128) (rel : Mat 65536 1)
    (uW1 : Mat 129 128) (ub1 : Vc 128) (uW2 : Mat 128 128) (ub2 : Vc 128)
    (eW1a : Mat 384 128) (eb1a : Vc 128) (eW2a : Mat 128 128) (eb2a : Vc 128)
    (nW1a : Mat 256 128) (nb1a : Vc 128) (nW2a : Mat 128 128) (nb2a : Vc 128)
    (eW1b : Mat 384 128) (eb1b : Vc 128) (eW2b : Mat 128 128) (eb2b : Vc 128)
    (nW1b : Mat 256 128) (nb1b : Vc 128) (nW2b : Mat 128 128) (nb2b : Vc 128) : Mat 65536 128 :=
  let V0 := unpoolL (gC v) rel cskip uW1 ub1 uW2 ub2
  let E1 := edgeL eskip (gS V0) (gR V0) eW1a eb1a eW2a eb2a
  let V1 := nodeL V0 (agg E1) nW1a nb1a nW2a nb2a
  let E2 := edgeL E1 (gS V1) (gR V1) eW1b eb1b eW2b eb2b
  nodeL V1 (agg E2) nW1b nb1b nW2b nb2b

end Cert.Net

end
-- ==== Proof.Blocks.lean ====
/-
  The three perceptron blocks as the cores see them: each first weight already cut into its blocks of 128 rows (and,
  for the unpooling block, its last row), each bias vector laid out as a [1,128] row. A row block of a stacked weight
  read at (l, q) is the stacked weight at (offset + l, q), and a vector reshaped to a row reads its entry, so these are
  the blocks of Net applied to the stacked weights and the bias vectors.
-/
import proofs.«134789_j62947040690362_1_alg».proof.Proof.Net
import Idealize.ShloMosaic.Lib.ValueLayout
import Idealize.ShloMosaic.Lib.Pipeline.Value

noncomputable section

namespace Cert.Net

open Idealize.ShloMosaic Idealize.ShloMosaic.ValueIdx Cert.LibSeluMlp

variable {a : ℕ}

/-- The unpooling block with its first weight cut in two and its biases as rows. -/
def blkUnpool (x : Mat a 128) (r : Mat a 1) (res : Mat a 128) (wx : Mat 128 128) (wr b1 : Mat 1 128) (w2 : Mat 128 128)
    (b2 : Mat 1 128) : Mat a 128 :=
  fun i => rowScalar (fun l => x (ix2 (i 0) l)) (r (ix2 (i 0) (0 : Fin 1))) (fun l q => wx (ix2 l q))
    (fun q => wr (ix2 (0 : Fin 1) q)) (fun q => b1 (ix2 (0 : Fin 1) q)) (fun l q => w2 (ix2 l q))
    (fun q => b2 (ix2 (0 : Fin 1) q)) (fun q => res (ix2 (i 0) q)) (i 1)

/-- The edge block with its first weight cut in three and its biases as rows. -/
def blkEdge (e vs vr : Mat a 128) (wx wy wz : Mat 128 128) (b1 : Mat 1 128) (w2 : Mat 128 128) (b2 : Mat 1 128) : Mat a 128 :=
  fun i => rowThree (fun l => e (ix2 (i 0) l)) (fun l => vs (ix2 (i 0) l)) (fun l => vr (ix2 (i 0) l))
    (fun l q => wx (ix2 l q)) (fun l q => wy (ix2 l q)) (fun l q => wz (ix2 l q)) (fun q => b1 (ix2 (0 : Fin 1) q))
    (fun l q => w2 (ix2 l q)) (fun q => b2 (ix2 (0 : Fin 1) q)) (fun q => e (ix2 (i 0) q)) (i 1)

/-- The node block with its first weight cut in two and its biases as rows. -/
def blkNode (v g : Mat a 128) (wx wy : Mat 128 128) (b1 : Mat 1 128) (w2 : Mat 128 128) (b2 : Mat 1 128) : Mat a 128 :=
  fun i => rowTwo (fun l => v (ix2 (i 0) l)) (fun l => g (ix2 (i 0) l)) (fun l q => wx (ix2 l q)) (fun l q => wy (ix2 l q))
    (fun q => b1 (ix2 (0 : Fin 1) q)) (fun l q => w2 (ix2 l q)) (fun q => b2 (ix2 (0 : Fin 1) q))
    (fun q => v (ix2 (i 0) q)) (i 1)

theorem blkUnpool_eq (x : Mat a 128) (r : Mat a 1) (res : Mat a 128) (W1 : Mat 129 128) (b1 : Vc 128) (W2 : Mat 128 128)
    (b2 : Vc 128) (h0 : (⟨2, ![129, 128]⟩ : Shape).Slices ![0, 0] ⟨2, ![128, 128]⟩)
    (h1 : (⟨2, ![129, 128]⟩ : Shape).Slices ![128, 0] ⟨2, ![1, 128]⟩)
    (hc : (⟨1, ![128]⟩ : Shape).ShapeCasts ⟨2, ![1, 128]⟩) :
    blkUnpool x r res (extractStridedSlice ⟨2, ![128, 128]⟩ ![0, 0] W1 h0) (extractStridedSlice ⟨2, ![1, 128]⟩ ![128, 0] W1 h1)
        (shapeCast ⟨2, ![1, 128]⟩ b1 hc) W2 (shapeCast ⟨2, ![1, 128]⟩ b2 hc)
      = unpoolL x r res W1 b1 W2 b2 := by
  funext i
  unfold blkUnpool unpoolL
  have e0 : (fun (l : Fin 128) (q : Fin 128) => extractStridedSlice ⟨2, ![128, 128]⟩ ![0, 0] W1 h0 (ix2 l q))
      = fun l q => W1 (ix2 (Fin.castSucc l) q) :=
    funext fun l => funext fun q => slice2_axis0_apply 0 W1 h0 l q (Fin.castSucc l) (by simp <;> omega)
  have e1 : (fun (q : Fin 128) => extractStridedSlice ⟨2, ![1, 128]⟩ ![128, 0] W1 h1 (ix2 (0 : Fin 1) q))
      = fun q => W1 (ix2 (Fin.last 128) q) :=
    funext fun q => slice2_axis0_apply 128 W1 h1 (0 : Fin 1) q (Fin.last 128) (by simp <;> omega)
  have e2 : (fun (q : Fin 128) => shapeCast ⟨2, ![1, 128]⟩ b1 hc (ix2 (0 : Fin 1) q)) = fun q => b1 (ix1 q) :=
    funext fun q => shapeCast_a_1a_apply b1 hc 0 q
  have e3 : (fun (q : Fin 128) => shapeCast ⟨2, ![1, 128]⟩ b2 hc (ix2 (0 : Fin 1) q)) = fun q => b2 (ix1 q) :=
    funext fun q => shapeCast_a_1a_apply b2 hc 0 q
  rw [e0, e1, e2, e3]

theorem blkEdge_eq (e vs vr : Mat a 128) (W1 : Mat 384 128) (b1 : Vc 128) (W2 : Mat 128 128) (b2 : Vc 128)
    (h0 : (⟨2, ![384, 128]⟩ : Shape).Slices ![0, 0] ⟨2, ![128, 128]⟩)
    (h1 : (⟨2, ![384, 128]⟩ : Shape).Slices ![128, 0] ⟨2, ![128, 128]⟩)
    (h2 : (⟨2, ![384, 128]⟩ : Shape).Slices ![256, 0] ⟨2, ![128, 128]⟩)
    (hc : (⟨1, ![128]⟩ : Shape).ShapeCasts ⟨2, ![1, 128]⟩) :
    blkEdge e vs vr (extractStridedSlice ⟨2, ![128, 128]⟩ ![0, 0] W1 h0) (extractStridedSlice ⟨2, ![128, 128]⟩ ![128, 0] W1 h1)
        (extractStridedSlice ⟨2, ![128, 128]⟩ ![256, 0] W1 h2) (shapeCast ⟨2, ![1, 128]⟩ b1 hc) W2 (shapeCast ⟨2, ![1, 128]⟩ b2 hc)
      = edgeL e vs vr W1 b1 W2 b2 := by
  funext i
  unfold blkEdge edgeL
  have e0 : (fun (l : Fin 128) (q : Fin 128) => extractStridedSlice ⟨2, ![128, 128]⟩ ![0, 0] W1 h0 (ix2 l q))
      = fun l q => W1 (ix2 (Fin.castAdd 128 (Fin.castAdd 128 l)) q) :=
    funext fun l => funext fun q => slice2_axis0_apply 0 W1 h0 l q (Fin.castAdd 128 (Fin.castAdd 128 l)) (by simp <;> omega)
  have e1 : (fun (l : Fin 128) (q : Fin 128) => extractStridedSlice ⟨2, ![128, 128]⟩ ![128, 0] W1 h1 (ix2 l q))
      = fun l q => W1 (ix2 (Fin.castAdd 128 (Fin.natAdd 128 l)) q) :=
    funext fun l => funext fun q => slice2_axis0_apply 128 W1 h1 l q (Fin.castAdd 128 (Fin.natAdd 128 l)) (by simp <;> omega)
  have e2 : (fun (l : Fin 128) (q : Fin 128) => extractStridedSlice ⟨2, ![128, 128]⟩ ![256, 0] W1 h2 (ix2 l q))
      = fun l q => W1 (ix2 (Fin.natAdd (128 + 128) l) q) :=
    funext fun l => funext fun q => slice2_axis0_apply 256 W1 h2 l q (Fin.natAdd (128 + 128) l) (by simp <;> omega)
  have e3 : (fun (q : Fin 128) => shapeCast ⟨2, ![1, 128]⟩ b1 hc (ix2 (0 : Fin 1) q)) = fun q => b1 (ix1 q) :=
    funext fun q => shapeCast_a_1a_apply b1 hc 0 q
  have e4 : (fun (q : Fin 128) => shapeCast ⟨2, ![1, 128]⟩ b2 hc (ix2 (0 : Fin 1) q)) = fun q => b2 (ix1 q) :=
    funext fun q => shapeCast_a_1a_apply b2 hc 0 q
  rw [e0, e1, e2, e3, e4]

theorem blkNode_eq (v g : Mat a 128) (W1 : Mat 256 128) (b1 : Vc 128) (W2 : Mat 128 128) (b2 : Vc 128)
    (h0 : (⟨2, ![256, 128]⟩ : Shape).Slices ![0, 0] ⟨2, ![128, 128]⟩)
    (h1 : (⟨2, ![256, 128]⟩ : Shape).Slices ![128, 0] ⟨2, ![128, 128]⟩)
    (hc : (⟨1, ![128]⟩ : Shape).ShapeCasts ⟨2, ![1, 128]⟩) :
    blkNode v g (extractStridedSlice ⟨2, ![128, 128]⟩ ![0, 0] W1 h0) (extractStridedSlice ⟨2, ![128, 128]⟩ ![128, 0] W1 h1)
        (shapeCast ⟨2, ![1, 128]⟩ b1 hc) W2 (shapeCast ⟨2, ![1, 128]⟩ b2 hc)
      = nodeL v g W1 b1 W2 b2 := by
  funext i
  unfold blkNode nodeL
  have e0 : (fun (l : Fin 128) (q : Fin 128) => extractStridedSlice ⟨2, ![128, 128]⟩ ![0, 0] W1 h0 (ix2 l q))
      = fun l q => W1 (ix2 (Fin.castAdd 128 l) q) :=
    funext fun l => funext fun q => slice2_axis0_apply 0 W1 h0 l q (Fin.castAdd 128 l) (by simp <;> omega)
  have e1 : (fun (l : Fin 128) (q : Fin 128) => extractStridedSlice ⟨2, ![128, 128]⟩ ![128, 0] W1 h1 (ix2 l q))
      = fun l q => W1 (ix2 (Fin.natAdd 128 l) q) :=
    funext fun l => funext fun q => slice2_axis0_apply 128 W1 h1 l q (Fin.natAdd 128 l) (by simp <;> omega)
  have e3 : (fun (q : Fin 128) => shapeCast ⟨2, ![1, 128]⟩ b1 hc (ix2 (0 : Fin 1) q)) = fun q => b1 (ix1 q) :=
    funext fun q => shapeCast_a_1a_apply b1 hc 0 q
  have e4 : (fun (q : Fin 128) => shapeCast ⟨2, ![1, 128]⟩ b2 hc (ix2 (0 : Fin 1) q)) = fun q => b2 (ix1 q) :=
    funext fun q => shapeCast_a_1a_apply b2 hc 0 q
  rw [e0, e1, e3, e4]

end Cert.Net

end
-- ==== Proof.Region0.lean ====
/-
  Region 0 of the kernel program, read as a value: the unpooling block.
  Point t of the grid stages rows t·4096 … t·4096 + 4095 of each row-tiled operand and the whole of each small
  operand, and writes back the same rows of the result; entry (p, j) of what it writes is the body's row-wise block on
  row p of its staged blocks, that is on row t·4096 + p of the arrays. The sixteen or ninety-six blocks tile the result
  array, so after the region the array is that block applied to every row.
-/
import proofs.«134789_j62947040690362_1_alg».proof.Proof.Gen.KernelIdeal.Frame
import proofs.«134789_j62947040690362_1_alg».proof.Proof.KernelBody
import proofs.«134789_j62947040690362_1_alg».proof.Proof.Blocks
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The index maps, decided over the grid -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = 0 ∧ win0_6.index t (1 : Fin 2) = 0 :=
  (by decide +kernel : ∀ t : Fin grid0.N, _)
theorem idx0_7 : ∀ t : Fin cfg0.N, win0_7.index t (0 : Fin 2) = 0 ∧ win0_7.index t (1 : Fin 2) = 0 :=
  (by decide +kernel : ∀ t : Fin grid0.N, _)
theorem idx0_8 : ∀ t : Fin cfg0.N, win0_8.index t (0 : Fin 2) = t.val ∧ win0_8.index t (1 : Fin 2) = 0 :=
  (by decide +kernel : ∀ t : Fin grid0.N, _)

/-! ## The blocks read off the arrays -/

/-- Window 0's block at point t holds rows t·4096 … t·4096 + 4095 of its array. -/
theorem rd0_0 (c : Dev nD) (t : Fin cfg0.N) (p : Fin 4096) (l : Fin 128) (r : Fin 65536) (hr : r.val = t.val * 4096 + p.val) :
    iblk0 V c 0 t (ix2 p l) = V c main_v6 (ix2 r l) := by
  show V c main_v6 (((cfg0.win 0).blk t).view.emb (ix2 p l)) = V c main_v6 (ix2 r l)
  have h : ((cfg0.win 0).blk t).view.emb (ix2 p l) = ix2 r l := by
    obtain ⟨e0, e1⟩ := idx0_0 t
    funext a; apply Fin.ext
    match a with
    | ⟨0, _⟩ => show win0_0.index t (0 : Fin 2) * 4096 + 1 * p.val = r.val; omega
    | ⟨1, _⟩ => show win0_0.index t (1 : Fin 2) * 128 + 1 * l.val = l.val; omega
  rw [h]

/-- Window 1's block at point t holds rows t·4096 … t·4096 + 4095 of its array. -/
theorem rd0_1 (c : Dev nD) (t : Fin cfg0.N) (p : Fin 4096) (l : Fin 1) (r : Fin 65536) (hr : r.val = t.val * 4096 + p.val) :
    iblk0 V c 1 t (ix2 p l) = V c main_arg3 (ix2 r l) := by
  show V c main_arg3 (((cfg0.win 1).blk t).view.emb (ix2 p l)) = V c main_arg3 (ix2 r l)
  have h : ((cfg0.win 1).blk t).view.emb (ix2 p l) = ix2 r l := by
    obtain ⟨e0, e1⟩ := idx0_1 t
    funext a; apply Fin.ext
    match a with
    | ⟨0, _⟩ => show win0_1.index t (0 : Fin 2) * 4096 + 1 * p.val = r.val; omega
    | ⟨1, _⟩ => show win0_1.index t (1 : Fin 2) * 1 + 1 * l.val = l.val; omega
  rw [h]

/-- Window 2's block at point t holds rows t·4096 … t·4096 + 4095 of its array. -/
theorem rd0_2 (c : Dev nD) (t : Fin cfg0.N) (p : Fin 4096) (l : Fin 128) (r : Fin 65536) (hr : r.val = t.val * 4096 + p.val) :
    iblk0 V c 2 t (ix2 p l) = V c main_arg1 (ix2 r l) := by
  show V c main_arg1 (((cfg0.win 2).blk t).view.emb (ix2 p l)) = V c main_arg1 (ix2 r l)
  have h : ((cfg0.win 2).blk t).view.emb (ix2 p l) = ix2 r l := by
    obtain ⟨e0, e1⟩ := idx0_2 t
    funext a; apply Fin.ext
    match a with
    | ⟨0, _⟩ => show win0_2.index t (0 : Fin 2) * 4096 + 1 * p.val = r.val; omega
    | ⟨1, _⟩ => show win0_2.index t (1 : Fin 2) * 128 + 1 * l.val = l.val; omega
  rw [h]

/-- Window 3's block is its whole array at every point. -/
theorem rd0_3 (c : Dev nD) (t : Fin cfg0.N) (l : Fin 128) (q : Fin 128) :
    iblk0 V c 3 t (ix2 l q) = V c main_v7 (ix2 l q) := by
  show V c main_v7 (((cfg0.win 3).blk t).view.emb (ix2 l q)) = V c main_v7 (ix2 l q)
  have h : ((cfg0.win 3).blk t).view.emb (ix2 l q) = ix2 l q := by
    obtain ⟨e0, e1⟩ := idx0_3 t
    funext a; apply Fin.ext
    match a with
    | ⟨0, _⟩ => show win0_3.index t (0 : Fin 2) * 128 + 1 * l.val = l.val; omega
    | ⟨1, _⟩ => show win0_3.index t (1 : Fin 2) * 128 + 1 * q.val = q.val; omega
  rw [h]

/-- Window 4's block is its whole array at every point. -/
theorem rd0_4 (c : Dev nD) (t : Fin cfg0.N) (l : Fin 1) (q : Fin 128) :
    iblk0 V c 4 t (ix2 l q) = V c main_v8 (ix2 l q) := by
  show V c main_v8 (((cfg0.win 4).blk t).view.emb (ix2 l q)) = V c main_v8 (ix2 l q)
  have h : ((cfg0.win 4).blk t).view.emb (ix2 l q) = ix2 l q := by
    obtain ⟨e0, e1⟩ := idx0_4 t
    funext a; apply Fin.ext
    match a with
    | ⟨0, _⟩ => show win0_4.index t (0 : Fin 2) * 1 + 1 * l.val = l.val; omega
    | ⟨1, _⟩ => show win0_4.index t (1 : Fin 2) * 128 + 1 * q.val = q.val; omega
  rw [h]

/-- Window 5's block is its whole array at every point. -/
theorem rd0_5 (c : Dev nD) (t : Fin cfg0.N) (l : Fin 1) (q : Fin 128) :
    iblk0 V c 5 t (ix2 l q) = V c main_v9 (ix2 l q) := by
  show V c main_v9 (((cfg0.win 5).blk t).view.emb (ix2 l q)) = V c main_v9 (ix2 l q)
  have h : ((cfg0.win 5).blk t).view.emb (ix2 l q) = ix2 l q := by
    obtain ⟨e0, e1⟩ := idx0_5 t
    funext a; apply Fin.ext
    match a with
    | ⟨0, _⟩ => show win0_5.index t (0 : Fin 2) * 1 + 1 * l.val = l.val; omega
    | ⟨1, _⟩ => show win0_5.index t (1 : Fin 2) * 128 + 1 * q.val = q.val; omega
  rw [h]

/-- Window 6's block is its whole array at every point. -/
theorem rd0_6 (c : Dev nD) (t : Fin cfg0.N) (l : Fin 128) (q : Fin 128) :
    iblk0 V c 6 t (ix2 l q) = V c main_arg6 (ix2 l q) := by
  show V c main_arg6 (((cfg0.win 6).blk t).view.emb (ix2 l q)) = V c main_arg6 (ix2 l q)
  have h : ((cfg0.win 6).blk t).view.emb (ix2 l q) = ix2 l q := by
    obtain ⟨e0, e1⟩ := idx0_6 t
    funext a; apply Fin.ext
    match a with
    | ⟨0, _⟩ => show win0_6.index t (0 : Fin 2) * 128 + 1 * l.val = l.val; omega
    | ⟨1, _⟩ => show win0_6.index t (1 : Fin 2) * 128 + 1 * q.val = q.val; omega
  rw [h]

/-- Window 7's block is its whole array at every point. -/
theorem rd0_7 (c : Dev nD) (t : Fin cfg0.N) (l : Fin 1) (q : Fin 128) :
    iblk0 V c 7 t (ix2 l q) = V c main_v10 (ix2 l q) := by
  show V c main_v10 (((cfg0.win 7).blk t).view.emb (ix2 l q)) = V c main_v10 (ix2 l q)
  have h : ((cfg0.win 7).blk t).view.emb (ix2 l q) = ix2 l q := by
    obtain ⟨e0, e1⟩ := idx0_7 t
    funext a; apply Fin.ext
    match a with
    | ⟨0, _⟩ => show win0_7.index t (0 : Fin 2) * 1 + 1 * l.val = l.val; omega
    | ⟨1, _⟩ => show win0_7.index t (1 : Fin 2) * 128 + 1 * q.val = q.val; omega
  rw [h]

/-! ## What a point writes back -/

theorem flushed (c : Dev nD) (t : Fin cfg0.N) :
    (dat0 (F := Ideal) V c).flushed 8 t
      = ((cfg0.win 8).blk t).view.read (Elt Ideal) (Cert.Net.blkUnpool (V c main_v6) (V c main_arg3) (V c main_arg1) (V c main_v7) (V c main_v8) (V c main_v9) (V c main_arg6) (V c main_v10)) := by
  show (cfg0.win 8).cut (grid0.coords t) ((dat0 V c).after 8 t) = _
  rw [after0_8]
  unfold out0_8
  rw [View.canon_unit_zero hz]
  simp only [View.ld_unit_zero (S := S4096x128) hz, View.ld_unit_zero (S := S4096x1) hz, View.ld_unit_zero (S := S128x128) hz, View.ld_unit_zero (S := S1x128) hz]
  funext y
  obtain ⟨p, j, rfl⟩ : ∃ (p : Fin 4096) (j : Fin 128), y = ix2 p j := ⟨y 0, y 1, eq_ix2 y⟩
  have ht : t.val < 16 := lt_of_lt_of_eq t.isLt N_0
  have hp : p.val < 4096 := p.isLt
  obtain ⟨r, hr⟩ : ∃ r : Fin 65536, r.val = t.val * 4096 + p.val := ⟨⟨t.val * 4096 + p.val, by omega⟩, rfl⟩
  have hemb : ((cfg0.win 8).blk t).view.emb (ix2 p j) = ix2 r j := by
    obtain ⟨e0, e1⟩ := idx0_8 t
    funext a; apply Fin.ext
    match a with
    | ⟨0, _⟩ => show win0_8.index t (0 : Fin 2) * 4096 + 1 * p.val = r.val; omega
    | ⟨1, _⟩ => show win0_8.index t (1 : Fin 2) * 128 + 1 * j.val = j.val; omega
  show _ = Cert.Net.blkUnpool (V c main_v6) (V c main_arg3) (V c main_arg1) (V c main_v7) (V c main_v8) (V c main_v9) (V c main_arg6) (V c main_v10) (((cfg0.win 8).blk t).view.emb (ix2 p j))
  rw [hemb]
  refine (Body.k0_at (iblk0 V c 0 t) (iblk0 V c 3 t) (iblk0 V c 1 t) (iblk0 V c 4 t) (iblk0 V c 5 t) (iblk0 V c 6 t) (iblk0 V c 7 t) (iblk0 V c 2 t) p j).trans ?_
  unfold Cert.Net.blkUnpool
  have h0 : (fun l => iblk0 V c 0 t (ix2 p l)) = fun l => V c main_v6 (ix2 r l) := funext fun l => rd0_0 V c t p l r hr
  have h1 : (iblk0 V c 1 t (ix2 p (0 : Fin 1))) = V c main_arg3 (ix2 r (0 : Fin 1)) := rd0_1 V c t p 0 r hr
  have h2 : (fun l q => iblk0 V c 3 t (ix2 l q)) = fun l q => V c main_v7 (ix2 l q) := funext fun l => funext fun q => rd0_3 V c t l q
  have h3 : (fun q => iblk0 V c 4 t (ix2 (0 : Fin 1) q)) = fun q => V c main_v8 (ix2 (0 : Fin 1) q) := funext fun q => rd0_4 V c t 0 q
  have h4 : (fun q => iblk0 V c 5 t (ix2 (0 : Fin 1) q)) = fun q => V c main_v9 (ix2 (0 : Fin 1) q) := funext fun q => rd0_5 V c t 0 q
  have h5 : (fun l q => iblk0 V c 6 t (ix2 l q)) = fun l q => V c main_arg6 (ix2 l q) := funext fun l => funext fun q => rd0_6 V c t l q
  have h6 : (fun q => iblk0 V c 7 t (ix2 (0 : Fin 1) q)) = fun q => V c main_v10 (ix2 (0 : Fin 1) q) := funext fun q => rd0_7 V c t 0 q
  have h7 : (fun q => iblk0 V c 2 t (ix2 p q)) = fun q => V c main_arg1 (ix2 r q) := funext fun q => rd0_2 V c t p q r hr
  rw [h0, h1, h2, h3, h4, h5, h6, h7]

/-! ## The blocks tile the array -/

theorem mem_blk (t : Fin cfg0.N) (i : S65536x128.Idx) :
    i ∈ ((cfg0.win 8).blk t).view.set ↔ ∀ a : Fin 2, win0_8.index t a * S4096x128.size a ≤ (i a).val
      ∧ (i a).val < win0_8.index t a * S4096x128.size a + S4096x128.size a := by
  show i ∈ ((View.whole main_v11).slice (win0_8.rect t)).set ↔ _
  rw [View.set_slice_whole, Rect.mem_set_unit]
  exact Iff.rfl

theorem cover (i : S65536x128.Idx) :
    ∃ t : Fin cfg0.N, (cfg0.win 8).flush t = true ∧ i ∈ ((cfg0.win 8).blk t).view.set := by
  have hi0 : (i 0).val < 65536 := (i 0).isLt
  have hi1 : (i 1).val < 128 := (i 1).isLt
  obtain ⟨t, htv⟩ : ∃ t : Fin cfg0.N, t.val = (i 0).val / 4096 :=
    ⟨⟨(i 0).val / 4096, lt_of_lt_of_eq (by omega : (i 0).val / 4096 < 16) N_0.symm⟩, rfl⟩
  obtain ⟨e0, e1⟩ := idx0_8 t
  refine ⟨t, flush0_8 t, ?_⟩
  rw [mem_blk]
  intro a
  match a with
  | ⟨0, _⟩ =>
    show win0_8.index t (0 : Fin 2) * 4096 ≤ (i 0).val ∧ (i 0).val < win0_8.index t (0 : Fin 2) * 4096 + 4096
    omega
  | ⟨1, _⟩ =>
    show win0_8.index t (1 : Fin 2) * 128 ≤ (i 1).val ∧ (i 1).val < win0_8.index t (1 : Fin 2) * 128 + 128
    omega

/-- The result array after the region: the block applied to every row of the arrays as the region finds them. -/
theorem final (c : Dev nD) :
    (dat0 (F := Ideal) V c).arrAt 8 cfg0.N = Cert.Net.blkUnpool (V c main_v6) (V c main_arg3) (V c main_arg1) (V c main_v7) (V c main_v8) (V c main_v9) (V c main_arg6) (V c main_v10) :=
  (dat0 V c).arrAt_eq_of_cover 8 _ (fun t _ => flushed V c t) cover

end Cert.KernelIdeal.Region0

end
-- ==== Proof.Region1.lean ====
/-
  Region 1 of the kernel program, read as a value: the first round's edge block.
  Point t of the grid stages rows t·4096 … t·4096 + 4095 of each row-tiled operand and the whole of each small
  operand, and writes back the same rows of the result; entry (p, j) of what it writes is the body's row-wise block on
  row p of its staged blocks, that is on row t·4096 + p of the arrays. The sixteen or ninety-six blocks tile the result
  array, so after the region the array is that block applied to every row.
-/
import proofs.«134789_j62947040690362_1_alg».proof.Proof.Gen.KernelIdeal.Frame
import proofs.«134789_j62947040690362_1_alg».proof.Proof.KernelBody
import proofs.«134789_j62947040690362_1_alg».proof.Proof.Blocks
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The index maps, decided over the grid -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = t.val ∧ win1_9.index t (1 : Fin 2) = 0 :=
  (by decide +kernel : ∀ t : Fin grid1.N, _)

/-! ## The blocks read off the arrays -/

/-- Window 0's block at point t holds rows t·4096 … t·4096 + 4095 of its array. -/
theorem rd1_0 (c : Dev nD) (t : Fin cfg1.N) (p : Fin 4096) (l : Fin 128) (r : Fin 393216) (hr : r.val = t.val * 4096 + p.val) :
    iblk1 V c 0 t (ix2 p l) = V c main_arg2 (ix2 r l) := by
  show V c main_arg2 (((cfg1.win 0).blk t).view.emb (ix2 p l)) = V c main_arg2 (ix2 r l)
  have h : ((cfg1.win 0).blk t).view.emb (ix2 p l) = ix2 r l := by
    obtain ⟨e0, e1⟩ := idx1_0 t
    funext a; apply Fin.ext
    match a with
    | ⟨0, _⟩ => show win1_0.index t (0 : Fin 2) * 4096 + 1 * p.val = r.val; omega
    | ⟨1, _⟩ => show win1_0.index t (1 : Fin 2) * 128 + 1 * l.val = l.val; omega
  rw [h]

/-- Window 1's block at point t holds rows t·4096 … t·4096 + 4095 of its array. -/
theorem rd1_1 (c : Dev nD) (t : Fin cfg1.N) (p : Fin 4096) (l : Fin 128) (r : Fin 393216) (hr : r.val = t.val * 4096 + p.val) :
    iblk1 V c 1 t (ix2 p l) = V c main_v22 (ix2 r l) := by
  show V c main_v22 (((cfg1.win 1).blk t).view.emb (ix2 p l)) = V c main_v22 (ix2 r l)
  have h : ((cfg1.win 1).blk t).view.emb (ix2 p l) = ix2 r l := by
    obtain ⟨e0, e1⟩ := idx1_1 t
    funext a; apply Fin.ext
    match a with
    | ⟨0, _⟩ => show win1_1.index t (0 : Fin 2) * 4096 + 1 * p.val = r.val; omega
    | ⟨1, _⟩ => show win1_1.index t (1 : Fin 2) * 128 + 1 * l.val = l.val; omega
  rw [h]

/-- Window 2's block at point t holds rows t·4096 … t·4096 + 4095 of its array. -/
theorem rd1_2 (c : Dev nD) (t : Fin cfg1.N) (p : Fin 4096) (l : Fin 128) (r : Fin 393216) (hr : r.val = t.val * 4096 + p.val) :
    iblk1 V c 2 t (ix2 p l) = V c main_v29 (ix2 r l) := by
  show V c main_v29 (((cfg1.win 2).blk t).view.emb (ix2 p l)) = V c main_v29 (ix2 r l)
  have h : ((cfg1.win 2).blk t).view.emb (ix2 p l) = ix2 r l := by
    obtain ⟨e0, e1⟩ := idx1_2 t
    funext a; apply Fin.ext
    match a with
    | ⟨0, _⟩ => show win1_2.index t (0 : Fin 2) * 4096 + 1 * p.val = r.val; omega
    | ⟨1, _⟩ => show win1_2.index t (1 : Fin 2) * 128 + 1 * l.val = l.val; omega
  rw [h]

/-- Window 3's block is its whole array at every point. -/
theorem rd1_3 (c : Dev nD) (t : Fin cfg1.N) (l : Fin 128) (q : Fin 128) :
    iblk1 V c 3 t (ix2 l q) = V c main_v32 (ix2 l q) := by
  show V c main_v32 (((cfg1.win 3).blk t).view.emb (ix2 l q)) = V c main_v32 (ix2 l q)
  have h : ((cfg1.win 3).blk t).view.emb (ix2 l q) = ix2 l q := by
    obtain ⟨e0, e1⟩ := idx1_3 t
    funext a; apply Fin.ext
    match a with
    | ⟨0, _⟩ => show win1_3.index t (0 : Fin 2) * 128 + 1 * l.val = l.val; omega
    | ⟨1, _⟩ => show win1_3.index t (1 : Fin 2) * 128 + 1 * q.val = q.val; omega
  rw [h]

/-- Window 4's block is its whole array at every point. -/
theorem rd1_4 (c : Dev nD) (t : Fin cfg1.N) (l : Fin 128) (q : Fin 128) :
    iblk1 V c 4 t (ix2 l q) = V c main_v35 (ix2 l q) := by
  show V c main_v35 (((cfg1.win 4).blk t).view.emb (ix2 l q)) = V c main_v35 (ix2 l q)
  have h : ((cfg1.win 4).blk t).view.emb (ix2 l q) = ix2 l q := by
    obtain ⟨e0, e1⟩ := idx1_4 t
    funext a; apply Fin.ext
    match a with
    | ⟨0, _⟩ => show win1_4.index t (0 : Fin 2) * 128 + 1 * l.val = l.val; omega
    | ⟨1, _⟩ => show win1_4.index t (1 : Fin 2) * 128 + 1 * q.val = q.val; omega
  rw [h]

/-- Window 5's block is its whole array at every point. -/
theorem rd1_5 (c : Dev nD) (t : Fin cfg1.N) (l : Fin 128) (q : Fin 128) :
    iblk1 V c 5 t (ix2 l q) = V c main_v38 (ix2 l q) := by
  show V c main_v38 (((cfg1.win 5).blk t).view.emb (ix2 l q)) = V c main_v38 (ix2 l q)
  have h : ((cfg1.win 5).blk t).view.emb (ix2 l q) = ix2 l q := by
    obtain ⟨e0, e1⟩ := idx1_5 t
    funext a; apply Fin.ext
    match a with
    | ⟨0, _⟩ => show win1_5.index t (0 : Fin 2) * 128 + 1 * l.val = l.val; omega
    | ⟨1, _⟩ => show win1_5.index t (1 : Fin 2) * 128 + 1 * q.val = q.val; omega
  rw [h]

/-- Window 6's block is its whole array at every point. -/
theorem rd1_6 (c : Dev nD) (t : Fin cfg1.N) (l : Fin 1) (q : Fin 128) :
    iblk1 V c 6 t (ix2 l q) = V c main_v41 (ix2 l q) := by
  show V c main_v41 (((cfg1.win 6).blk t).view.emb (ix2 l q)) = V c main_v41 (ix2 l q)
  have h : ((cfg1.win 6).blk t).view.emb (ix2 l q) = ix2 l q := by
    obtain ⟨e0, e1⟩ := idx1_6 t
    funext a; apply Fin.ext
    match a with
    | ⟨0, _⟩ => show win1_6.index t (0 : Fin 2) * 1 + 1 * l.val = l.val; omega
    | ⟨1, _⟩ => show win1_6.index t (1 : Fin 2) * 128 + 1 * q.val = q.val; omega
  rw [h]

/-- Window 7's block is its whole array at every point. -/
theorem rd1_7 (c : Dev nD) (t : Fin cfg1.N) (l : Fin 128) (q : Fin 128) :
    iblk1 V c 7 t (ix2 l q) = V c main_v46 (ix2 l q) := by
  show V c main_v46 (((cfg1.win 7).blk t).view.emb (ix2 l q)) = V c main_v46 (ix2 l q)
  have h : ((cfg1.win 7).blk t).view.emb (ix2 l q) = ix2 l q := by
    obtain ⟨e0, e1⟩ := idx1_7 t
    funext a; apply Fin.ext
    match a with
    | ⟨0, _⟩ => show win1_7.index t (0 : Fin 2) * 128 + 1 * l.val = l.val; omega
    | ⟨1, _⟩ => show win1_7.index t (1 : Fin 2) * 128 + 1 * q.val = q.val; omega
  rw [h]

/-- Window 8's block is its whole array at every point. -/
theorem rd1_8 (c : Dev nD) (t : Fin cfg1.N) (l : Fin 1) (q : Fin 128) :
    iblk1 V c 8 t (ix2 l q) = V c main_v44 (ix2 l q) := by
  show V c main_v44 (((cfg1.win 8).blk t).view.emb (ix2 l q)) = V c main_v44 (ix2 l q)
  have h : ((cfg1.win 8).blk t).view.emb (ix2 l q) = ix2 l q := by
    obtain ⟨e0, e1⟩ := idx1_8 t
    funext a; apply Fin.ext
    match a with
    | ⟨0, _⟩ => show win1_8.index t (0 : Fin 2) * 1 + 1 * l.val = l.val; omega
    | ⟨1, _⟩ => show win1_8.index t (1 : Fin 2) * 128 + 1 * q.val = q.val; omega
  rw [h]

/-! ## What a point writes back -/

theorem flushed (c : Dev nD) (t : Fin cfg1.N) :
    (dat1 (F := Ideal) V c).flushed 9 t
      = ((cfg1.win 9).blk t).view.read (Elt Ideal) (Cert.Net.blkEdge (V c main_arg2) (V c main_v22) (V c main_v29) (V c main_v32) (V c main_v35) (V c main_v38) (V c main_v41) (V c main_v46) (V c main_v44)) := by
  show (cfg1.win 9).cut (grid1.coords t) ((dat1 V c).after 9 t) = _
  rw [after1_9]
  unfold out1_9
  rw [View.canon_unit_zero hz]
  simp only [View.ld_unit_zero (S := S4096x128) hz, View.ld_unit_zero (S := S128x128) hz, View.ld_unit_zero (S := S1x128) hz]
  funext y
  obtain ⟨p, j, rfl⟩ : ∃ (p : Fin 4096) (j : Fin 128), y = ix2 p j := ⟨y 0, y 1, eq_ix2 y⟩
  have ht : t.val < 96 := lt_of_lt_of_eq t.isLt N_1
  have hp : p.val < 4096 := p.isLt
  obtain ⟨r, hr⟩ : ∃ r : Fin 393216, r.val = t.val * 4096 + p.val := ⟨⟨t.val * 4096 + p.val, by omega⟩, rfl⟩
  have hemb : ((cfg1.win 9).blk t).view.emb (ix2 p j) = ix2 r j := by
    obtain ⟨e0, e1⟩ := idx1_9 t
    funext a; apply Fin.ext
    match a with
    | ⟨0, _⟩ => show win1_9.index t (0 : Fin 2) * 4096 + 1 * p.val = r.val; omega
    | ⟨1, _⟩ => show win1_9.index t (1 : Fin 2) * 128 + 1 * j.val = j.val; omega
  show _ = Cert.Net.blkEdge (V c main_arg2) (V c main_v22) (V c main_v29) (V c main_v32) (V c main_v35) (V c main_v38) (V c main_v41) (V c main_v46) (V c main_v44) (((cfg1.win 9).blk t).view.emb (ix2 p j))
  rw [hemb]
  refine (Body.k1_at (iblk1 V c 0 t) (iblk1 V c 1 t) (iblk1 V c 2 t) (iblk1 V c 3 t) (iblk1 V c 4 t) (iblk1 V c 5 t) (iblk1 V c 6 t) (iblk1 V c 7 t) (iblk1 V c 8 t) p j).trans ?_
  unfold Cert.Net.blkEdge
  have h0 : (fun l => iblk1 V c 0 t (ix2 p l)) = fun l => V c main_arg2 (ix2 r l) := funext fun l => rd1_0 V c t p l r hr
  have h1 : (fun l => iblk1 V c 1 t (ix2 p l)) = fun l => V c main_v22 (ix2 r l) := funext fun l => rd1_1 V c t p l r hr
  have h2 : (fun l => iblk1 V c 2 t (ix2 p l)) = fun l => V c main_v29 (ix2 r l) := funext fun l => rd1_2 V c t p l r hr
  have h3 : (fun l q => iblk1 V c 3 t (ix2 l q)) = fun l q => V c main_v32 (ix2 l q) := funext fun l => funext fun q => rd1_3 V c t l q
  have h4 : (fun l q => iblk1 V c 4 t (ix2 l q)) = fun l q => V c main_v35 (ix2 l q) := funext fun l => funext fun q => rd1_4 V c t l q
  have h5 : (fun l q => iblk1 V c 5 t (ix2 l q)) = fun l q => V c main_v38 (ix2 l q) := funext fun l => funext fun q => rd1_5 V c t l q
  have h6 : (fun q => iblk1 V c 6 t (ix2 (0 : Fin 1) q)) = fun q => V c main_v41 (ix2 (0 : Fin 1) q) := funext fun q => rd1_6 V c t 0 q
  have h7 : (fun l q => iblk1 V c 7 t (ix2 l q)) = fun l q => V c main_v46 (ix2 l q) := funext fun l => funext fun q => rd1_7 V c t l q
  have h8 : (fun q => iblk1 V c 8 t (ix2 (0 : Fin 1) q)) = fun q => V c main_v44 (ix2 (0 : Fin 1) q) := funext fun q => rd1_8 V c t 0 q
  rw [h0, h1, h2, h3, h4, h5, h6, h7, h8]

/-! ## The blocks tile the array -/

theorem mem_blk (t : Fin cfg1.N) (i : S393216x128.Idx) :
    i ∈ ((cfg1.win 9).blk t).view.set ↔ ∀ a : Fin 2, win1_9.index t a * S4096x128.size a ≤ (i a).val
      ∧ (i a).val < win1_9.index t a * S4096x128.size a + S4096x128.size a := by
  show i ∈ ((View.whole main_v47).slice (win1_9.rect t)).set ↔ _
  rw [View.set_slice_whole, Rect.mem_set_unit]
  exact Iff.rfl

theorem cover (i : S393216x128.Idx) :
    ∃ t : Fin cfg1.N, (cfg1.win 9).flush t = true ∧ i ∈ ((cfg1.win 9).blk t).view.set := by
  have hi0 : (i 0).val < 393216 := (i 0).isLt
  have hi1 : (i 1).val < 128 := (i 1).isLt
  obtain ⟨t, htv⟩ : ∃ t : Fin cfg1.N, t.val = (i 0).val / 4096 :=
    ⟨⟨(i 0).val / 4096, lt_of_lt_of_eq (by omega : (i 0).val / 4096 < 96) N_1.symm⟩, rfl⟩
  obtain ⟨e0, e1⟩ := idx1_9 t
  refine ⟨t, flush1_9 t, ?_⟩
  rw [mem_blk]
  intro a
  match a with
  | ⟨0, _⟩ =>
    show win1_9.index t (0 : Fin 2) * 4096 ≤ (i 0).val ∧ (i 0).val < win1_9.index t (0 : Fin 2) * 4096 + 4096
    omega
  | ⟨1, _⟩ =>
    show win1_9.index t (1 : Fin 2) * 128 ≤ (i 1).val ∧ (i 1).val < win1_9.index t (1 : Fin 2) * 128 + 128
    omega

/-- The result array after the region: the block applied to every row of the arrays as the region finds them. -/
theorem final (c : Dev nD) :
    (dat1 (F := Ideal) V c).arrAt 9 cfg1.N = Cert.Net.blkEdge (V c main_arg2) (V c main_v22) (V c main_v29) (V c main_v32) (V c main_v35) (V c main_v38) (V c main_v41) (V c main_v46) (V c main_v44) :=
  (dat1 V c).arrAt_eq_of_cover 9 _ (fun t _ => flushed V c t) cover

end Cert.KernelIdeal.Region1

end
-- ==== Proof.Region2.lean ====
/-
  Region 2 of the kernel program, read as a value: the first round's node block.
  Point t of the grid stages rows t·4096 … t·4096 + 4095 of each row-tiled operand and the whole of each small
  operand, and writes back the same rows of the result; entry (p, j) of what it writes is the body's row-wise block on
  row p of its staged blocks, that is on row t·4096 + p of the arrays. The sixteen or ninety-six blocks tile the result
  array, so after the region the array is that block applied to every row.
-/
import proofs.«134789_j62947040690362_1_alg».proof.Proof.Gen.KernelIdeal.Frame
import proofs.«134789_j62947040690362_1_alg».proof.Proof.KernelBody
import proofs.«134789_j62947040690362_1_alg».proof.Proof.Blocks
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The index maps, decided over the grid -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = 0 ∧ win2_6.index t (1 : Fin 2) = 0 :=
  (by decide +kernel : ∀ t : Fin grid2.N, _)
theorem idx2_7 : ∀ t : Fin cfg2.N, win2_7.index t (0 : Fin 2) = t.val ∧ win2_7.index t (1 : Fin 2) = 0 :=
  (by decide +kernel : ∀ t : Fin grid2.N, _)

/-! ## The blocks read off the arrays -/

/-- Window 0's block at point t holds rows t·4096 … t·4096 + 4095 of its array. -/
theorem rd2_0 (c : Dev nD) (t : Fin cfg2.N) (p : Fin 4096) (l : Fin 128) (r : Fin 65536) (hr : r.val = t.val * 4096 + p.val) :
    iblk2 V c 0 t (ix2 p l) = V c main_v11 (ix2 r l) := by
  show V c main_v11 (((cfg2.win 0).blk t).view.emb (ix2 p l)) = V c main_v11 (ix2 r l)
  have h : ((cfg2.win 0).blk t).view.emb (ix2 p l) = ix2 r l := by
    obtain ⟨e0, e1⟩ := idx2_0 t
    funext a; apply Fin.ext
    match a with
    | ⟨0, _⟩ => show win2_0.index t (0 : Fin 2) * 4096 + 1 * p.val = r.val; omega
    | ⟨1, _⟩ => show win2_0.index t (1 : Fin 2) * 128 + 1 * l.val = l.val; omega
  rw [h]

/-- Window 1's block at point t holds rows t·4096 … t·4096 + 4095 of its array. -/
theorem rd2_1 (c : Dev nD) (t : Fin cfg2.N) (p : Fin 4096) (l : Fin 128) (r : Fin 65536) (hr : r.val = t.val * 4096 + p.val) :
    iblk2 V c 1 t (ix2 p l) = V c main_v50 (ix2 r l) := by
  show V c main_v50 (((cfg2.win 1).blk t).view.emb (ix2 p l)) = V c main_v50 (ix2 r l)
  have h : ((cfg2.win 1).blk t).view.emb (ix2 p l) = ix2 r l := by
    obtain ⟨e0, e1⟩ := idx2_1 t
    funext a; apply Fin.ext
    match a with
    | ⟨0, _⟩ => show win2_1.index t (0 : Fin 2) * 4096 + 1 * p.val = r.val; omega
    | ⟨1, _⟩ => show win2_1.index t (1 : Fin 2) * 128 + 1 * l.val = l.val; omega
  rw [h]

/-- Window 2's block is its whole array at every point. -/
theorem rd2_2 (c : Dev nD) (t : Fin cfg2.N) (l : Fin 128) (q : Fin 128) :
    iblk2 V c 2 t (ix2 l q) = V c main_v53 (ix2 l q) := by
  show V c main_v53 (((cfg2.win 2).blk t).view.emb (ix2 l q)) = V c main_v53 (ix2 l q)
  have h : ((cfg2.win 2).blk t).view.emb (ix2 l q) = ix2 l q := by
    obtain ⟨e0, e1⟩ := idx2_2 t
    funext a; apply Fin.ext
    match a with
    | ⟨0, _⟩ => show win2_2.index t (0 : Fin 2) * 128 + 1 * l.val = l.val; omega
    | ⟨1, _⟩ => show win2_2.index t (1 : Fin 2) * 128 + 1 * q.val = q.val; omega
  rw [h]

/-- Window 3's block is its whole array at every point. -/
theorem rd2_3 (c : Dev nD) (t : Fin cfg2.N) (l : Fin 128) (q : Fin 128) :
    iblk2 V c 3 t (ix2 l q) = V c main_v56 (ix2 l q) := by
  show V c main_v56 (((cfg2.win 3).blk t).view.emb (ix2 l q)) = V c main_v56 (ix2 l q)
  have h : ((cfg2.win 3).blk t).view.emb (ix2 l q) = ix2 l q := by
    obtain ⟨e0, e1⟩ := idx2_3 t
    funext a; apply Fin.ext
    match a with
    | ⟨0, _⟩ => show win2_3.index t (0 : Fin 2) * 128 + 1 * l.val = l.val; omega
    | ⟨1, _⟩ => show win2_3.index t (1 : Fin 2) * 128 + 1 * q.val = q.val; omega
  rw [h]

/-- Window 4's block is its whole array at every point. -/
theorem rd2_4 (c : Dev nD) (t : Fin cfg2.N) (l : Fin 1) (q : Fin 128) :
    iblk2 V c 4 t (ix2 l q) = V c main_v59 (ix2 l q) := by
  show V c main_v59 (((cfg2.win 4).blk t).view.emb (ix2 l q)) = V c main_v59 (ix2 l q)
  have h : ((cfg2.win 4).blk t).view.emb (ix2 l q) = ix2 l q := by
    obtain ⟨e0, e1⟩ := idx2_4 t
    funext a; apply Fin.ext
    match a with
    | ⟨0, _⟩ => show win2_4.index t (0 : Fin 2) * 1 + 1 * l.val = l.val; omega
    | ⟨1, _⟩ => show win2_4.index t (1 : Fin 2) * 128 + 1 * q.val = q.val; omega
  rw [h]

/-- Window 5's block is its whole array at every point. -/
theorem rd2_5 (c : Dev nD) (t : Fin cfg2.N) (l : Fin 128) (q : Fin 128) :
    iblk2 V c 5 t (ix2 l q) = V c main_v64 (ix2 l q) := by
  show V c main_v64 (((cfg2.win 5).blk t).view.emb (ix2 l q)) = V c main_v64 (ix2 l q)
  have h : ((cfg2.win 5).blk t).view.emb (ix2 l q) = ix2 l q := by
    obtain ⟨e0, e1⟩ := idx2_5 t
    funext a; apply Fin.ext
    match a with
    | ⟨0, _⟩ => show win2_5.index t (0 : Fin 2) * 128 + 1 * l.val = l.val; omega
    | ⟨1, _⟩ => show win2_5.index t (1 : Fin 2) * 128 + 1 * q.val = q.val; omega
  rw [h]

/-- Window 6's block is its whole array at every point. -/
theorem rd2_6 (c : Dev nD) (t : Fin cfg2.N) (l : Fin 1) (q : Fin 128) :
    iblk2 V c 6 t (ix2 l q) = V c main_v62 (ix2 l q) := by
  show V c main_v62 (((cfg2.win 6).blk t).view.emb (ix2 l q)) = V c main_v62 (ix2 l q)
  have h : ((cfg2.win 6).blk t).view.emb (ix2 l q) = ix2 l q := by
    obtain ⟨e0, e1⟩ := idx2_6 t
    funext a; apply Fin.ext
    match a with
    | ⟨0, _⟩ => show win2_6.index t (0 : Fin 2) * 1 + 1 * l.val = l.val; omega
    | ⟨1, _⟩ => show win2_6.index t (1 : Fin 2) * 128 + 1 * q.val = q.val; omega
  rw [h]

/-! ## What a point writes back -/

theorem flushed (c : Dev nD) (t : Fin cfg2.N) :
    (dat2 (F := Ideal) V c).flushed 7 t
      = ((cfg2.win 7).blk t).view.read (Elt Ideal) (Cert.Net.blkNode (V c main_v11) (V c main_v50) (V c main_v53) (V c main_v56) (V c main_v59) (V c main_v64) (V c main_v62)) := by
  show (cfg2.win 7).cut (grid2.coords t) ((dat2 V c).after 7 t) = _
  rw [after2_7]
  unfold out2_7
  rw [View.canon_unit_zero hz]
  simp only [View.ld_unit_zero (S := S4096x128) hz, View.ld_unit_zero (S := S128x128) hz, View.ld_unit_zero (S := S1x128) hz]
  funext y
  obtain ⟨p, j, rfl⟩ : ∃ (p : Fin 4096) (j : Fin 128), y = ix2 p j := ⟨y 0, y 1, eq_ix2 y⟩
  have ht : t.val < 16 := lt_of_lt_of_eq t.isLt N_2
  have hp : p.val < 4096 := p.isLt
  obtain ⟨r, hr⟩ : ∃ r : Fin 65536, r.val = t.val * 4096 + p.val := ⟨⟨t.val * 4096 + p.val, by omega⟩, rfl⟩
  have hemb : ((cfg2.win 7).blk t).view.emb (ix2 p j) = ix2 r j := by
    obtain ⟨e0, e1⟩ := idx2_7 t
    funext a; apply Fin.ext
    match a with
    | ⟨0, _⟩ => show win2_7.index t (0 : Fin 2) * 4096 + 1 * p.val = r.val; omega
    | ⟨1, _⟩ => show win2_7.index t (1 : Fin 2) * 128 + 1 * j.val = j.val; omega
  show _ = Cert.Net.blkNode (V c main_v11) (V c main_v50) (V c main_v53) (V c main_v56) (V c main_v59) (V c main_v64) (V c main_v62) (((cfg2.win 7).blk t).view.emb (ix2 p j))
  rw [hemb]
  refine (Body.k2_at (iblk2 V c 0 t) (iblk2 V c 1 t) (iblk2 V c 2 t) (iblk2 V c 3 t) (iblk2 V c 4 t) (iblk2 V c 5 t) (iblk2 V c 6 t) p j).trans ?_
  unfold Cert.Net.blkNode
  have h0 : (fun l => iblk2 V c 0 t (ix2 p l)) = fun l => V c main_v11 (ix2 r l) := funext fun l => rd2_0 V c t p l r hr
  have h1 : (fun l => iblk2 V c 1 t (ix2 p l)) = fun l => V c main_v50 (ix2 r l) := funext fun l => rd2_1 V c t p l r hr
  have h2 : (fun l q => iblk2 V c 2 t (ix2 l q)) = fun l q => V c main_v53 (ix2 l q) := funext fun l => funext fun q => rd2_2 V c t l q
  have h3 : (fun l q => iblk2 V c 3 t (ix2 l q)) = fun l q => V c main_v56 (ix2 l q) := funext fun l => funext fun q => rd2_3 V c t l q
  have h4 : (fun q => iblk2 V c 4 t (ix2 (0 : Fin 1) q)) = fun q => V c main_v59 (ix2 (0 : Fin 1) q) := funext fun q => rd2_4 V c t 0 q
  have h5 : (fun l q => iblk2 V c 5 t (ix2 l q)) = fun l q => V c main_v64 (ix2 l q) := funext fun l => funext fun q => rd2_5 V c t l q
  have h6 : (fun q => iblk2 V c 6 t (ix2 (0 : Fin 1) q)) = fun q => V c main_v62 (ix2 (0 : Fin 1) q) := funext fun q => rd2_6 V c t 0 q
  rw [h0, h1, h2, h3, h4, h5, h6]

/-! ## The blocks tile the array -/

theorem mem_blk (t : Fin cfg2.N) (i : S65536x128.Idx) :
    i ∈ ((cfg2.win 7).blk t).view.set ↔ ∀ a : Fin 2, win2_7.index t a * S4096x128.size a ≤ (i a).val
      ∧ (i a).val < win2_7.index t a * S4096x128.size a + S4096x128.size a := by
  show i ∈ ((View.whole main_v65).slice (win2_7.rect t)).set ↔ _
  rw [View.set_slice_whole, Rect.mem_set_unit]
  exact Iff.rfl

theorem cover (i : S65536x128.Idx) :
    ∃ t : Fin cfg2.N, (cfg2.win 7).flush t = true ∧ i ∈ ((cfg2.win 7).blk t).view.set := by
  have hi0 : (i 0).val < 65536 := (i 0).isLt
  have hi1 : (i 1).val < 128 := (i 1).isLt
  obtain ⟨t, htv⟩ : ∃ t : Fin cfg2.N, t.val = (i 0).val / 4096 :=
    ⟨⟨(i 0).val / 4096, lt_of_lt_of_eq (by omega : (i 0).val / 4096 < 16) N_2.symm⟩, rfl⟩
  obtain ⟨e0, e1⟩ := idx2_7 t
  refine ⟨t, flush2_7 t, ?_⟩
  rw [mem_blk]
  intro a
  match a with
  | ⟨0, _⟩ =>
    show win2_7.index t (0 : Fin 2) * 4096 ≤ (i 0).val ∧ (i 0).val < win2_7.index t (0 : Fin 2) * 4096 + 4096
    omega
  | ⟨1, _⟩ =>
    show win2_7.index t (1 : Fin 2) * 128 ≤ (i 1).val ∧ (i 1).val < win2_7.index t (1 : Fin 2) * 128 + 128
    omega

/-- The result array after the region: the block applied to every row of the arrays as the region finds them. -/
theorem final (c : Dev nD) :
    (dat2 (F := Ideal) V c).arrAt 7 cfg2.N = Cert.Net.blkNode (V c main_v11) (V c main_v50) (V c main_v53) (V c main_v56) (V c main_v59) (V c main_v64) (V c main_v62) :=
  (dat2 V c).arrAt_eq_of_cover 7 _ (fun t _ => flushed V c t) cover

end Cert.KernelIdeal.Region2

end
-- ==== Proof.Region3.lean ====
/-
  Region 3 of the kernel program, read as a value: the second round's edge block.
  Point t of the grid stages rows t·4096 … t·4096 + 4095 of each row-tiled operand and the whole of each small
  operand, and writes back the same rows of the result; entry (p, j) of what it writes is the body's row-wise block on
  row p of its staged blocks, that is on row t·4096 + p of the arrays. The sixteen or ninety-six blocks tile the result
  array, so after the region the array is that block applied to every row.
-/
import proofs.«134789_j62947040690362_1_alg».proof.Proof.Gen.KernelIdeal.Frame
import proofs.«134789_j62947040690362_1_alg».proof.Proof.KernelBody
import proofs.«134789_j62947040690362_1_alg».proof.Proof.Blocks
import Idealize.ShloMosaic.Lib.Pipeline.Value

set_option maxRecDepth 16384

noncomputable section

namespace Cert.KernelIdeal.Region3

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The index maps, decided over the grid -/

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)
theorem idx3_8 : ∀ t : Fin cfg3.N, win3_8.index t (0 : Fin 2) = 0 ∧ win3_8.index t (1 : Fin 2) = 0 :=
  (by decide +kernel : ∀ t : Fin grid3.N, _)
theorem idx3_9 : ∀ t : Fin cfg3.N, win3_9.index t (0 : Fin 2) = t.val ∧ win3_9.index t (1 : Fin 2) = 0 :=
  (by decide +kernel : ∀ t : Fin grid3.N, _)

/-! ## The blocks read off the arrays -/

/-- Window 0's block at point t holds rows t·4096 … t·4096 + 4095 of its array. -/
theorem rd3_0 (c : Dev nD) (t : Fin cfg3.N) (p : Fin 4096) (l : Fin 128) (r : Fin 393216) (hr : r.val = t.val * 4096 + p.val) :
    iblk3 V c 0 t (ix2 p l) = V c main_v47 (ix2 r l) := by
  show V c main_v47 (((cfg3.win 0).blk t).view.emb (ix2 p l)) = V c main_v47 (ix2 r l)
  have h : ((cfg3.win 0).blk t).view.emb (ix2 p l) = ix2 r l := by
    obtain ⟨e0, e1⟩ := idx3_0 t
    funext a; apply Fin.ext
    match a with
    | ⟨0, _⟩ => show win3_0.index t (0 : Fin 2) * 4096 + 1 * p.val = r.val; omega
    | ⟨1, _⟩ => show win3_0.index t (1 : Fin 2) * 128 + 1 * l.val = l.val; omega
  rw [h]

/-- Window 1's block at point t holds rows t·4096 … t·4096 + 4095 of its array. -/
theorem rd3_1 (c : Dev nD) (t : Fin cfg3.N) (p : Fin 4096) (l : Fin 128) (r : Fin 393216) (hr : r.val = t.val * 4096 + p.val) :
    iblk3 V c 1 t (ix2 p l) = V c main_v72 (ix2 r l) := by
  show V c main_v72 (((cfg3.win 1).blk t).view.emb (ix2 p l)) = V c main_v72 (ix2 r l)
  have h : ((cfg3.win 1).blk t).view.emb (ix2 p l) = ix2 r l := by
    obtain ⟨e0, e1⟩ := idx3_1 t
    funext a; apply Fin.ext
    match a with
    | ⟨0, _⟩ => show win3_1.index t (0 : Fin 2) * 4096 + 1 * p.val = r.val; omega
    | ⟨1, _⟩ => show win3_1.index t (1 : Fin 2) * 128 + 1 * l.val = l.val; omega
  rw [h]

/-- Window 2's block at point t holds rows t·4096 … t·4096 + 4095 of its array. -/
theorem rd3_2 (c : Dev nD) (t : Fin cfg3.N) (p : Fin 4096) (l : Fin 128) (r : Fin 393216) (hr : r.val = t.val * 4096 + p.val) :
    iblk3 V c 2 t (ix2 p l) = V c main_v79 (ix2 r l) := by
  show V c main_v79 (((cfg3.win 2).blk t).view.emb (ix2 p l)) = V c main_v79 (ix2 r l)
  have h : ((cfg3.win 2).blk t).view.emb (ix2 p l) = ix2 r l := by
    obtain ⟨e0, e1⟩ := idx3_2 t
    funext a; apply Fin.ext
    match a with
    | ⟨0, _⟩ => show win3_2.index t (0 : Fin 2) * 4096 + 1 * p.val = r.val; omega
    | ⟨1, _⟩ => show win3_2.index t (1 : Fin 2) * 128 + 1 * l.val = l.val; omega
  rw [h]

/-- Window 3's block is its whole array at every point. -/
theorem rd3_3 (c : Dev nD) (t : Fin cfg3.N) (l : Fin 128) (q : Fin 128) :
    iblk3 V c 3 t (ix2 l q) = V c main_v82 (ix2 l q) := by
  show V c main_v82 (((cfg3.win 3).blk t).view.emb (ix2 l q)) = V c main_v82 (ix2 l q)
  have h : ((cfg3.win 3).blk t).view.emb (ix2 l q) = ix2 l q := by
    obtain ⟨e0, e1⟩ := idx3_3 t
    funext a; apply Fin.ext
    match a with
    | ⟨0, _⟩ => show win3_3.index t (0 : Fin 2) * 128 + 1 * l.val = l.val; omega
    | ⟨1, _⟩ => show win3_3.index t (1 : Fin 2) * 128 + 1 * q.val = q.val; omega
  rw [h]

/-- Window 4's block is its whole array at every point. -/
theorem rd3_4 (c : Dev nD) (t : Fin cfg3.N) (l : Fin 128) (q : Fin 128) :
    iblk3 V c 4 t (ix2 l q) = V c main_v85 (ix2 l q) := by
  show V c main_v85 (((cfg3.win 4).blk t).view.emb (ix2 l q)) = V c main_v85 (ix2 l q)
  have h : ((cfg3.win 4).blk t).view.emb (ix2 l q) = ix2 l q := by
    obtain ⟨e0, e1⟩ := idx3_4 t
    funext a; apply Fin.ext
    match a with
    | ⟨0, _⟩ => show win3_4.index t (0 : Fin 2) * 128 + 1 * l.val = l.val; omega
    | ⟨1, _⟩ => show win3_4.index t (1 : Fin 2) * 128 + 1 * q.val = q.val; omega
  rw [h]

/-- Window 5's block is its whole array at every point. -/
theorem rd3_5 (c : Dev nD) (t : Fin cfg3.N) (l : Fin 128) (q : Fin 128) :
    iblk3 V c 5 t (ix2 l q) = V c main_v88 (ix2 l q) := by
  show V c main_v88 (((cfg3.win 5).blk t).view.emb (ix2 l q)) = V c main_v88 (ix2 l q)
  have h : ((cfg3.win 5).blk t).view.emb (ix2 l q) = ix2 l q := by
    obtain ⟨e0, e1⟩ := idx3_5 t
    funext a; apply Fin.ext
    match a with
    | ⟨0, _⟩ => show win3_5.index t (0 : Fin 2) * 128 + 1 * l.val = l.val; omega
    | ⟨1, _⟩ => show win3_5.index t (1 : Fin 2) * 128 + 1 * q.val = q.val; omega
  rw [h]

/-- Window 6's block is its whole array at every point. -/
theorem rd3_6 (c : Dev nD) (t : Fin cfg3.N) (l : Fin 1) (q : Fin 128) :
    iblk3 V c 6 t (ix2 l q) = V c main_v91 (ix2 l q) := by
  show V c main_v91 (((cfg3.win 6).blk t).view.emb (ix2 l q)) = V c main_v91 (ix2 l q)
  have h : ((cfg3.win 6).blk t).view.emb (ix2 l q) = ix2 l q := by
    obtain ⟨e0, e1⟩ := idx3_6 t
    funext a; apply Fin.ext
    match a with
    | ⟨0, _⟩ => show win3_6.index t (0 : Fin 2) * 1 + 1 * l.val = l.val; omega
    | ⟨1, _⟩ => show win3_6.index t (1 : Fin 2) * 128 + 1 * q.val = q.val; omega
  rw [h]

/-- Window 7's block is its whole array at every point. -/
theorem rd3_7 (c : Dev nD) (t : Fin cfg3.N) (l : Fin 128) (q : Fin 128) :
    iblk3 V c 7 t (ix2 l q) = V c main_v96 (ix2 l q) := by
  show V c main_v96 (((cfg3.win 7).blk t).view.emb (ix2 l q)) = V c main_v96 (ix2 l q)
  have h : ((cfg3.win 7).blk t).view.emb (ix2 l q) = ix2 l q := by
    obtain ⟨e0, e1⟩ := idx3_7 t
    funext a; apply Fin.ext
    match a with
    | ⟨0, _⟩ => show win3_7.index t (0 : Fin 2) * 128 + 1 * l.val = l.val; omega
    | ⟨1, _⟩ => show win3_7.index t (1 : Fin 2) * 128 + 1 * q.val = q.val; omega
  rw [h]

/-- Window 8's block is its whole array at every point. -/
theorem rd3_8 (c : Dev nD) (t : Fin cfg3.N) (l : Fin 1) (q : Fin 128) :
    iblk3 V c 8 t (ix2 l q) = V c main_v94 (ix2 l q) := by
  show V c main_v94 (((cfg3.win 8).blk t).view.emb (ix2 l q)) = V c main_v94 (ix2 l q)
  have h : ((cfg3.win 8).blk t).view.emb (ix2 l q) = ix2 l q := by
    obtain ⟨e0, e1⟩ := idx3_8 t
    funext a; apply Fin.ext
    match a with
    | ⟨0, _⟩ => show win3_8.index t (0 : Fin 2) * 1 + 1 * l.val = l.val; omega
    | ⟨1, _⟩ => show win3_8.index t (1 : Fin 2) * 128 + 1 * q.val = q.val; omega
  rw [h]

/-! ## What a point writes back -/

theorem flushed (c : Dev nD) (t : Fin cfg3.N) :
    (dat3 (F := Ideal) V c).flushed 9 t
      = ((cfg3.win 9).blk t).view.read (Elt Ideal) (Cert.Net.blkEdge (V c main_v47) (V c main_v72) (V c main_v79) (V c main_v82) (V c main_v85) (V c main_v88) (V c main_v91) (V c main_v96) (V c main_v94)) := by
  show (cfg3.win 9).cut (grid3.coords t) ((dat3 V c).after 9 t) = _
  rw [after3_9]
  unfold out3_9
  rw [View.canon_unit_zero hz]
  simp only [View.ld_unit_zero (S := S4096x128) hz, View.ld_unit_zero (S := S128x128) hz, View.ld_unit_zero (S := S1x128) hz]
  funext y
  obtain ⟨p, j, rfl⟩ : ∃ (p : Fin 4096) (j : Fin 128), y = ix2 p j := ⟨y 0, y 1, eq_ix2 y⟩
  have ht : t.val < 96 := lt_of_lt_of_eq t.isLt N_3
  have hp : p.val < 4096 := p.isLt
  obtain ⟨r, hr⟩ : ∃ r : Fin 393216, r.val = t.val * 4096 + p.val := ⟨⟨t.val * 4096 + p.val, by omega⟩, rfl⟩
  have hemb : ((cfg3.win 9).blk t).view.emb (ix2 p j) = ix2 r j := by
    obtain ⟨e0, e1⟩ := idx3_9 t
    funext a; apply Fin.ext
    match a with
    | ⟨0, _⟩ => show win3_9.index t (0 : Fin 2) * 4096 + 1 * p.val = r.val; omega
    | ⟨1, _⟩ => show win3_9.index t (1 : Fin 2) * 128 + 1 * j.val = j.val; omega
  show _ = Cert.Net.blkEdge (V c main_v47) (V c main_v72) (V c main_v79) (V c main_v82) (V c main_v85) (V c main_v88) (V c main_v91) (V c main_v96) (V c main_v94) (((cfg3.win 9).blk t).view.emb (ix2 p j))
  rw [hemb]
  refine (Body.k3_at (iblk3 V c 0 t) (iblk3 V c 1 t) (iblk3 V c 2 t) (iblk3 V c 3 t) (iblk3 V c 4 t) (iblk3 V c 5 t) (iblk3 V c 6 t) (iblk3 V c 7 t) (iblk3 V c 8 t) p j).trans ?_
  unfold Cert.Net.blkEdge
  have h0 : (fun l => iblk3 V c 0 t (ix2 p l)) = fun l => V c main_v47 (ix2 r l) := funext fun l => rd3_0 V c t p l r hr
  have h1 : (fun l => iblk3 V c 1 t (ix2 p l)) = fun l => V c main_v72 (ix2 r l) := funext fun l => rd3_1 V c t p l r hr
  have h2 : (fun l => iblk3 V c 2 t (ix2 p l)) = fun l => V c main_v79 (ix2 r l) := funext fun l => rd3_2 V c t p l r hr
  have h3 : (fun l q => iblk3 V c 3 t (ix2 l q)) = fun l q => V c main_v82 (ix2 l q) := funext fun l => funext fun q => rd3_3 V c t l q
  have h4 : (fun l q => iblk3 V c 4 t (ix2 l q)) = fun l q => V c main_v85 (ix2 l q) := funext fun l => funext fun q => rd3_4 V c t l q
  have h5 : (fun l q => iblk3 V c 5 t (ix2 l q)) = fun l q => V c main_v88 (ix2 l q) := funext fun l => funext fun q => rd3_5 V c t l q
  have h6 : (fun q => iblk3 V c 6 t (ix2 (0 : Fin 1) q)) = fun q => V c main_v91 (ix2 (0 : Fin 1) q) := funext fun q => rd3_6 V c t 0 q
  have h7 : (fun l q => iblk3 V c 7 t (ix2 l q)) = fun l q => V c main_v96 (ix2 l q) := funext fun l => funext fun q => rd3_7 V c t l q
  have h8 : (fun q => iblk3 V c 8 t (ix2 (0 : Fin 1) q)) = fun q => V c main_v94 (ix2 (0 : Fin 1) q) := funext fun q => rd3_8 V c t 0 q
  rw [h0, h1, h2, h3, h4, h5, h6, h7, h8]

/-! ## The blocks tile the array -/

theorem mem_blk (t : Fin cfg3.N) (i : S393216x128.Idx) :
    i ∈ ((cfg3.win 9).blk t).view.set ↔ ∀ a : Fin 2, win3_9.index t a * S4096x128.size a ≤ (i a).val
      ∧ (i a).val < win3_9.index t a * S4096x128.size a + S4096x128.size a := by
  show i ∈ ((View.whole main_v97).slice (win3_9.rect t)).set ↔ _
  rw [View.set_slice_whole, Rect.mem_set_unit]
  exact Iff.rfl

theorem cover (i : S393216x128.Idx) :
    ∃ t : Fin cfg3.N, (cfg3.win 9).flush t = true ∧ i ∈ ((cfg3.win 9).blk t).view.set := by
  have hi0 : (i 0).val < 393216 := (i 0).isLt
  have hi1 : (i 1).val < 128 := (i 1).isLt
  obtain ⟨t, htv⟩ : ∃ t : Fin cfg3.N, t.val = (i 0).val / 4096 :=
    ⟨⟨(i 0).val / 4096, lt_of_lt_of_eq (by omega : (i 0).val / 4096 < 96) N_3.symm⟩, rfl⟩
  obtain ⟨e0, e1⟩ := idx3_9 t
  refine ⟨t, flush3_9 t, ?_⟩
  rw [mem_blk]
  intro a
  match a with
  | ⟨0, _⟩ =>
    show win3_9.index t (0 : Fin 2) * 4096 ≤ (i 0).val ∧ (i 0).val < win3_9.index t (0 : Fin 2) * 4096 + 4096
    omega
  | ⟨1, _⟩ =>
    show win3_9.index t (1 : Fin 2) * 128 ≤ (i 1).val ∧ (i 1).val < win3_9.index t (1 : Fin 2) * 128 + 128
    omega

/-- The result array after the region: the block applied to every row of the arrays as the region finds them. -/
theorem final (c : Dev nD) :
    (dat3 (F := Ideal) V c).arrAt 9 cfg3.N = Cert.Net.blkEdge (V c main_v47) (V c main_v72) (V c main_v79) (V c main_v82) (V c main_v85) (V c main_v88) (V c main_v91) (V c main_v96) (V c main_v94) :=
  (dat3 V c).arrAt_eq_of_cover 9 _ (fun t _ => flushed V c t) cover

end Cert.KernelIdeal.Region3

end
-- ==== Proof.Region4.lean ====
/-
  Region 4 of the kernel program, read as a value: the second round's node block.
  Point t of the grid stages rows t·4096 … t·4096 + 4095 of each row-tiled operand and the whole of each small
  operand, and writes back the same rows of the result; entry (p, j) of what it writes is the body's row-wise block on
  row p of its staged blocks, that is on row t·4096 + p of the arrays. The sixteen or ninety-six blocks tile the result
  array, so after the region the array is that block applied to every row.
-/
import proofs.«134789_j62947040690362_1_alg».proof.Proof.Gen.KernelIdeal.Frame
import proofs.«134789_j62947040690362_1_alg».proof.Proof.KernelBody
import proofs.«134789_j62947040690362_1_alg».proof.Proof.Blocks
import Idealize.ShloMosaic.Lib.Pipeline.Value

set_option maxRecDepth 16384

noncomputable section

namespace Cert.KernelIdeal.Region4

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The index maps, decided over the grid -/

theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = t.val ∧ win4_1.index t (1 : Fin 2) = 0 :=
  (by decide +kernel : ∀ t : Fin grid4.N, _)
theorem idx4_2 : ∀ t : Fin cfg4.N, win4_2.index t (0 : Fin 2) = 0 ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_5 : ∀ t : Fin cfg4.N, win4_5.index t (0 : Fin 2) = 0 ∧ win4_5.index t (1 : Fin 2) = 0 :=
  (by decide +kernel : ∀ t : Fin grid4.N, _)
theorem idx4_6 : ∀ t : Fin cfg4.N, win4_6.index t (0 : Fin 2) = 0 ∧ win4_6.index t (1 : Fin 2) = 0 :=
  (by decide +kernel : ∀ t : Fin grid4.N, _)
theorem idx4_7 : ∀ t : Fin cfg4.N, win4_7.index t (0 : Fin 2) = t.val ∧ win4_7.index t (1 : Fin 2) = 0 :=
  (by decide +kernel : ∀ t : Fin grid4.N, _)

/-! ## The blocks read off the arrays -/

/-- Window 0's block at point t holds rows t·4096 … t·4096 + 4095 of its array. -/
theorem rd4_0 (c : Dev nD) (t : Fin cfg4.N) (p : Fin 4096) (l : Fin 128) (r : Fin 65536) (hr : r.val = t.val * 4096 + p.val) :
    iblk4 V c 0 t (ix2 p l) = V c main_v65 (ix2 r l) := by
  show V c main_v65 (((cfg4.win 0).blk t).view.emb (ix2 p l)) = V c main_v65 (ix2 r l)
  have h : ((cfg4.win 0).blk t).view.emb (ix2 p l) = ix2 r l := by
    obtain ⟨e0, e1⟩ := idx4_0 t
    funext a; apply Fin.ext
    match a with
    | ⟨0, _⟩ => show win4_0.index t (0 : Fin 2) * 4096 + 1 * p.val = r.val; omega
    | ⟨1, _⟩ => show win4_0.index t (1 : Fin 2) * 128 + 1 * l.val = l.val; omega
  rw [h]

/-- Window 1's block at point t holds rows t·4096 … t·4096 + 4095 of its array. -/
theorem rd4_1 (c : Dev nD) (t : Fin cfg4.N) (p : Fin 4096) (l : Fin 128) (r : Fin 65536) (hr : r.val = t.val * 4096 + p.val) :
    iblk4 V c 1 t (ix2 p l) = V c main_v100 (ix2 r l) := by
  show V c main_v100 (((cfg4.win 1).blk t).view.emb (ix2 p l)) = V c main_v100 (ix2 r l)
  have h : ((cfg4.win 1).blk t).view.emb (ix2 p l) = ix2 r l := by
    obtain ⟨e0, e1⟩ := idx4_1 t
    funext a; apply Fin.ext
    match a with
    | ⟨0, _⟩ => show win4_1.index t (0 : Fin 2) * 4096 + 1 * p.val = r.val; omega
    | ⟨1, _⟩ => show win4_1.index t (1 : Fin 2) * 128 + 1 * l.val = l.val; omega
  rw [h]

/-- Window 2's block is its whole array at every point. -/
theorem rd4_2 (c : Dev nD) (t : Fin cfg4.N) (l : Fin 128) (q : Fin 128) :
    iblk4 V c 2 t (ix2 l q) = V c main_v103 (ix2 l q) := by
  show V c main_v103 (((cfg4.win 2).blk t).view.emb (ix2 l q)) = V c main_v103 (ix2 l q)
  have h : ((cfg4.win 2).blk t).view.emb (ix2 l q) = ix2 l q := by
    obtain ⟨e0, e1⟩ := idx4_2 t
    funext a; apply Fin.ext
    match a with
    | ⟨0, _⟩ => show win4_2.index t (0 : Fin 2) * 128 + 1 * l.val = l.val; omega
    | ⟨1, _⟩ => show win4_2.index t (1 : Fin 2) * 128 + 1 * q.val = q.val; omega
  rw [h]

/-- Window 3's block is its whole array at every point. -/
theorem rd4_3 (c : Dev nD) (t : Fin cfg4.N) (l : Fin 128) (q : Fin 128) :
    iblk4 V c 3 t (ix2 l q) = V c main_v106 (ix2 l q) := by
  show V c main_v106 (((cfg4.win 3).blk t).view.emb (ix2 l q)) = V c main_v106 (ix2 l q)
  have h : ((cfg4.win 3).blk t).view.emb (ix2 l q) = ix2 l q := by
    obtain ⟨e0, e1⟩ := idx4_3 t
    funext a; apply Fin.ext
    match a with
    | ⟨0, _⟩ => show win4_3.index t (0 : Fin 2) * 128 + 1 * l.val = l.val; omega
    | ⟨1, _⟩ => show win4_3.index t (1 : Fin 2) * 128 + 1 * q.val = q.val; omega
  rw [h]

/-- Window 4's block is its whole array at every point. -/
theorem rd4_4 (c : Dev nD) (t : Fin cfg4.N) (l : Fin 1) (q : Fin 128) :
    iblk4 V c 4 t (ix2 l q) = V c main_v109 (ix2 l q) := by
  show V c main_v109 (((cfg4.win 4).blk t).view.emb (ix2 l q)) = V c main_v109 (ix2 l q)
  have h : ((cfg4.win 4).blk t).view.emb (ix2 l q) = ix2 l q := by
    obtain ⟨e0, e1⟩ := idx4_4 t
    funext a; apply Fin.ext
    match a with
    | ⟨0, _⟩ => show win4_4.index t (0 : Fin 2) * 1 + 1 * l.val = l.val; omega
    | ⟨1, _⟩ => show win4_4.index t (1 : Fin 2) * 128 + 1 * q.val = q.val; omega
  rw [h]

/-- Window 5's block is its whole array at every point. -/
theorem rd4_5 (c : Dev nD) (t : Fin cfg4.N) (l : Fin 128) (q : Fin 128) :
    iblk4 V c 5 t (ix2 l q) = V c main_v114 (ix2 l q) := by
  show V c main_v114 (((cfg4.win 5).blk t).view.emb (ix2 l q)) = V c main_v114 (ix2 l q)
  have h : ((cfg4.win 5).blk t).view.emb (ix2 l q) = ix2 l q := by
    obtain ⟨e0, e1⟩ := idx4_5 t
    funext a; apply Fin.ext
    match a with
    | ⟨0, _⟩ => show win4_5.index t (0 : Fin 2) * 128 + 1 * l.val = l.val; omega
    | ⟨1, _⟩ => show win4_5.index t (1 : Fin 2) * 128 + 1 * q.val = q.val; omega
  rw [h]

/-- Window 6's block is its whole array at every point. -/
theorem rd4_6 (c : Dev nD) (t : Fin cfg4.N) (l : Fin 1) (q : Fin 128) :
    iblk4 V c 6 t (ix2 l q) = V c main_v112 (ix2 l q) := by
  show V c main_v112 (((cfg4.win 6).blk t).view.emb (ix2 l q)) = V c main_v112 (ix2 l q)
  have h : ((cfg4.win 6).blk t).view.emb (ix2 l q) = ix2 l q := by
    obtain ⟨e0, e1⟩ := idx4_6 t
    funext a; apply Fin.ext
    match a with
    | ⟨0, _⟩ => show win4_6.index t (0 : Fin 2) * 1 + 1 * l.val = l.val; omega
    | ⟨1, _⟩ => show win4_6.index t (1 : Fin 2) * 128 + 1 * q.val = q.val; omega
  rw [h]

/-! ## What a point writes back -/

theorem flushed (c : Dev nD) (t : Fin cfg4.N) :
    (dat4 (F := Ideal) V c).flushed 7 t
      = ((cfg4.win 7).blk t).view.read (Elt Ideal) (Cert.Net.blkNode (V c main_v65) (V c main_v100) (V c main_v103) (V c main_v106) (V c main_v109) (V c main_v114) (V c main_v112)) := by
  show (cfg4.win 7).cut (grid4.coords t) ((dat4 V c).after 7 t) = _
  rw [after4_7]
  unfold out4_7
  rw [View.canon_unit_zero hz]
  simp only [View.ld_unit_zero (S := S4096x128) hz, View.ld_unit_zero (S := S128x128) hz, View.ld_unit_zero (S := S1x128) hz]
  funext y
  obtain ⟨p, j, rfl⟩ : ∃ (p : Fin 4096) (j : Fin 128), y = ix2 p j := ⟨y 0, y 1, eq_ix2 y⟩
  have ht : t.val < 16 := lt_of_lt_of_eq t.isLt N_4
  have hp : p.val < 4096 := p.isLt
  obtain ⟨r, hr⟩ : ∃ r : Fin 65536, r.val = t.val * 4096 + p.val := ⟨⟨t.val * 4096 + p.val, by omega⟩, rfl⟩
  have hemb : ((cfg4.win 7).blk t).view.emb (ix2 p j) = ix2 r j := by
    obtain ⟨e0, e1⟩ := idx4_7 t
    funext a; apply Fin.ext
    match a with
    | ⟨0, _⟩ => show win4_7.index t (0 : Fin 2) * 4096 + 1 * p.val = r.val; omega
    | ⟨1, _⟩ => show win4_7.index t (1 : Fin 2) * 128 + 1 * j.val = j.val; omega
  show _ = Cert.Net.blkNode (V c main_v65) (V c main_v100) (V c main_v103) (V c main_v106) (V c main_v109) (V c main_v114) (V c main_v112) (((cfg4.win 7).blk t).view.emb (ix2 p j))
  rw [hemb]
  refine (Body.k4_at (iblk4 V c 0 t) (iblk4 V c 1 t) (iblk4 V c 2 t) (iblk4 V c 3 t) (iblk4 V c 4 t) (iblk4 V c 5 t) (iblk4 V c 6 t) p j).trans ?_
  unfold Cert.Net.blkNode
  have h0 : (fun l => iblk4 V c 0 t (ix2 p l)) = fun l => V c main_v65 (ix2 r l) := funext fun l => rd4_0 V c t p l r hr
  have h1 : (fun l => iblk4 V c 1 t (ix2 p l)) = fun l => V c main_v100 (ix2 r l) := funext fun l => rd4_1 V c t p l r hr
  have h2 : (fun l q => iblk4 V c 2 t (ix2 l q)) = fun l q => V c main_v103 (ix2 l q) := funext fun l => funext fun q => rd4_2 V c t l q
  have h3 : (fun l q => iblk4 V c 3 t (ix2 l q)) = fun l q => V c main_v106 (ix2 l q) := funext fun l => funext fun q => rd4_3 V c t l q
  have h4 : (fun q => iblk4 V c 4 t (ix2 (0 : Fin 1) q)) = fun q => V c main_v109 (ix2 (0 : Fin 1) q) := funext fun q => rd4_4 V c t 0 q
  have h5 : (fun l q => iblk4 V c 5 t (ix2 l q)) = fun l q => V c main_v114 (ix2 l q) := funext fun l => funext fun q => rd4_5 V c t l q
  have h6 : (fun q => iblk4 V c 6 t (ix2 (0 : Fin 1) q)) = fun q => V c main_v112 (ix2 (0 : Fin 1) q) := funext fun q => rd4_6 V c t 0 q
  rw [h0, h1, h2, h3, h4, h5, h6]

/-! ## The blocks tile the array -/

theorem mem_blk (t : Fin cfg4.N) (i : S65536x128.Idx) :
    i ∈ ((cfg4.win 7).blk t).view.set ↔ ∀ a : Fin 2, win4_7.index t a * S4096x128.size a ≤ (i a).val
      ∧ (i a).val < win4_7.index t a * S4096x128.size a + S4096x128.size a := by
  show i ∈ ((View.whole main_v115).slice (win4_7.rect t)).set ↔ _
  rw [View.set_slice_whole, Rect.mem_set_unit]
  exact Iff.rfl

theorem cover (i : S65536x128.Idx) :
    ∃ t : Fin cfg4.N, (cfg4.win 7).flush t = true ∧ i ∈ ((cfg4.win 7).blk t).view.set := by
  have hi0 : (i 0).val < 65536 := (i 0).isLt
  have hi1 : (i 1).val < 128 := (i 1).isLt
  obtain ⟨t, htv⟩ : ∃ t : Fin cfg4.N, t.val = (i 0).val / 4096 :=
    ⟨⟨(i 0).val / 4096, lt_of_lt_of_eq (by omega : (i 0).val / 4096 < 16) N_4.symm⟩, rfl⟩
  obtain ⟨e0, e1⟩ := idx4_7 t
  refine ⟨t, flush4_7 t, ?_⟩
  rw [mem_blk]
  intro a
  match a with
  | ⟨0, _⟩ =>
    show win4_7.index t (0 : Fin 2) * 4096 ≤ (i 0).val ∧ (i 0).val < win4_7.index t (0 : Fin 2) * 4096 + 4096
    omega
  | ⟨1, _⟩ =>
    show win4_7.index t (1 : Fin 2) * 128 ≤ (i 1).val ∧ (i 1).val < win4_7.index t (1 : Fin 2) * 128 + 128
    omega

/-- The result array after the region: the block applied to every row of the arrays as the region finds them. -/
theorem final (c : Dev nD) :
    (dat4 (F := Ideal) V c).arrAt 7 cfg4.N = Cert.Net.blkNode (V c main_v65) (V c main_v100) (V c main_v103) (V c main_v106) (V c main_v109) (V c main_v114) (V c main_v112) :=
  (dat4 V c).arrAt_eq_of_cover 7 _ (fun t _ => flushed V c t) cover

end Cert.KernelIdeal.Region4

end
-- ==== Proof.KernelValue.lean ====
/-
  The value of the kernel program: its result buffer after the run is the network of Net on the launch contents of
  the argument arrays.

  The run's contents at each segment boundary are a fold: a host stretch rewrites the buffers its operations write, a
  region rewrites its result array. Going through the ten segments in order: the first stretch gathers the coarse rows
  and cuts the unpooling weight; region 0 then leaves the unpooling block of those in its result (Region0, then the
  cut weights put back together by Blocks); the second stretch gathers that result at the edges' senders and receivers
  and cuts the first edge weight; region 1 leaves the edge block; the third stretch sums it into the receivers and cuts
  the first node weight; region 2 leaves the node block; and the same once more for the second round. Between two
  uses a buffer is untouched: no host operation writes an argument or an earlier result again, and a region writes
  only its own result array.
-/
import proofs.«134789_j62947040690362_1_alg».proof.Proof.Region0
import proofs.«134789_j62947040690362_1_alg».proof.Proof.Region1
import proofs.«134789_j62947040690362_1_alg».proof.Proof.Region2
import proofs.«134789_j62947040690362_1_alg».proof.Proof.Region3
import proofs.«134789_j62947040690362_1_alg».proof.Proof.Region4
import Idealize.ShloMosaic.Lib.StableHlo.Run

set_option maxRecDepth 16384

noncomputable section

namespace Cert.KernelIdeal.KValue

open Idealize.ShloMosaic Idealize.ShloMosaic.TcCoe Idealize.SL.Sem Cert.KernelIdeal Cert.KernelIdeal.Gen
open Idealize.ShloMosaic.StableHlo Cert.Net

/-! ## The host operations' pieces, over the argument arrays -/

/-- Cluster indices, negative ones wrapped by the number of coarse nodes, as a column. -/
abbrev colC (a17 : IVec S65536 32) : IVec S65536x1 32 :=
  broadcastInDim S65536x1 ![0] bcast_S65536_S65536x1_0
    (select (cmpi .slt a17 (broadcastInDim S65536 ![] bcast_S_S65536 (constantI S_ 32 0#32)))
      (addi a17 (broadcastInDim S65536 ![] bcast_S_S65536 (constantI S_ 32 16384#32))) a17)

/-- The senders' row of the edge index. -/
abbrev sRow (a16 : IVec S2x393216 32) : IVec S393216 32 :=
  shapeCast S393216 (extractStridedSlice S1x393216 ![0, 0] a16 slices_S2x393216_S1x393216_0_0) shapeCasts_S1x393216_S393216
/-- The receivers' row of the edge index. -/
abbrev rRow (a16 : IVec S2x393216 32) : IVec S393216 32 :=
  shapeCast S393216 (extractStridedSlice S1x393216 ![1, 0] a16 slices_S2x393216_S1x393216_1_0) shapeCasts_S1x393216_S393216
/-- Node indices, negative ones wrapped by the number of fine nodes, as a column. -/
abbrev colOf (x : IVec S393216 32) : IVec S393216x1 32 :=
  broadcastInDim S393216x1 ![0] bcast_S393216_S393216x1_0
    (select (cmpi .slt x (broadcastInDim S393216 ![] bcast_S_S393216 (constantI S_ 32 0#32)))
      (addi x (broadcastInDim S393216 ![] bcast_S_S393216 (constantI S_ 32 65536#32))) x)

/-- Coarse rows gathered to the fine nodes. -/
abbrev gC (a17 : IVec S65536 32) (x : Mat 16384 128) : Mat 65536 128 :=
  Host.gather gather_S16384x128_S65536x1_S65536x128_1_0_n_n_0_1_1128 x (colC a17)
/-- Node rows gathered to the edges' senders. -/
abbrev gS (a16 : IVec S2x393216 32) (x : Mat 65536 128) : Mat 393216 128 :=
  Host.gather gather_S65536x128_S393216x1_S393216x128_1_0_n_n_0_1_1128 x (colOf (sRow a16))
/-- Node rows gathered to the edges' receivers. -/
abbrev gR (a16 : IVec S2x393216 32) (x : Mat 65536 128) : Mat 393216 128 :=
  Host.gather gather_S65536x128_S393216x1_S393216x128_1_0_n_n_0_1_1128 x (colOf (rRow a16))
/-- Edge rows summed into their receivers, from the zero array. -/
abbrev agg (a16 : IVec S2x393216 32) (u : Mat 393216 128) : Mat 65536 128 :=
  Host.scatterAdd scatter_S65536x128_S393216x1_S393216x128_1_0_0_1
    (broadcastInDim S65536x128 ![] bcast_S_S65536x128 (constant (F := Ideal) S_ .f32 0x00000000#32))
    (broadcastInDim S393216x1 ![0] bcast_S393216_S393216x1_0 (rRow a16)) u

/-- Layer k of a stacked [2,384,128] weight. -/
abbrev w384a (a : FVec Ideal S2x384x128 .f32) : Mat 384 128 :=
  shapeCast S384x128 (extractStridedSlice S1x384x128 ![0, 0, 0] a slices_S2x384x128_S1x384x128_0_0_0) shapeCasts_S1x384x128_S384x128
abbrev w384b (a : FVec Ideal S2x384x128 .f32) : Mat 384 128 :=
  shapeCast S384x128 (extractStridedSlice S1x384x128 ![1, 0, 0] a slices_S2x384x128_S1x384x128_1_0_0) shapeCasts_S1x384x128_S384x128
abbrev w256a (a : FVec Ideal S2x256x128 .f32) : Mat 256 128 :=
  shapeCast S256x128 (extractStridedSlice S1x256x128 ![0, 0, 0] a slices_S2x256x128_S1x256x128_0_0_0) shapeCasts_S1x256x128_S256x128
abbrev w256b (a : FVec Ideal S2x256x128 .f32) : Mat 256 128 :=
  shapeCast S256x128 (extractStridedSlice S1x256x128 ![1, 0, 0] a slices_S2x256x128_S1x256x128_1_0_0) shapeCasts_S1x256x128_S256x128
abbrev w128a (a : FVec Ideal S2x128x128 .f32) : Mat 128 128 :=
  shapeCast S128x128 (extractStridedSlice S1x128x128 ![0, 0, 0] a slices_S2x128x128_S1x128x128_0_0_0) shapeCasts_S1x128x128_S128x128
abbrev w128b (a : FVec Ideal S2x128x128 .f32) : Mat 128 128 :=
  shapeCast S128x128 (extractStridedSlice S1x128x128 ![1, 0, 0] a slices_S2x128x128_S1x128x128_1_0_0) shapeCasts_S1x128x128_S128x128
abbrev bva (a : FVec Ideal S2x128 .f32) : Vc 128 :=
  shapeCast S128 (extractStridedSlice S1x128 ![0, 0] a slices_S2x128_S1x128_0_0) shapeCasts_S1x128_S128
abbrev bvb (a : FVec Ideal S2x128 .f32) : Vc 128 :=
  shapeCast S128 (extractStridedSlice S1x128 ![1, 0] a slices_S2x128_S1x128_1_0) shapeCasts_S1x128_S128

/-! ## The five results, over the argument arrays -/

section Results
variable (a0 : Mat 16384 128) (a1 : Mat 65536 128) (a2 : Mat 393216 128) (a3 : Mat 65536 1) (a4 : Mat 129 128) (a5 : Vc 128)
  (a6 : Mat 128 128) (a7 : Vc 128) (a8 : FVec Ideal S2x384x128 .f32) (a9 : FVec Ideal S2x128 .f32)
  (a10 : FVec Ideal S2x128x128 .f32) (a11 : FVec Ideal S2x128 .f32) (a12 : FVec Ideal S2x256x128 .f32)
  (a13 : FVec Ideal S2x128 .f32) (a14 : FVec Ideal S2x128x128 .f32) (a15 : FVec Ideal S2x128 .f32)
  (a16 : IVec S2x393216 32) (a17 : IVec S65536 32)

/-- The node array after unpooling. -/
def x0 : Mat 65536 128 := unpoolL (gC a17 a0) a3 a1 a4 a5 a6 a7
/-- The edge array after the first round's edge block. -/
def e1 : Mat 393216 128 :=
  edgeL a2 (gS a16 (x0 a0 a1 a3 a4 a5 a6 a7 a17)) (gR a16 (x0 a0 a1 a3 a4 a5 a6 a7 a17)) (w384a a8) (bva a9) (w128a a10) (bva a11)
/-- The node array after the first round. -/
def x1 : Mat 65536 128 :=
  nodeL (x0 a0 a1 a3 a4 a5 a6 a7 a17) (agg a16 (e1 a0 a1 a2 a3 a4 a5 a6 a7 a8 a9 a10 a11 a16 a17)) (w256a a12) (bva a13) (w128a a14) (bva a15)
/-- The edge array after the second round's edge block. -/
def e2 : Mat 393216 128 :=
  edgeL (e1 a0 a1 a2 a3 a4 a5 a6 a7 a8 a9 a10 a11 a16 a17)
    (gS a16 (x1 a0 a1 a2 a3 a4 a5 a6 a7 a8 a9 a10 a11 a12 a13 a14 a15 a16 a17))
    (gR a16 (x1 a0 a1 a2 a3 a4 a5 a6 a7 a8 a9 a10 a11 a12 a13 a14 a15 a16 a17)) (w384b a8) (bvb a9) (w128b a10) (bvb a11)
/-- The node array after the second round: the result. -/
def x2 : Mat 65536 128 :=
  nodeL (x1 a0 a1 a2 a3 a4 a5 a6 a7 a8 a9 a10 a11 a12 a13 a14 a15 a16 a17)
    (agg a16 (e2 a0 a1 a2 a3 a4 a5 a6 a7 a8 a9 a10 a11 a12 a13 a14 a15 a16 a17)) (w256b a12) (bvb a13) (w128b a14) (bvb a15)

/-- The result is the network of Net with these gathers, this sum and these weight layers. -/
theorem x2_eq_net :
    x2 a0 a1 a2 a3 a4 a5 a6 a7 a8 a9 a10 a11 a12 a13 a14 a15 a16 a17
      = net (gC a17) (gS a16) (gR a16) (agg a16) a0 a1 a2 a3 a4 a5 a6 a7 (w384a a8) (bva a9) (w128a a10) (bva a11)
          (w256a a12) (bva a13) (w128a a14) (bva a15) (w384b a8) (bvb a9) (w128b a10) (bvb a11)
          (w256b a12) (bvb a13) (w128b a14) (bvb a15) := rfl

end Results

/-! ## The run's boundary contents -/

-- the boundary contents are compared by name only: their folds are never opened here
attribute [local irreducible] W2 W4 W6 W8 W10

variable (m : (ℓ : Loc nD τ sig) → Buf (Elt Ideal) ℓ) (ρ : Dev nD → PrngReg) (c : Dev nD)

/-- An argument array as launched. -/
abbrev arg (b : Ref sig .tc) := W0 m ρ c (Proc.devRef .tc b)

/-! ### Untouched buffers: arguments through the segments -/

theorem k2_arg8 : W2 m ρ c (Proc.devRef .tc main_arg8) = W0 m ρ c (Proc.devRef .tc main_arg8) :=
  (W2_of_ne m ρ c main_arg8 (by decide)).trans
    (show StableHlo.after hostOps0 (W0 m ρ c) (Proc.devRef .tc main_arg8) = W0 m ρ c (Proc.devRef .tc main_arg8) by after_results_simp)
theorem k2_arg9 : W2 m ρ c (Proc.devRef .tc main_arg9) = W0 m ρ c (Proc.devRef .tc main_arg9) :=
  (W2_of_ne m ρ c main_arg9 (by decide)).trans
    (show StableHlo.after hostOps0 (W0 m ρ c) (Proc.devRef .tc main_arg9) = W0 m ρ c (Proc.devRef .tc main_arg9) by after_results_simp)
theorem k2_arg10 : W2 m ρ c (Proc.devRef .tc main_arg10) = W0 m ρ c (Proc.devRef .tc main_arg10) :=
  (W2_of_ne m ρ c main_arg10 (by decide)).trans
    (show StableHlo.after hostOps0 (W0 m ρ c) (Proc.devRef .tc main_arg10) = W0 m ρ c (Proc.devRef .tc main_arg10) by after_results_simp)
theorem k2_arg11 : W2 m ρ c (Proc.devRef .tc main_arg11) = W0 m ρ c (Proc.devRef .tc main_arg11) :=
  (W2_of_ne m ρ c main_arg11 (by decide)).trans
    (show StableHlo.after hostOps0 (W0 m ρ c) (Proc.devRef .tc main_arg11) = W0 m ρ c (Proc.devRef .tc main_arg11) by after_results_simp)
theorem k2_arg12 : W2 m ρ c (Proc.devRef .tc main_arg12) = W0 m ρ c (Proc.devRef .tc main_arg12) :=
  (W2_of_ne m ρ c main_arg12 (by decide)).trans
    (show StableHlo.after hostOps0 (W0 m ρ c) (Proc.devRef .tc main_arg12) = W0 m ρ c (Proc.devRef .tc main_arg12) by after_results_simp)
theorem k2_arg13 : W2 m ρ c (Proc.devRef .tc main_arg13) = W0 m ρ c (Proc.devRef .tc main_arg13) :=
  (W2_of_ne m ρ c main_arg13 (by decide)).trans
    (show StableHlo.after hostOps0 (W0 m ρ c) (Proc.devRef .tc main_arg13) = W0 m ρ c (Proc.devRef .tc main_arg13) by after_results_simp)
theorem k2_arg14 : W2 m ρ c (Proc.devRef .tc main_arg14) = W0 m ρ c (Proc.devRef .tc main_arg14) :=
  (W2_of_ne m ρ c main_arg14 (by decide)).trans
    (show StableHlo.after hostOps0 (W0 m ρ c) (Proc.devRef .tc main_arg14) = W0 m ρ c (Proc.devRef .tc main_arg14) by after_results_simp)
theorem k2_arg15 : W2 m ρ c (Proc.devRef .tc main_arg15) = W0 m ρ c (Proc.devRef .tc main_arg15) :=
  (W2_of_ne m ρ c main_arg15 (by decide)).trans
    (show StableHlo.after hostOps0 (W0 m ρ c) (Proc.devRef .tc main_arg15) = W0 m ρ c (Proc.devRef .tc main_arg15) by after_results_simp)
theorem k2_arg16 : W2 m ρ c (Proc.devRef .tc main_arg16) = W0 m ρ c (Proc.devRef .tc main_arg16) :=
  (W2_of_ne m ρ c main_arg16 (by decide)).trans
    (show StableHlo.after hostOps0 (W0 m ρ c) (Proc.devRef .tc main_arg16) = W0 m ρ c (Proc.devRef .tc main_arg16) by after_results_simp)
theorem k2_arg2 : W2 m ρ c (Proc.devRef .tc main_arg2) = W0 m ρ c (Proc.devRef .tc main_arg2) :=
  (W2_of_ne m ρ c main_arg2 (by decide)).trans
    (show StableHlo.after hostOps0 (W0 m ρ c) (Proc.devRef .tc main_arg2) = W0 m ρ c (Proc.devRef .tc main_arg2) by after_results_simp)

theorem k4_arg8 : W4 m ρ c (Proc.devRef .tc main_arg8) = W0 m ρ c (Proc.devRef .tc main_arg8) :=
  (W4_of_ne m ρ c main_arg8 (by decide)).trans
    ((show StableHlo.after hostOps1 (W2 m ρ c) (Proc.devRef .tc main_arg8) = W2 m ρ c (Proc.devRef .tc main_arg8) by after_results_simp).trans (k2_arg8 m ρ c))
theorem k4_arg9 : W4 m ρ c (Proc.devRef .tc main_arg9) = W0 m ρ c (Proc.devRef .tc main_arg9) :=
  (W4_of_ne m ρ c main_arg9 (by decide)).trans
    ((show StableHlo.after hostOps1 (W2 m ρ c) (Proc.devRef .tc main_arg9) = W2 m ρ c (Proc.devRef .tc main_arg9) by after_results_simp).trans (k2_arg9 m ρ c))
theorem k4_arg10 : W4 m ρ c (Proc.devRef .tc main_arg10) = W0 m ρ c (Proc.devRef .tc main_arg10) :=
  (W4_of_ne m ρ c main_arg10 (by decide)).trans
    ((show StableHlo.after hostOps1 (W2 m ρ c) (Proc.devRef .tc main_arg10) = W2 m ρ c (Proc.devRef .tc main_arg10) by after_results_simp).trans (k2_arg10 m ρ c))
theorem k4_arg11 : W4 m ρ c (Proc.devRef .tc main_arg11) = W0 m ρ c (Proc.devRef .tc main_arg11) :=
  (W4_of_ne m ρ c main_arg11 (by decide)).trans
    ((show StableHlo.after hostOps1 (W2 m ρ c) (Proc.devRef .tc main_arg11) = W2 m ρ c (Proc.devRef .tc main_arg11) by after_results_simp).trans (k2_arg11 m ρ c))
theorem k4_arg12 : W4 m ρ c (Proc.devRef .tc main_arg12) = W0 m ρ c (Proc.devRef .tc main_arg12) :=
  (W4_of_ne m ρ c main_arg12 (by decide)).trans
    ((show StableHlo.after hostOps1 (W2 m ρ c) (Proc.devRef .tc main_arg12) = W2 m ρ c (Proc.devRef .tc main_arg12) by after_results_simp).trans (k2_arg12 m ρ c))
theorem k4_arg13 : W4 m ρ c (Proc.devRef .tc main_arg13) = W0 m ρ c (Proc.devRef .tc main_arg13) :=
  (W4_of_ne m ρ c main_arg13 (by decide)).trans
    ((show StableHlo.after hostOps1 (W2 m ρ c) (Proc.devRef .tc main_arg13) = W2 m ρ c (Proc.devRef .tc main_arg13) by after_results_simp).trans (k2_arg13 m ρ c))
theorem k4_arg14 : W4 m ρ c (Proc.devRef .tc main_arg14) = W0 m ρ c (Proc.devRef .tc main_arg14) :=
  (W4_of_ne m ρ c main_arg14 (by decide)).trans
    ((show StableHlo.after hostOps1 (W2 m ρ c) (Proc.devRef .tc main_arg14) = W2 m ρ c (Proc.devRef .tc main_arg14) by after_results_simp).trans (k2_arg14 m ρ c))
theorem k4_arg15 : W4 m ρ c (Proc.devRef .tc main_arg15) = W0 m ρ c (Proc.devRef .tc main_arg15) :=
  (W4_of_ne m ρ c main_arg15 (by decide)).trans
    ((show StableHlo.after hostOps1 (W2 m ρ c) (Proc.devRef .tc main_arg15) = W2 m ρ c (Proc.devRef .tc main_arg15) by after_results_simp).trans (k2_arg15 m ρ c))

theorem k6_arg8 : W6 m ρ c (Proc.devRef .tc main_arg8) = W0 m ρ c (Proc.devRef .tc main_arg8) :=
  (W6_of_ne m ρ c main_arg8 (by decide)).trans
    ((show StableHlo.after hostOps2 (W4 m ρ c) (Proc.devRef .tc main_arg8) = W4 m ρ c (Proc.devRef .tc main_arg8) by after_results_simp).trans (k4_arg8 m ρ c))
theorem k6_arg9 : W6 m ρ c (Proc.devRef .tc main_arg9) = W0 m ρ c (Proc.devRef .tc main_arg9) :=
  (W6_of_ne m ρ c main_arg9 (by decide)).trans
    ((show StableHlo.after hostOps2 (W4 m ρ c) (Proc.devRef .tc main_arg9) = W4 m ρ c (Proc.devRef .tc main_arg9) by after_results_simp).trans (k4_arg9 m ρ c))
theorem k6_arg10 : W6 m ρ c (Proc.devRef .tc main_arg10) = W0 m ρ c (Proc.devRef .tc main_arg10) :=
  (W6_of_ne m ρ c main_arg10 (by decide)).trans
    ((show StableHlo.after hostOps2 (W4 m ρ c) (Proc.devRef .tc main_arg10) = W4 m ρ c (Proc.devRef .tc main_arg10) by after_results_simp).trans (k4_arg10 m ρ c))
theorem k6_arg11 : W6 m ρ c (Proc.devRef .tc main_arg11) = W0 m ρ c (Proc.devRef .tc main_arg11) :=
  (W6_of_ne m ρ c main_arg11 (by decide)).trans
    ((show StableHlo.after hostOps2 (W4 m ρ c) (Proc.devRef .tc main_arg11) = W4 m ρ c (Proc.devRef .tc main_arg11) by after_results_simp).trans (k4_arg11 m ρ c))
theorem k6_arg12 : W6 m ρ c (Proc.devRef .tc main_arg12) = W0 m ρ c (Proc.devRef .tc main_arg12) :=
  (W6_of_ne m ρ c main_arg12 (by decide)).trans
    ((show StableHlo.after hostOps2 (W4 m ρ c) (Proc.devRef .tc main_arg12) = W4 m ρ c (Proc.devRef .tc main_arg12) by after_results_simp).trans (k4_arg12 m ρ c))
theorem k6_arg13 : W6 m ρ c (Proc.devRef .tc main_arg13) = W0 m ρ c (Proc.devRef .tc main_arg13) :=
  (W6_of_ne m ρ c main_arg13 (by decide)).trans
    ((show StableHlo.after hostOps2 (W4 m ρ c) (Proc.devRef .tc main_arg13) = W4 m ρ c (Proc.devRef .tc main_arg13) by after_results_simp).trans (k4_arg13 m ρ c))
theorem k6_arg14 : W6 m ρ c (Proc.devRef .tc main_arg14) = W0 m ρ c (Proc.devRef .tc main_arg14) :=
  (W6_of_ne m ρ c main_arg14 (by decide)).trans
    ((show StableHlo.after hostOps2 (W4 m ρ c) (Proc.devRef .tc main_arg14) = W4 m ρ c (Proc.devRef .tc main_arg14) by after_results_simp).trans (k4_arg14 m ρ c))
theorem k6_arg15 : W6 m ρ c (Proc.devRef .tc main_arg15) = W0 m ρ c (Proc.devRef .tc main_arg15) :=
  (W6_of_ne m ρ c main_arg15 (by decide)).trans
    ((show StableHlo.after hostOps2 (W4 m ρ c) (Proc.devRef .tc main_arg15) = W4 m ρ c (Proc.devRef .tc main_arg15) by after_results_simp).trans (k4_arg15 m ρ c))

theorem k8_arg12 : W8 m ρ c (Proc.devRef .tc main_arg12) = W0 m ρ c (Proc.devRef .tc main_arg12) :=
  (W8_of_ne m ρ c main_arg12 (by decide)).trans
    ((show StableHlo.after hostOps3 (W6 m ρ c) (Proc.devRef .tc main_arg12) = W6 m ρ c (Proc.devRef .tc main_arg12) by after_results_simp).trans (k6_arg12 m ρ c))
theorem k8_arg13 : W8 m ρ c (Proc.devRef .tc main_arg13) = W0 m ρ c (Proc.devRef .tc main_arg13) :=
  (W8_of_ne m ρ c main_arg13 (by decide)).trans
    ((show StableHlo.after hostOps3 (W6 m ρ c) (Proc.devRef .tc main_arg13) = W6 m ρ c (Proc.devRef .tc main_arg13) by after_results_simp).trans (k6_arg13 m ρ c))
theorem k8_arg14 : W8 m ρ c (Proc.devRef .tc main_arg14) = W0 m ρ c (Proc.devRef .tc main_arg14) :=
  (W8_of_ne m ρ c main_arg14 (by decide)).trans
    ((show StableHlo.after hostOps3 (W6 m ρ c) (Proc.devRef .tc main_arg14) = W6 m ρ c (Proc.devRef .tc main_arg14) by after_results_simp).trans (k6_arg14 m ρ c))
theorem k8_arg15 : W8 m ρ c (Proc.devRef .tc main_arg15) = W0 m ρ c (Proc.devRef .tc main_arg15) :=
  (W8_of_ne m ρ c main_arg15 (by decide)).trans
    ((show StableHlo.after hostOps3 (W6 m ρ c) (Proc.devRef .tc main_arg15) = W6 m ρ c (Proc.devRef .tc main_arg15) by after_results_simp).trans (k6_arg15 m ρ c))

/-! ### The index rows, written once by the second stretch -/

theorem k4_v13 : W4 m ρ c (Proc.devRef .tc main_v13) = sRow (W0 m ρ c (Proc.devRef .tc main_arg16)) :=
  (W4_of_ne m ρ c main_v13 (by decide)).trans
    (show StableHlo.after hostOps1 (W2 m ρ c) (Proc.devRef .tc main_v13) = _ by
      after_results_simp
      rw [k2_arg16 m ρ c]
      rfl)
theorem k4_v15 : W4 m ρ c (Proc.devRef .tc main_v15) = rRow (W0 m ρ c (Proc.devRef .tc main_arg16)) :=
  (W4_of_ne m ρ c main_v15 (by decide)).trans
    (show StableHlo.after hostOps1 (W2 m ρ c) (Proc.devRef .tc main_v15) = _ by
      after_results_simp
      rw [k2_arg16 m ρ c]
      rfl)
theorem k6_v13 : W6 m ρ c (Proc.devRef .tc main_v13) = sRow (W0 m ρ c (Proc.devRef .tc main_arg16)) :=
  (W6_of_ne m ρ c main_v13 (by decide)).trans
    ((show StableHlo.after hostOps2 (W4 m ρ c) (Proc.devRef .tc main_v13) = W4 m ρ c (Proc.devRef .tc main_v13) by after_results_simp).trans (k4_v13 m ρ c))
theorem k6_v15 : W6 m ρ c (Proc.devRef .tc main_v15) = rRow (W0 m ρ c (Proc.devRef .tc main_arg16)) :=
  (W6_of_ne m ρ c main_v15 (by decide)).trans
    ((show StableHlo.after hostOps2 (W4 m ρ c) (Proc.devRef .tc main_v15) = W4 m ρ c (Proc.devRef .tc main_v15) by after_results_simp).trans (k4_v15 m ρ c))
theorem k8_v15 : W8 m ρ c (Proc.devRef .tc main_v15) = rRow (W0 m ρ c (Proc.devRef .tc main_arg16)) :=
  (W8_of_ne m ρ c main_v15 (by decide)).trans
    ((show StableHlo.after hostOps3 (W6 m ρ c) (Proc.devRef .tc main_v15) = W6 m ρ c (Proc.devRef .tc main_v15) by after_results_simp).trans (k6_v15 m ρ c))

/-! ### The five results at their boundaries -/

/-- The launch contents of the eighteen arguments the network reads, in order. -/
local notation "X0" => x0 (arg m ρ c main_arg0) (arg m ρ c main_arg1) (arg m ρ c main_arg3) (arg m ρ c main_arg4) (arg m ρ c main_arg5) (arg m ρ c main_arg6) (arg m ρ c main_arg7) (arg m ρ c main_arg17)
local notation "E1" => e1 (arg m ρ c main_arg0) (arg m ρ c main_arg1) (arg m ρ c main_arg2) (arg m ρ c main_arg3) (arg m ρ c main_arg4) (arg m ρ c main_arg5) (arg m ρ c main_arg6) (arg m ρ c main_arg7) (arg m ρ c main_arg8) (arg m ρ c main_arg9) (arg m ρ c main_arg10) (arg m ρ c main_arg11) (arg m ρ c main_arg16) (arg m ρ c main_arg17)
local notation "X1" => x1 (arg m ρ c main_arg0) (arg m ρ c main_arg1) (arg m ρ c main_arg2) (arg m ρ c main_arg3) (arg m ρ c main_arg4) (arg m ρ c main_arg5) (arg m ρ c main_arg6) (arg m ρ c main_arg7) (arg m ρ c main_arg8) (arg m ρ c main_arg9) (arg m ρ c main_arg10) (arg m ρ c main_arg11) (arg m ρ c main_arg12) (arg m ρ c main_arg13) (arg m ρ c main_arg14) (arg m ρ c main_arg15) (arg m ρ c main_arg16) (arg m ρ c main_arg17)
local notation "E2" => e2 (arg m ρ c main_arg0) (arg m ρ c main_arg1) (arg m ρ c main_arg2) (arg m ρ c main_arg3) (arg m ρ c main_arg4) (arg m ρ c main_arg5) (arg m ρ c main_arg6) (arg m ρ c main_arg7) (arg m ρ c main_arg8) (arg m ρ c main_arg9) (arg m ρ c main_arg10) (arg m ρ c main_arg11) (arg m ρ c main_arg12) (arg m ρ c main_arg13) (arg m ρ c main_arg14) (arg m ρ c main_arg15) (arg m ρ c main_arg16) (arg m ρ c main_arg17)
local notation "X2" => x2 (arg m ρ c main_arg0) (arg m ρ c main_arg1) (arg m ρ c main_arg2) (arg m ρ c main_arg3) (arg m ρ c main_arg4) (arg m ρ c main_arg5) (arg m ρ c main_arg6) (arg m ρ c main_arg7) (arg m ρ c main_arg8) (arg m ρ c main_arg9) (arg m ρ c main_arg10) (arg m ρ c main_arg11) (arg m ρ c main_arg12) (arg m ρ c main_arg13) (arg m ρ c main_arg14) (arg m ρ c main_arg15) (arg m ρ c main_arg16) (arg m ρ c main_arg17)

set_option maxHeartbeats 2000000 in
/-- After region 0 its result array holds the unpooled node array. -/
theorem at_v11 : W2 m ρ c (Proc.devRef .tc main_v11) = X0 := by
  refine (W2_arr m ρ c 8).trans ((Region0.final (V1 m ρ) c).trans ?_)
  dsimp only [V1, W1]
  after_results_simp
  exact blkUnpool_eq _ _ _ _ _ _ _ _ _ _

theorem k4_v11 : W4 m ρ c (Proc.devRef .tc main_v11) = X0 :=
  (W4_of_ne m ρ c main_v11 (by decide)).trans
    ((show StableHlo.after hostOps1 (W2 m ρ c) (Proc.devRef .tc main_v11) = W2 m ρ c (Proc.devRef .tc main_v11) by after_results_simp).trans (at_v11 m ρ c))

set_option maxHeartbeats 2000000 in
/-- After region 1 its result array holds the first round's edge array. -/
theorem at_v47 : W4 m ρ c (Proc.devRef .tc main_v47) = E1 := by
  refine (W4_arr m ρ c 9).trans ((Region1.final (V3 m ρ) c).trans ?_)
  dsimp only [V3, W3]
  after_results_simp
  rw [at_v11 m ρ c, k2_arg16 m ρ c, k2_arg8 m ρ c, k2_arg9 m ρ c, k2_arg10 m ρ c, k2_arg11 m ρ c, k2_arg2 m ρ c]
  exact blkEdge_eq _ _ _ _ _ _ _ _ _ _ _

theorem k6_v47 : W6 m ρ c (Proc.devRef .tc main_v47) = E1 :=
  (W6_of_ne m ρ c main_v47 (by decide)).trans
    ((show StableHlo.after hostOps2 (W4 m ρ c) (Proc.devRef .tc main_v47) = W4 m ρ c (Proc.devRef .tc main_v47) by after_results_simp).trans (at_v47 m ρ c))

set_option maxHeartbeats 2000000 in
/-- After region 2 its result array holds the first round's node array. -/
theorem at_v65 : W6 m ρ c (Proc.devRef .tc main_v65) = X1 := by
  refine (W6_arr m ρ c 7).trans ((Region2.final (V5 m ρ) c).trans ?_)
  dsimp only [V5, W5]
  after_results_simp
  rw [k4_v11 m ρ c, k4_v15 m ρ c, at_v47 m ρ c, k4_arg12 m ρ c, k4_arg13 m ρ c, k4_arg14 m ρ c, k4_arg15 m ρ c]
  exact blkNode_eq _ _ _ _ _ _ _ _ _

theorem k8_v65 : W8 m ρ c (Proc.devRef .tc main_v65) = X1 :=
  (W8_of_ne m ρ c main_v65 (by decide)).trans
    ((show StableHlo.after hostOps3 (W6 m ρ c) (Proc.devRef .tc main_v65) = W6 m ρ c (Proc.devRef .tc main_v65) by after_results_simp).trans (at_v65 m ρ c))

set_option maxHeartbeats 2000000 in
/-- After region 3 its result array holds the second round's edge array. -/
theorem at_v97 : W8 m ρ c (Proc.devRef .tc main_v97) = E2 := by
  refine (W8_arr m ρ c 9).trans ((Region3.final (V7 m ρ) c).trans ?_)
  dsimp only [V7, W7]
  after_results_simp
  rw [k6_v47 m ρ c, at_v65 m ρ c, k6_v13 m ρ c, k6_v15 m ρ c, k6_arg8 m ρ c, k6_arg9 m ρ c, k6_arg10 m ρ c, k6_arg11 m ρ c]
  exact blkEdge_eq _ _ _ _ _ _ _ _ _ _ _

set_option maxHeartbeats 2000000 in
/-- After region 4 its result array, the program's result, holds the second round's node array. -/
theorem at_v115 : W10 m ρ c (Proc.devRef .tc main_v115) = X2 := by
  refine (W10_arr m ρ c 7).trans ((Region4.final (V9 m ρ) c).trans ?_)
  dsimp only [V9, W9]
  after_results_simp
  rw [k8_v65 m ρ c, k8_v15 m ρ c, at_v97 m ρ c, k8_arg12 m ρ c, k8_arg13 m ρ c, k8_arg14 m ρ c, k8_arg15 m ρ c]
  exact blkNode_eq _ _ _ _ _ _ _ _ _

end Cert.KernelIdeal.KValue

end
-- ==== Proof.RefRun.lean ====
/-
  The reference program's host function as a list of its operations, and its run.

  The function is a straight line of tensor operations; five of them are calls of the scaled exponential linear unit,
  a module-local function whose body (through the exponential linear unit and two selections it calls in turn) is
  nineteen operations. Each call stands here as those nineteen operations over the call's own buffers, in the callee's
  order. The list is stated in three stretches, one per window the function is printed in, and the whole function is
  the concatenation run as one line. Every weakly fair execution then terminates with each buffer at the fold of the
  operations over the launch contents.
-/
import proofs.«134789_j62947040690362_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of statements 1 to 60: the unpooling block and the first round's edge block up to its second bias; a call's nineteen operations in its place. -/
abbrev ops0 : List (HloOp τ sig (Elt F)) :=
  [ StableHlo.nullary main_c (constantI S_ 32 0#32),
    StableHlo.unary main_c main_v0 (broadcastInDim S65536 ![] bcast_S_S65536 : (⟨S_, .i32⟩ : BufTy).Contents (Elt F) → (⟨S65536, .i32⟩ : BufTy).Contents (Elt F)),
    StableHlo.binary main_arg17 main_v0 main_v1 (cmpi .slt : (⟨S65536, .i32⟩ : BufTy).Contents (Elt F) → (⟨S65536, .i32⟩ : BufTy).Contents (Elt F) → (⟨S65536, .i1⟩ : BufTy).Contents (Elt F)),
    StableHlo.nullary main_c_0 (constantI S_ 32 16384#32),
    StableHlo.unary main_c_0 main_v2 (broadcastInDim S65536 ![] bcast_S_S65536 : (⟨S_, .i32⟩ : BufTy).Contents (Elt F) → (⟨S65536, .i32⟩ : BufTy).Contents (Elt F)),
    StableHlo.binary main_arg17 main_v2 main_v3 (addi : (⟨S65536, .i32⟩ : BufTy).Contents (Elt F) → (⟨S65536, .i32⟩ : BufTy).Contents (Elt F) → (⟨S65536, .i32⟩ : BufTy).Contents (Elt F)),
    StableHlo.ternary main_v1 main_v3 main_arg17 main_v4 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v4 main_v5 (broadcastInDim S65536x1 ![0] bcast_S65536_S65536x1_0 : (⟨S65536, .i32⟩ : BufTy).Contents (Elt F) → (⟨S65536x1, .i32⟩ : BufTy).Contents (Elt F)),
    StableHlo.binary main_arg0 main_v5 main_v6 ((fun x i => Host.gather gather_S16384x128_S65536x1_S65536x128_1_0_n_n_0_1_1128 x i) : (⟨S16384x128, .f32⟩ : BufTy).Contents (Elt F) → (⟨S65536x1, .i32⟩ : BufTy).Contents (Elt F) → (⟨S65536x128, .f32⟩ : BufTy).Contents (Elt F)),
    StableHlo.binary main_v6 main_arg3 main_v7 ((fun a b => concatenate S65536x129 1 [⟨S65536x128, a⟩, ⟨S65536x1, b⟩] concatenates_S65536x128_S65536x1_S65536x129_d1) : (⟨S65536x128, .f32⟩ : BufTy).Contents (Elt F) → (⟨S65536x1, .f32⟩ : BufTy).Contents (Elt F) → (⟨S65536x129, .f32⟩ : BufTy).Contents (Elt F)),
    StableHlo.binary main_v7 main_arg4 main_v8 ((fun l r => Host.dotGeneral dot_S65536x129_S129x128_S65536x128_1_0_0_1_n_n none l r) : (⟨S65536x129, .f32⟩ : BufTy).Contents (Elt F) → (⟨S129x128, .f32⟩ : BufTy).Contents (Elt F) → (⟨S65536x128, .f32⟩ : BufTy).Contents (Elt F)),
    StableHlo.unary main_arg5 main_v9 (broadcastInDim S1x128 ![1] bcast_S128_S1x128_1 : (⟨S128, .f32⟩ : BufTy).Contents (Elt F) → (⟨S1x128, .f32⟩ : BufTy).Contents (Elt F)),
    StableHlo.unary main_v9 main_v10 (broadcastInDim S65536x128 ![0, 1] bcast_S1x128_S65536x128_0_1 : (⟨S1x128, .f32⟩ : BufTy).Contents (Elt F) → (⟨S65536x128, .f32⟩ : BufTy).Contents (Elt F)),
    StableHlo.binary main_v8 main_v10 main_v11 (addf : (⟨S65536x128, .f32⟩ : BufTy).Contents (Elt F) → (⟨S65536x128, .f32⟩ : BufTy).Contents (Elt F) → (⟨S65536x128, .f32⟩ : BufTy).Contents (Elt F)),
    TRef.nullary main_call0.cst (constant S_ .f32 0x3FD62D7D#32),
    TRef.nullary main_call0.call0.cst (constant S_ .f32 0x00000000#32),
    TRef.unary main_call0.call0.cst main_call0.call0.v0 (broadcastInDim S65536x128 ![] bcast_S_S65536x128),
    TRef.binary (.of main_v11) main_call0.call0.v0 main_call0.call0.v1 (cmpf .ogt),
    TRef.nullary main_call0.call0.cst_0 (constant S_ .f32 0x00000000#32),
    TRef.unary main_call0.call0.cst_0 main_call0.call0.v2 (broadcastInDim S65536x128 ![] bcast_S_S65536x128),
    TRef.binary (.of main_v11) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S65536x128 ![] bcast_S_S65536x128),
    TRef.ternary main_call0.call0.v3 main_call0.call0.call0.v1 (.of main_v11) main_call0.call0.call0.v2 select,
    TRef.unary main_call0.call0.call0.v2 main_call0.call0.v5 Host.expm1,
    TRef.unary main_call0.cst main_call0.call0.v6 id,
    TRef.unary main_call0.call0.v6 main_call0.call0.v7 (broadcastInDim S65536x128 ![] bcast_S_S65536x128),
    TRef.binary main_call0.call0.v7 main_call0.call0.v5 main_call0.call0.v8 mulf,
    TRef.ternary main_call0.call0.v1 (.of main_v11) main_call0.call0.v8 main_call0.call0.call1.v0 select,
    TRef.nullary main_call0.cst_0 (constant S_ .f32 0x3F867D5F#32),
    TRef.unary main_call0.cst_0 main_call0.v1 (broadcastInDim S65536x128 ![] bcast_S_S65536x128),
    TRef.binary main_call0.v1 main_call0.call0.call1.v0 main_call0.v2 mulf,
    StableHlo.binary main_v12 main_arg6 main_v13 ((fun l r => Host.dotGeneral dot_S65536x128_S128x128_S65536x128_1_0_0_1_n_n none l r) : (⟨S65536x128, .f32⟩ : BufTy).Contents (Elt F) → (⟨S128x128, .f32⟩ : BufTy).Contents (Elt F) → (⟨S65536x128, .f32⟩ : BufTy).Contents (Elt F)),
    StableHlo.unary main_arg7 main_v14 (broadcastInDim S1x128 ![1] bcast_S128_S1x128_1 : (⟨S128, .f32⟩ : BufTy).Contents (Elt F) → (⟨S1x128, .f32⟩ : BufTy).Contents (Elt F)),
    StableHlo.unary main_v14 main_v15 (broadcastInDim S65536x128 ![0, 1] bcast_S1x128_S65536x128_0_1 : (⟨S1x128, .f32⟩ : BufTy).Contents (Elt F) → (⟨S65536x128, .f32⟩ : BufTy).Contents (Elt F)),
    StableHlo.binary main_v13 main_v15 main_v16 (addf : (⟨S65536x128, .f32⟩ : BufTy).Contents (Elt F) → (⟨S65536x128, .f32⟩ : BufTy).Contents (Elt F) → (⟨S65536x128, .f32⟩ : BufTy).Contents (Elt F)),
    StableHlo.binary main_v16 main_arg1 main_v17 (addf : (⟨S65536x128, .f32⟩ : BufTy).Contents (Elt F) → (⟨S65536x128, .f32⟩ : BufTy).Contents (Elt F) → (⟨S65536x128, .f32⟩ : BufTy).Contents (Elt F)),
    StableHlo.unary main_arg16 main_v18 ((extractStridedSlice S1x393216 ![0, 0] · slices_S2x393216_S1x393216_0_0) : (⟨S2x393216, .i32⟩ : BufTy).Contents (Elt F) → (⟨S1x393216, .i32⟩ : BufTy).Contents (Elt F)),
    StableHlo.reshape main_v18 main_v19 rfl shapeCasts_S1x393216_S393216,
    StableHlo.unary main_arg16 main_v20 ((extractStridedSlice S1x393216 ![1, 0] · slices_S2x393216_S1x393216_1_0) : (⟨S2x393216, .i32⟩ : BufTy).Contents (Elt F) → (⟨S1x393216, .i32⟩ : BufTy).Contents (Elt F)),
    StableHlo.reshape main_v20 main_v21 rfl shapeCasts_S1x393216_S393216,
    StableHlo.nullary main_c_1 (constantI S_ 32 0#32),
    StableHlo.unary main_c_1 main_v22 (broadcastInDim S393216 ![] bcast_S_S393216 : (⟨S_, .i32⟩ : BufTy).Contents (Elt F) → (⟨S393216, .i32⟩ : BufTy).Contents (Elt F)),
    StableHlo.binary main_v19 main_v22 main_v23 (cmpi .slt : (⟨S393216, .i32⟩ : BufTy).Contents (Elt F) → (⟨S393216, .i32⟩ : BufTy).Contents (Elt F) → (⟨S393216, .i1⟩ : BufTy).Contents (Elt F)),
    StableHlo.nullary main_c_2 (constantI S_ 32 65536#32),
    StableHlo.unary main_c_2 main_v24 (broadcastInDim S393216 ![] bcast_S_S393216 : (⟨S_, .i32⟩ : BufTy).Contents (Elt F) → (⟨S393216, .i32⟩ : BufTy).Contents (Elt F)),
    StableHlo.binary main_v19 main_v24 main_v25 (addi : (⟨S393216, .i32⟩ : BufTy).Contents (Elt F) → (⟨S393216, .i32⟩ : BufTy).Contents (Elt F) → (⟨S393216, .i32⟩ : BufTy).Contents (Elt F)),
    StableHlo.ternary main_v23 main_v25 main_v19 main_v26 (select : (⟨S393216, .i1⟩ : BufTy).Contents (Elt F) → (⟨S393216, .i32⟩ : BufTy).Contents (Elt F) → (⟨S393216, .i32⟩ : BufTy).Contents (Elt F) → (⟨S393216, .i32⟩ : BufTy).Contents (Elt F)),
    StableHlo.unary main_v26 main_v27 (broadcastInDim S393216x1 ![0] bcast_S393216_S393216x1_0 : (⟨S393216, .i32⟩ : BufTy).Contents (Elt F) → (⟨S393216x1, .i32⟩ : BufTy).Contents (Elt F)),
    StableHlo.binary main_v17 main_v27 main_v28 ((fun x i => Host.gather gather_S65536x128_S393216x1_S393216x128_1_0_n_n_0_1_1128 x i) : (⟨S65536x128, .f32⟩ : BufTy).Contents (Elt F) → (⟨S393216x1, .i32⟩ : BufTy).Contents (Elt F) → (⟨S393216x128, .f32⟩ : BufTy).Contents (Elt F)),
    StableHlo.nullary main_c_3 (constantI S_ 32 0#32),
    StableHlo.unary main_c_3 main_v29 (broadcastInDim S393216 ![] bcast_S_S393216 : (⟨S_, .i32⟩ : BufTy).Contents (Elt F) → (⟨S393216, .i32⟩ : BufTy).Contents (Elt F)),
    StableHlo.binary main_v21 main_v29 main_v30 (cmpi .slt : (⟨S393216, .i32⟩ : BufTy).Contents (Elt F) → (⟨S393216, .i32⟩ : BufTy).Contents (Elt F) → (⟨S393216, .i1⟩ : BufTy).Contents (Elt F)),
    StableHlo.nullary main_c_4 (constantI S_ 32 65536#32),
    StableHlo.unary main_c_4 main_v31 (broadcastInDim S393216 ![] bcast_S_S393216 : (⟨S_, .i32⟩ : BufTy).Contents (Elt F) → (⟨S393216, .i32⟩ : BufTy).Contents (Elt F)),
    StableHlo.binary main_v21 main_v31 main_v32 (addi : (⟨S393216, .i32⟩ : BufTy).Contents (Elt F) → (⟨S393216, .i32⟩ : BufTy).Contents (Elt F) → (⟨S393216, .i32⟩ : BufTy).Contents (Elt F)),
    StableHlo.ternary main_v30 main_v32 main_v21 main_v33 (select : (⟨S393216, .i1⟩ : BufTy).Contents (Elt F) → (⟨S393216, .i32⟩ : BufTy).Contents (Elt F) → (⟨S393216, .i32⟩ : BufTy).Contents (Elt F) → (⟨S393216, .i32⟩ : BufTy).Contents (Elt F)),
    StableHlo.unary main_v33 main_v34 (broadcastInDim S393216x1 ![0] bcast_S393216_S393216x1_0 : (⟨S393216, .i32⟩ : BufTy).Contents (Elt F) → (⟨S393216x1, .i32⟩ : BufTy).Contents (Elt F)),
    StableHlo.binary main_v17 main_v34 main_v35 ((fun x i => Host.gather gather_S65536x128_S393216x1_S393216x128_1_0_n_n_0_1_1128 x i) : (⟨S65536x128, .f32⟩ : BufTy).Contents (Elt F) → (⟨S393216x1, .i32⟩ : BufTy).Contents (Elt F) → (⟨S393216x128, .f32⟩ : BufTy).Contents (Elt F)),
    StableHlo.nary ![main_arg2, main_v28, main_v35] main_v36 (fun u => concatenate S393216x384 1 [⟨S393216x128, u 0⟩, ⟨S393216x128, u 1⟩, ⟨S393216x128, u 2⟩] concatenates_S393216x128_S393216x128_S393216x128_S393216x384_d1),
    StableHlo.unary main_arg8 main_v37 ((extractStridedSlice S1x384x128 ![0, 0, 0] · slices_S2x384x128_S1x384x128_0_0_0) : (⟨S2x384x128, .f32⟩ : BufTy).Contents (Elt F) → (⟨S1x384x128, .f32⟩ : BufTy).Contents (Elt F)),
    StableHlo.reshape main_v37 main_v38 rfl shapeCasts_S1x384x128_S384x128,
    StableHlo.unary main_arg9 main_v39 ((extractStridedSlice S1x128 ![0, 0] · slices_S2x128_S1x128_0_0) : (⟨S2x128, .f32⟩ : BufTy).Contents (Elt F) → (⟨S1x128, .f32⟩ : BufTy).Contents (Elt F)),
    StableHlo.reshape main_v39 main_v40 rfl shapeCasts_S1x128_S128,
    StableHlo.unary main_arg10 main_v41 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v41 main_v42 rfl shapeCasts_S1x128x128_S128x128,
    StableHlo.unary main_arg11 main_v43 ((extractStridedSlice S1x128 ![0, 0] · slices_S2x128_S1x128_0_0) : (⟨S2x128, .f32⟩ : BufTy).Contents (Elt F) → (⟨S1x128, .f32⟩ : BufTy).Contents (Elt F)),
    StableHlo.reshape main_v43 main_v44 rfl shapeCasts_S1x128_S128,
    StableHlo.binary main_v36 main_v38 main_v45 ((fun l r => Host.dotGeneral dot_S393216x384_S384x128_S393216x128_1_0_0_1_n_n none l r) : (⟨S393216x384, .f32⟩ : BufTy).Contents (Elt F) → (⟨S384x128, .f32⟩ : BufTy).Contents (Elt F) → (⟨S393216x128, .f32⟩ : BufTy).Contents (Elt F)),
    StableHlo.unary main_v40 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S393216x128 ![0, 1] bcast_S1x128_S393216x128_0_1 : (⟨S1x128, .f32⟩ : BufTy).Contents (Elt F) → (⟨S393216x128, .f32⟩ : BufTy).Contents (Elt F)),
    StableHlo.binary main_v45 main_v47 main_v48 (addf : (⟨S393216x128, .f32⟩ : BufTy).Contents (Elt F) → (⟨S393216x128, .f32⟩ : BufTy).Contents (Elt F) → (⟨S393216x128, .f32⟩ : BufTy).Contents (Elt F)),
    TRef.nullary main_call1.cst (constant S_ .f32 0x3FD62D7D#32),
    TRef.nullary main_call1.call0.cst (constant S_ .f32 0x00000000#32),
    TRef.unary main_call1.call0.cst main_call1.call0.v0 (broadcastInDim S393216x128 ![] bcast_S_S393216x128),
    TRef.binary (.of main_v48) main_call1.call0.v0 main_call1.call0.v1 (cmpf .ogt),
    TRef.nullary main_call1.call0.cst_0 (constant S_ .f32 0x00000000#32),
    TRef.unary main_call1.call0.cst_0 main_call1.call0.v2 (broadcastInDim S393216x128 ![] bcast_S_S393216x128),
    TRef.binary (.of main_v48) main_call1.call0.v2 main_call1.call0.v3 (cmpf .ogt),
    TRef.nullary main_call1.call0.cst_1 (constant S_ .f32 0x00000000#32),
    TRef.unary main_call1.call0.cst_1 main_call1.call0.call0.v0 id,
    TRef.unary main_call1.call0.call0.v0 main_call1.call0.call0.v1 (broadcastInDim S393216x128 ![] bcast_S_S393216x128),
    TRef.ternary main_call1.call0.v3 main_call1.call0.call0.v1 (.of main_v48) main_call1.call0.call0.v2 select,
    TRef.unary main_call1.call0.call0.v2 main_call1.call0.v5 Host.expm1,
    TRef.unary main_call1.cst main_call1.call0.v6 id,
    TRef.unary main_call1.call0.v6 main_call1.call0.v7 (broadcastInDim S393216x128 ![] bcast_S_S393216x128),
    TRef.binary main_call1.call0.v7 main_call1.call0.v5 main_call1.call0.v8 mulf,
    TRef.ternary main_call1.call0.v1 (.of main_v48) main_call1.call0.v8 main_call1.call0.call1.v0 select,
    TRef.nullary main_call1.cst_0 (constant S_ .f32 0x3F867D5F#32),
    TRef.unary main_call1.cst_0 main_call1.v1 (broadcastInDim S393216x128 ![] bcast_S_S393216x128),
    TRef.binary main_call1.v1 main_call1.call0.call1.v0 main_call1.v2 mulf,
    StableHlo.binary main_v49 main_v42 main_v50 ((fun l r => Host.dotGeneral dot_S393216x128_S128x128_S393216x128_1_0_0_1_n_n none l r) : (⟨S393216x128, .f32⟩ : BufTy).Contents (Elt F) → (⟨S128x128, .f32⟩ : BufTy).Contents (Elt F) → (⟨S393216x128, .f32⟩ : BufTy).Contents (Elt F)),
    StableHlo.unary main_v44 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S393216x128 ![0, 1] bcast_S1x128_S393216x128_0_1 : (⟨S1x128, .f32⟩ : BufTy).Contents (Elt F) → (⟨S393216x128, .f32⟩ : BufTy).Contents (Elt F)),
    StableHlo.binary main_v50 main_v52 main_v53 (addf : (⟨S393216x128, .f32⟩ : BufTy).Contents (Elt F) → (⟨S393216x128, .f32⟩ : BufTy).Contents (Elt F) → (⟨S393216x128, .f32⟩ : BufTy).Contents (Elt F)) ]

/-- The operations of statements 61 to 120: the first round's sum into receivers and node block, the second round's edge block up to its second bias; a call's nineteen operations in its place. -/
abbrev ops1 : List (HloOp τ sig (Elt F)) :=
  [ StableHlo.binary main_arg2 main_v53 main_v54 (addf : (⟨S393216x128, .f32⟩ : BufTy).Contents (Elt F) → (⟨S393216x128, .f32⟩ : BufTy).Contents (Elt F) → (⟨S393216x128, .f32⟩ : BufTy).Contents (Elt F)),
    StableHlo.nullary main_cst (constant S_ .f32 0x00000000#32),
    StableHlo.unary main_cst main_v55 (broadcastInDim S65536x128 ![] bcast_S_S65536x128 : (⟨S_, .f32⟩ : BufTy).Contents (Elt F) → (⟨S65536x128, .f32⟩ : BufTy).Contents (Elt F)),
    StableHlo.unary main_v21 main_v56 (broadcastInDim S393216x1 ![0] bcast_S393216_S393216x1_0 : (⟨S393216, .i32⟩ : BufTy).Contents (Elt F) → (⟨S393216x1, .i32⟩ : BufTy).Contents (Elt F)),
    StableHlo.ternary main_v55 main_v56 main_v54 main_v57 ((fun x i u => Host.scatterAdd scatter_S65536x128_S393216x1_S393216x128_1_0_0_1 x i u) : (⟨S65536x128, .f32⟩ : BufTy).Contents (Elt F) → (⟨S393216x1, .i32⟩ : BufTy).Contents (Elt F) → (⟨S393216x128, .f32⟩ : BufTy).Contents (Elt F) → (⟨S65536x128, .f32⟩ : BufTy).Contents (Elt F)),
    StableHlo.binary main_v17 main_v57 main_v58 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)),
    StableHlo.unary main_arg12 main_v59 ((extractStridedSlice S1x256x128 ![0, 0, 0] · slices_S2x256x128_S1x256x128_0_0_0) : (⟨S2x256x128, .f32⟩ : BufTy).Contents (Elt F) → (⟨S1x256x128, .f32⟩ : BufTy).Contents (Elt F)),
    StableHlo.reshape main_v59 main_v60 rfl shapeCasts_S1x256x128_S256x128,
    StableHlo.unary main_arg13 main_v61 ((extractStridedSlice S1x128 ![0, 0] · slices_S2x128_S1x128_0_0) : (⟨S2x128, .f32⟩ : BufTy).Contents (Elt F) → (⟨S1x128, .f32⟩ : BufTy).Contents (Elt F)),
    StableHlo.reshape main_v61 main_v62 rfl shapeCasts_S1x128_S128,
    StableHlo.unary main_arg14 main_v63 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v63 main_v64 rfl shapeCasts_S1x128x128_S128x128,
    StableHlo.unary main_arg15 main_v65 ((extractStridedSlice S1x128 ![0, 0] · slices_S2x128_S1x128_0_0) : (⟨S2x128, .f32⟩ : BufTy).Contents (Elt F) → (⟨S1x128, .f32⟩ : BufTy).Contents (Elt F)),
    StableHlo.reshape main_v65 main_v66 rfl shapeCasts_S1x128_S128,
    StableHlo.binary main_v58 main_v60 main_v67 ((fun l r => Host.dotGeneral dot_S65536x256_S256x128_S65536x128_1_0_0_1_n_n none l r) : (⟨S65536x256, .f32⟩ : BufTy).Contents (Elt F) → (⟨S256x128, .f32⟩ : BufTy).Contents (Elt F) → (⟨S65536x128, .f32⟩ : BufTy).Contents (Elt F)),
    StableHlo.unary main_v62 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S65536x128 ![0, 1] bcast_S1x128_S65536x128_0_1 : (⟨S1x128, .f32⟩ : BufTy).Contents (Elt F) → (⟨S65536x128, .f32⟩ : BufTy).Contents (Elt F)),
    StableHlo.binary main_v67 main_v69 main_v70 (addf : (⟨S65536x128, .f32⟩ : BufTy).Contents (Elt F) → (⟨S65536x128, .f32⟩ : BufTy).Contents (Elt F) → (⟨S65536x128, .f32⟩ : BufTy).Contents (Elt F)),
    TRef.nullary main_call2.cst (constant S_ .f32 0x3FD62D7D#32),
    TRef.nullary main_call2.call0.cst (constant S_ .f32 0x00000000#32),
    TRef.unary main_call2.call0.cst main_call2.call0.v0 (broadcastInDim S65536x128 ![] bcast_S_S65536x128),
    TRef.binary (.of main_v70) main_call2.call0.v0 main_call2.call0.v1 (cmpf .ogt),
    TRef.nullary main_call2.call0.cst_0 (constant S_ .f32 0x00000000#32),
    TRef.unary main_call2.call0.cst_0 main_call2.call0.v2 (broadcastInDim S65536x128 ![] bcast_S_S65536x128),
    TRef.binary (.of main_v70) main_call2.call0.v2 main_call2.call0.v3 (cmpf .ogt),
    TRef.nullary main_call2.call0.cst_1 (constant S_ .f32 0x00000000#32),
    TRef.unary main_call2.call0.cst_1 main_call2.call0.call0.v0 id,
    TRef.unary main_call2.call0.call0.v0 main_call2.call0.call0.v1 (broadcastInDim S65536x128 ![] bcast_S_S65536x128),
    TRef.ternary main_call2.call0.v3 main_call2.call0.call0.v1 (.of main_v70) main_call2.call0.call0.v2 select,
    TRef.unary main_call2.call0.call0.v2 main_call2.call0.v5 Host.expm1,
    TRef.unary main_call2.cst main_call2.call0.v6 id,
    TRef.unary main_call2.call0.v6 main_call2.call0.v7 (broadcastInDim S65536x128 ![] bcast_S_S65536x128),
    TRef.binary main_call2.call0.v7 main_call2.call0.v5 main_call2.call0.v8 mulf,
    TRef.ternary main_call2.call0.v1 (.of main_v70) main_call2.call0.v8 main_call2.call0.call1.v0 select,
    TRef.nullary main_call2.cst_0 (constant S_ .f32 0x3F867D5F#32),
    TRef.unary main_call2.cst_0 main_call2.v1 (broadcastInDim S65536x128 ![] bcast_S_S65536x128),
    TRef.binary main_call2.v1 main_call2.call0.call1.v0 main_call2.v2 mulf,
    StableHlo.binary main_v71 main_v64 main_v72 ((fun l r => Host.dotGeneral dot_S65536x128_S128x128_S65536x128_1_0_0_1_n_n none l r) : (⟨S65536x128, .f32⟩ : BufTy).Contents (Elt F) → (⟨S128x128, .f32⟩ : BufTy).Contents (Elt F) → (⟨S65536x128, .f32⟩ : BufTy).Contents (Elt F)),
    StableHlo.unary main_v66 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S65536x128 ![0, 1] bcast_S1x128_S65536x128_0_1 : (⟨S1x128, .f32⟩ : BufTy).Contents (Elt F) → (⟨S65536x128, .f32⟩ : BufTy).Contents (Elt F)),
    StableHlo.binary main_v72 main_v74 main_v75 (addf : (⟨S65536x128, .f32⟩ : BufTy).Contents (Elt F) → (⟨S65536x128, .f32⟩ : BufTy).Contents (Elt F) → (⟨S65536x128, .f32⟩ : BufTy).Contents (Elt F)),
    StableHlo.binary main_v17 main_v75 main_v76 (addf : (⟨S65536x128, .f32⟩ : BufTy).Contents (Elt F) → (⟨S65536x128, .f32⟩ : BufTy).Contents (Elt F) → (⟨S65536x128, .f32⟩ : BufTy).Contents (Elt F)),
    StableHlo.nullary main_c_5 (constantI S_ 32 0#32),
    StableHlo.unary main_c_5 main_v77 (broadcastInDim S393216 ![] bcast_S_S393216 : (⟨S_, .i32⟩ : BufTy).Contents (Elt F) → (⟨S393216, .i32⟩ : BufTy).Contents (Elt F)),
    StableHlo.binary main_v19 main_v77 main_v78 (cmpi .slt : (⟨S393216, .i32⟩ : BufTy).Contents (Elt F) → (⟨S393216, .i32⟩ : BufTy).Contents (Elt F) → (⟨S393216, .i1⟩ : BufTy).Contents (Elt F)),
    StableHlo.nullary main_c_6 (constantI S_ 32 65536#32),
    StableHlo.unary main_c_6 main_v79 (broadcastInDim S393216 ![] bcast_S_S393216 : (⟨S_, .i32⟩ : BufTy).Contents (Elt F) → (⟨S393216, .i32⟩ : BufTy).Contents (Elt F)),
    StableHlo.binary main_v19 main_v79 main_v80 (addi : (⟨S393216, .i32⟩ : BufTy).Contents (Elt F) → (⟨S393216, .i32⟩ : BufTy).Contents (Elt F) → (⟨S393216, .i32⟩ : BufTy).Contents (Elt F)),
    StableHlo.ternary main_v78 main_v80 main_v19 main_v81 (select : (⟨S393216, .i1⟩ : BufTy).Contents (Elt F) → (⟨S393216, .i32⟩ : BufTy).Contents (Elt F) → (⟨S393216, .i32⟩ : BufTy).Contents (Elt F) → (⟨S393216, .i32⟩ : BufTy).Contents (Elt F)),
    StableHlo.unary main_v81 main_v82 (broadcastInDim S393216x1 ![0] bcast_S393216_S393216x1_0 : (⟨S393216, .i32⟩ : BufTy).Contents (Elt F) → (⟨S393216x1, .i32⟩ : BufTy).Contents (Elt F)),
    StableHlo.binary main_v76 main_v82 main_v83 ((fun x i => Host.gather gather_S65536x128_S393216x1_S393216x128_1_0_n_n_0_1_1128 x i) : (⟨S65536x128, .f32⟩ : BufTy).Contents (Elt F) → (⟨S393216x1, .i32⟩ : BufTy).Contents (Elt F) → (⟨S393216x128, .f32⟩ : BufTy).Contents (Elt F)),
    StableHlo.nullary main_c_7 (constantI S_ 32 0#32),
    StableHlo.unary main_c_7 main_v84 (broadcastInDim S393216 ![] bcast_S_S393216 : (⟨S_, .i32⟩ : BufTy).Contents (Elt F) → (⟨S393216, .i32⟩ : BufTy).Contents (Elt F)),
    StableHlo.binary main_v21 main_v84 main_v85 (cmpi .slt : (⟨S393216, .i32⟩ : BufTy).Contents (Elt F) → (⟨S393216, .i32⟩ : BufTy).Contents (Elt F) → (⟨S393216, .i1⟩ : BufTy).Contents (Elt F)),
    StableHlo.nullary main_c_8 (constantI S_ 32 65536#32),
    StableHlo.unary main_c_8 main_v86 (broadcastInDim S393216 ![] bcast_S_S393216 : (⟨S_, .i32⟩ : BufTy).Contents (Elt F) → (⟨S393216, .i32⟩ : BufTy).Contents (Elt F)),
    StableHlo.binary main_v21 main_v86 main_v87 (addi : (⟨S393216, .i32⟩ : BufTy).Contents (Elt F) → (⟨S393216, .i32⟩ : BufTy).Contents (Elt F) → (⟨S393216, .i32⟩ : BufTy).Contents (Elt F)),
    StableHlo.ternary main_v85 main_v87 main_v21 main_v88 (select : (⟨S393216, .i1⟩ : BufTy).Contents (Elt F) → (⟨S393216, .i32⟩ : BufTy).Contents (Elt F) → (⟨S393216, .i32⟩ : BufTy).Contents (Elt F) → (⟨S393216, .i32⟩ : BufTy).Contents (Elt F)),
    StableHlo.unary main_v88 main_v89 (broadcastInDim S393216x1 ![0] bcast_S393216_S393216x1_0 : (⟨S393216, .i32⟩ : BufTy).Contents (Elt F) → (⟨S393216x1, .i32⟩ : BufTy).Contents (Elt F)),
    StableHlo.binary main_v76 main_v89 main_v90 ((fun x i => Host.gather gather_S65536x128_S393216x1_S393216x128_1_0_n_n_0_1_1128 x i) : (⟨S65536x128, .f32⟩ : BufTy).Contents (Elt F) → (⟨S393216x1, .i32⟩ : BufTy).Contents (Elt F) → (⟨S393216x128, .f32⟩ : BufTy).Contents (Elt F)),
    StableHlo.nary ![main_v54, main_v83, main_v90] main_v91 (fun u => concatenate S393216x384 1 [⟨S393216x128, u 0⟩, ⟨S393216x128, u 1⟩, ⟨S393216x128, u 2⟩] concatenates_S393216x128_S393216x128_S393216x128_S393216x384_d1),
    StableHlo.unary main_arg8 main_v92 ((extractStridedSlice S1x384x128 ![1, 0, 0] · slices_S2x384x128_S1x384x128_1_0_0) : (⟨S2x384x128, .f32⟩ : BufTy).Contents (Elt F) → (⟨S1x384x128, .f32⟩ : BufTy).Contents (Elt F)),
    StableHlo.reshape main_v92 main_v93 rfl shapeCasts_S1x384x128_S384x128,
    StableHlo.unary main_arg9 main_v94 ((extractStridedSlice S1x128 ![1, 0] · slices_S2x128_S1x128_1_0) : (⟨S2x128, .f32⟩ : BufTy).Contents (Elt F) → (⟨S1x128, .f32⟩ : BufTy).Contents (Elt F)),
    StableHlo.reshape main_v94 main_v95 rfl shapeCasts_S1x128_S128,
    StableHlo.unary main_arg10 main_v96 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v96 main_v97 rfl shapeCasts_S1x128x128_S128x128,
    StableHlo.unary main_arg11 main_v98 ((extractStridedSlice S1x128 ![1, 0] · slices_S2x128_S1x128_1_0) : (⟨S2x128, .f32⟩ : BufTy).Contents (Elt F) → (⟨S1x128, .f32⟩ : BufTy).Contents (Elt F)),
    StableHlo.reshape main_v98 main_v99 rfl shapeCasts_S1x128_S128,
    StableHlo.binary main_v91 main_v93 main_v100 ((fun l r => Host.dotGeneral dot_S393216x384_S384x128_S393216x128_1_0_0_1_n_n none l r) : (⟨S393216x384, .f32⟩ : BufTy).Contents (Elt F) → (⟨S384x128, .f32⟩ : BufTy).Contents (Elt F) → (⟨S393216x128, .f32⟩ : BufTy).Contents (Elt F)),
    StableHlo.unary main_v95 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S393216x128 ![0, 1] bcast_S1x128_S393216x128_0_1 : (⟨S1x128, .f32⟩ : BufTy).Contents (Elt F) → (⟨S393216x128, .f32⟩ : BufTy).Contents (Elt F)),
    StableHlo.binary main_v100 main_v102 main_v103 (addf : (⟨S393216x128, .f32⟩ : BufTy).Contents (Elt F) → (⟨S393216x128, .f32⟩ : BufTy).Contents (Elt F) → (⟨S393216x128, .f32⟩ : BufTy).Contents (Elt F)),
    TRef.nullary main_call3.cst (constant S_ .f32 0x3FD62D7D#32),
    TRef.nullary main_call3.call0.cst (constant S_ .f32 0x00000000#32),
    TRef.unary main_call3.call0.cst main_call3.call0.v0 (broadcastInDim S393216x128 ![] bcast_S_S393216x128),
    TRef.binary (.of main_v103) main_call3.call0.v0 main_call3.call0.v1 (cmpf .ogt),
    TRef.nullary main_call3.call0.cst_0 (constant S_ .f32 0x00000000#32),
    TRef.unary main_call3.call0.cst_0 main_call3.call0.v2 (broadcastInDim S393216x128 ![] bcast_S_S393216x128),
    TRef.binary (.of main_v103) main_call3.call0.v2 main_call3.call0.v3 (cmpf .ogt),
    TRef.nullary main_call3.call0.cst_1 (constant S_ .f32 0x00000000#32),
    TRef.unary main_call3.call0.cst_1 main_call3.call0.call0.v0 id,
    TRef.unary main_call3.call0.call0.v0 main_call3.call0.call0.v1 (broadcastInDim S393216x128 ![] bcast_S_S393216x128),
    TRef.ternary main_call3.call0.v3 main_call3.call0.call0.v1 (.of main_v103) main_call3.call0.call0.v2 select,
    TRef.unary main_call3.call0.call0.v2 main_call3.call0.v5 Host.expm1,
    TRef.unary main_call3.cst main_call3.call0.v6 id,
    TRef.unary main_call3.call0.v6 main_call3.call0.v7 (broadcastInDim S393216x128 ![] bcast_S_S393216x128),
    TRef.binary main_call3.call0.v7 main_call3.call0.v5 main_call3.call0.v8 mulf,
    TRef.ternary main_call3.call0.v1 (.of main_v103) main_call3.call0.v8 main_call3.call0.call1.v0 select,
    TRef.nullary main_call3.cst_0 (constant S_ .f32 0x3F867D5F#32),
    TRef.unary main_call3.cst_0 main_call3.v1 (broadcastInDim S393216x128 ![] bcast_S_S393216x128),
    TRef.binary main_call3.v1 main_call3.call0.call1.v0 main_call3.v2 mulf,
    StableHlo.binary main_v104 main_v97 main_v105 ((fun l r => Host.dotGeneral dot_S393216x128_S128x128_S393216x128_1_0_0_1_n_n none l r) : (⟨S393216x128, .f32⟩ : BufTy).Contents (Elt F) → (⟨S128x128, .f32⟩ : BufTy).Contents (Elt F) → (⟨S393216x128, .f32⟩ : BufTy).Contents (Elt F)),
    StableHlo.unary main_v99 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S393216x128 ![0, 1] bcast_S1x128_S393216x128_0_1 : (⟨S1x128, .f32⟩ : BufTy).Contents (Elt F) → (⟨S393216x128, .f32⟩ : BufTy).Contents (Elt F)),
    StableHlo.binary main_v105 main_v107 main_v108 (addf : (⟨S393216x128, .f32⟩ : BufTy).Contents (Elt F) → (⟨S393216x128, .f32⟩ : BufTy).Contents (Elt F) → (⟨S393216x128, .f32⟩ : BufTy).Contents (Elt F)) ]

/-- The operations of statements 121 to 145: the second round's sum into receivers and node block; a call's nineteen operations in its place. -/
abbrev ops2 : List (HloOp τ sig (Elt F)) :=
  [ StableHlo.binary main_v54 main_v108 main_v109 (addf : (⟨S393216x128, .f32⟩ : BufTy).Contents (Elt F) → (⟨S393216x128, .f32⟩ : BufTy).Contents (Elt F) → (⟨S393216x128, .f32⟩ : BufTy).Contents (Elt F)),
    StableHlo.nullary main_cst_9 (constant S_ .f32 0x00000000#32),
    StableHlo.unary main_cst_9 main_v110 (broadcastInDim S65536x128 ![] bcast_S_S65536x128 : (⟨S_, .f32⟩ : BufTy).Contents (Elt F) → (⟨S65536x128, .f32⟩ : BufTy).Contents (Elt F)),
    StableHlo.unary main_v21 main_v111 (broadcastInDim S393216x1 ![0] bcast_S393216_S393216x1_0 : (⟨S393216, .i32⟩ : BufTy).Contents (Elt F) → (⟨S393216x1, .i32⟩ : BufTy).Contents (Elt F)),
    StableHlo.ternary main_v110 main_v111 main_v109 main_v112 ((fun x i u => Host.scatterAdd scatter_S65536x128_S393216x1_S393216x128_1_0_0_1 x i u) : (⟨S65536x128, .f32⟩ : BufTy).Contents (Elt F) → (⟨S393216x1, .i32⟩ : BufTy).Contents (Elt F) → (⟨S393216x128, .f32⟩ : BufTy).Contents (Elt F) → (⟨S65536x128, .f32⟩ : BufTy).Contents (Elt F)),
    StableHlo.binary main_v76 main_v112 main_v113 ((fun a b => concatenate S65536x256 1 [⟨S65536x128, a⟩, ⟨S65536x128, b⟩] concatenates_S65536x128_S65536x128_S65536x256_d1) : (⟨S65536x128, .f32⟩ : BufTy).Contents (Elt F) → (⟨S65536x128, .f32⟩ : BufTy).Contents (Elt F) → (⟨S65536x256, .f32⟩ : BufTy).Contents (Elt F)),
    StableHlo.unary main_arg12 main_v114 ((extractStridedSlice S1x256x128 ![1, 0, 0] · slices_S2x256x128_S1x256x128_1_0_0) : (⟨S2x256x128, .f32⟩ : BufTy).Contents (Elt F) → (⟨S1x256x128, .f32⟩ : BufTy).Contents (Elt F)),
    StableHlo.reshape main_v114 main_v115 rfl shapeCasts_S1x256x128_S256x128,
    StableHlo.unary main_arg13 main_v116 ((extractStridedSlice S1x128 ![1, 0] · slices_S2x128_S1x128_1_0) : (⟨S2x128, .f32⟩ : BufTy).Contents (Elt F) → (⟨S1x128, .f32⟩ : BufTy).Contents (Elt F)),
    StableHlo.reshape main_v116 main_v117 rfl shapeCasts_S1x128_S128,
    StableHlo.unary main_arg14 main_v118 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v118 main_v119 rfl shapeCasts_S1x128x128_S128x128,
    StableHlo.unary main_arg15 main_v120 ((extractStridedSlice S1x128 ![1, 0] · slices_S2x128_S1x128_1_0) : (⟨S2x128, .f32⟩ : BufTy).Contents (Elt F) → (⟨S1x128, .f32⟩ : BufTy).Contents (Elt F)),
    StableHlo.reshape main_v120 main_v121 rfl shapeCasts_S1x128_S128,
    StableHlo.binary main_v113 main_v115 main_v122 ((fun l r => Host.dotGeneral dot_S65536x256_S256x128_S65536x128_1_0_0_1_n_n none l r) : (⟨S65536x256, .f32⟩ : BufTy).Contents (Elt F) → (⟨S256x128, .f32⟩ : BufTy).Contents (Elt F) → (⟨S65536x128, .f32⟩ : BufTy).Contents (Elt F)),
    StableHlo.unary main_v117 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S65536x128 ![0, 1] bcast_S1x128_S65536x128_0_1 : (⟨S1x128, .f32⟩ : BufTy).Contents (Elt F) → (⟨S65536x128, .f32⟩ : BufTy).Contents (Elt F)),
    StableHlo.binary main_v122 main_v124 main_v125 (addf : (⟨S65536x128, .f32⟩ : BufTy).Contents (Elt F) → (⟨S65536x128, .f32⟩ : BufTy).Contents (Elt F) → (⟨S65536x128, .f32⟩ : BufTy).Contents (Elt F)),
    TRef.nullary main_call4.cst (constant S_ .f32 0x3FD62D7D#32),
    TRef.nullary main_call4.call0.cst (constant S_ .f32 0x00000000#32),
    TRef.unary main_call4.call0.cst main_call4.call0.v0 (broadcastInDim S65536x128 ![] bcast_S_S65536x128),
    TRef.binary (.of main_v125) main_call4.call0.v0 main_call4.call0.v1 (cmpf .ogt),
    TRef.nullary main_call4.call0.cst_0 (constant S_ .f32 0x00000000#32),
    TRef.unary main_call4.call0.cst_0 main_call4.call0.v2 (broadcastInDim S65536x128 ![] bcast_S_S65536x128),
    TRef.binary (.of main_v125) main_call4.call0.v2 main_call4.call0.v3 (cmpf .ogt),
    TRef.nullary main_call4.call0.cst_1 (constant S_ .f32 0x00000000#32),
    TRef.unary main_call4.call0.cst_1 main_call4.call0.call0.v0 id,
    TRef.unary main_call4.call0.call0.v0 main_call4.call0.call0.v1 (broadcastInDim S65536x128 ![] bcast_S_S65536x128),
    TRef.ternary main_call4.call0.v3 main_call4.call0.call0.v1 (.of main_v125) main_call4.call0.call0.v2 select,
    TRef.unary main_call4.call0.call0.v2 main_call4.call0.v5 Host.expm1,
    TRef.unary main_call4.cst main_call4.call0.v6 id,
    TRef.unary main_call4.call0.v6 main_call4.call0.v7 (broadcastInDim S65536x128 ![] bcast_S_S65536x128),
    TRef.binary main_call4.call0.v7 main_call4.call0.v5 main_call4.call0.v8 mulf,
    TRef.ternary main_call4.call0.v1 (.of main_v125) main_call4.call0.v8 main_call4.call0.call1.v0 select,
    TRef.nullary main_call4.cst_0 (constant S_ .f32 0x3F867D5F#32),
    TRef.unary main_call4.cst_0 main_call4.v1 (broadcastInDim S65536x128 ![] bcast_S_S65536x128),
    TRef.binary main_call4.v1 main_call4.call0.call1.v0 main_call4.v2 mulf,
    StableHlo.binary main_v126 main_v119 main_v127 ((fun l r => Host.dotGeneral dot_S65536x128_S128x128_S65536x128_1_0_0_1_n_n none l r) : (⟨S65536x128, .f32⟩ : BufTy).Contents (Elt F) → (⟨S128x128, .f32⟩ : BufTy).Contents (Elt F) → (⟨S65536x128, .f32⟩ : BufTy).Contents (Elt F)),
    StableHlo.unary main_v121 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S65536x128 ![0, 1] bcast_S1x128_S65536x128_0_1 : (⟨S1x128, .f32⟩ : BufTy).Contents (Elt F) → (⟨S65536x128, .f32⟩ : BufTy).Contents (Elt F)),
    StableHlo.binary main_v127 main_v129 main_v130 (addf : (⟨S65536x128, .f32⟩ : BufTy).Contents (Elt F) → (⟨S65536x128, .f32⟩ : BufTy).Contents (Elt F) → (⟨S65536x128, .f32⟩ : BufTy).Contents (Elt F)),
    StableHlo.binary main_v76 main_v130 main_v131 (addf : (⟨S65536x128, .f32⟩ : BufTy).Contents (Elt F) → (⟨S65536x128, .f32⟩ : BufTy).Contents (Elt F) → (⟨S65536x128, .f32⟩ : BufTy).Contents (Elt F)) ]

/-- The whole function's operations, in order. -/
abbrev ops : List (HloOp τ sig (Elt F)) := ops0 ++ (ops1 ++ ops2)

set_option maxRecDepth 8192 in
set_option maxHeartbeats 4000000 in
/-- The window is that straight line: the called functions unfolded at their calls, sequencing reassociated. -/
theorem main_part0_eq (c : Dev nD) : main_part0 (F := F) c = seq ops0 := by
  simp only [main_part0, fn_selu.body, fn_elu.body, fn_where.body, fn_where_0.body, fn_selu_1.body, fn_elu_2.body, fn_where_3.body, fn_where_4.body, seq, bind_assoc, pure_bind]
  rfl

set_option maxRecDepth 8192 in
set_option maxHeartbeats 4000000 in
/-- The window is that straight line: the called functions unfolded at their calls, sequencing reassociated. -/
theorem main_part1_eq (c : Dev nD) : main_part1 (F := F) c = seq ops1 := by
  simp only [main_part1, fn_selu.body, fn_elu.body, fn_where.body, fn_where_0.body, fn_selu_1.body, fn_elu_2.body, fn_where_3.body, fn_where_4.body, seq, bind_assoc, pure_bind]
  rfl

set_option maxRecDepth 8192 in
set_option maxHeartbeats 4000000 in
/-- The window is that straight line: the called functions unfolded at their calls, sequencing reassociated. -/
theorem main_part2_eq (c : Dev nD) : main_part2 (F := F) c = seq ops2 := by
  simp only [main_part2, fn_selu.body, fn_elu.body, fn_where.body, fn_where_0.body, fn_selu_1.body, fn_elu_2.body, fn_where_3.body, fn_where_4.body, seq, bind_assoc, pure_bind]

set_option maxRecDepth 8192 in
/-- The function runs its three windows in order: the concatenation as one line. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., binary_bufs_sub .., unary_bufs_sub .., unary_bufs_sub .., binary_bufs_sub ..⟩

set_option maxRecDepth 8192 in
theorem ops1_sub : (ops1 : List (HloOp τ sig (Elt F))).Forall fun op => op.bufs ⊆ tcRefs τ sig :=
  ⟨binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., binary_bufs_sub .., unary_bufs_sub .., unary_bufs_sub .., binary_bufs_sub ..⟩

set_option maxRecDepth 8192 in
theorem ops2_sub : (ops2 : List (HloOp τ sig (Elt F))).Forall fun op => op.bufs ⊆ tcRefs τ sig :=
  ⟨binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., binary_bufs_sub .., unary_bufs_sub .., unary_bufs_sub .., binary_bufs_sub .., binary_bufs_sub ..⟩

/-- Every operation touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h, List.forall_iff_forall_mem.mp ops2_sub op h]

set_option maxRecDepth 8192 in
/-- No operation of the stretch allocates: each determines its results. -/
theorem ops0_fresh : ∀ op ∈ (ops0 : List (HloOp τ sig (Elt F))), op.fresh = ∅ := by
  intro _ h
  (repeat (cases h with | head => rfl | tail _ h => ?_))
  exact nomatch h

set_option maxRecDepth 8192 in
/-- No operation of the stretch allocates: each determines its results. -/
theorem ops1_fresh : ∀ op ∈ (ops1 : List (HloOp τ sig (Elt F))), op.fresh = ∅ := by
  intro _ h
  (repeat (cases h with | head => rfl | tail _ h => ?_))
  exact nomatch h

set_option maxRecDepth 8192 in
/-- No operation of the stretch allocates: each determines its results. -/
theorem ops2_fresh : ∀ op ∈ (ops2 : List (HloOp τ sig (Elt F))), op.fresh = ∅ := by
  intro _ h
  (repeat (cases h with | head => rfl | tail _ h => ?_))
  exact nomatch h

theorem ops_fresh : ∀ op ∈ (ops : List (HloOp τ sig (Elt F))), op.fresh = ∅ := by
  intro op h
  simp only [ops, List.mem_append] at h
  rcases h with h | h | h
  exacts [ops0_fresh op h, ops1_fresh op h, ops2_fresh op h]

/-- On every device, for any float values, from any memory with zero counters: every weakly fair execution of the
    function on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefValue

end
-- ==== Proof.RefBlocks.lean ====
/-
  The three perceptron blocks of the network as the reference program's host function spells them.

  With the number of rows a variable and the dimension records and shape relations hypotheses, the three
  perceptron blocks as the host spells them: a concatenation of the input arrays along the feature axis, the plain product
  with the stacked first weight, the bias row laid along every row, the scaled exponential linear unit as its chain of
  nineteen pointwise operations, the plain product with the second weight, its bias row, and the residual array. Read at
  an index (p, j), the first product is a sum over the concatenated feature axis, which splits into the sums over the
  pieces, each piece of the concatenation read at (p, l) being the input array at (p, l); the chain of pointwise operations
  is the unit applied to the entry; so each block is the row-wise block of LibSeluMlp on row p, entry j.

-/
import proofs.«134789_j62947040690362_1_alg».proof.Proof.RefRun
import proofs.«134789_j62947040690362_1_alg».proof.Proof.Net
import proofs.«134789_j62947040690362_1_alg».proof.Proof.LibAffine

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibSeluMlp Cert.Net Cert.LibAffine

section General

variable {a k n : ℕ}

/-- What the index-level reading of a plain product [a, k] × [k, n] asks of its dimension record: one contracted
    axis of extent k, the left operand read at (row, contracted), the right at (contracted, column). -/
structure DotFacts (D : DotDims ⟨2, ![a, k]⟩ ⟨2, ![k, n]⟩ ⟨2, ![a, n]⟩) : Prop where
  hr : D.contr.rank = 1
  hs : D.contr.size ⟨0, by omega⟩ = k
  hl0 : ∀ i q, (D.lhsIdx i q 0).val = (i 0).val
  hl1 : ∀ i q, (D.lhsIdx i q 1).val = (q ⟨0, by omega⟩).val
  hr0 : ∀ i q, (D.rhsIdx i q 0).val = (q ⟨0, by omega⟩).val
  hr1 : ∀ i q, (D.rhsIdx i q 1).val = (i 1).val

/-- The host's plain product at (p, j): the sum over q of L (p, q) · R (q, j). -/
theorem DotFacts.dot {D : DotDims ⟨2, ![a, k]⟩ ⟨2, ![k, n]⟩ ⟨2, ![a, n]⟩} (h : DotFacts D)
    (L : FVec Ideal ⟨2, ![a, k]⟩ .f32) (R : FVec Ideal ⟨2, ![k, n]⟩ .f32) (p : Fin a) (j : Fin n) :
    Host.dotGeneral D none L R (ix2 p j) = ∑ q : Fin k, L (ix2 p q) * R (ix2 q j) :=
  hostDot_ix2 D h.hr h.hs h.hl0 h.hl1 h.hr0 h.hr1 none L R p j

/-- The unit as the host's chain of pointwise operations on an array: the scale broadcast, times the selection, where
    x > 0, of x, else of alpha broadcast times the exponential-minus-one of x clamped from above at zero. -/
def seluChain {s : Shape} (hS : S_.BroadcastsInDim s (![] : Fin 0 → Fin s.rank)) (x : FVec Ideal s .f32) : FVec Ideal s .f32 :=
  mulf (broadcastInDim s ![] hS (constant (F := Ideal) S_ .f32 0x3F867D5F#32))
    (select (cmpf .ogt x (broadcastInDim s ![] hS (constant (F := Ideal) S_ .f32 0x00000000#32))) x
      (mulf (broadcastInDim s ![] hS (constant (F := Ideal) S_ .f32 0x3FD62D7D#32))
        (Host.expm1 (select (cmpf .ogt x (broadcastInDim s ![] hS (constant (F := Ideal) S_ .f32 0x00000000#32)))
          (broadcastInDim s ![] hS (constant (F := Ideal) S_ .f32 0x00000000#32)) x))))

/-- At an index the chain is the unit of the entry: a scalar broadcast reads the scalar everywhere. -/
theorem seluChain_apply {s : Shape} (hS : S_.BroadcastsInDim s (![] : Fin 0 → Fin s.rank)) (x : FVec Ideal s .f32) (i : s.Idx) :
    seluChain hS x i = seluHost (x i) := rfl

/-- A bias vector as a row, laid along every row of an [a, 128] array. -/
def hBias (h1 : S128.BroadcastsInDim S1x128 (![1] : Fin 1 → Fin S1x128.rank))
    (h2 : S1x128.BroadcastsInDim ⟨2, ![a, 128]⟩ (![0, 1] : Fin 2 → Fin 2)) (b : Vc 128) : Mat a 128 :=
  broadcastInDim ⟨2, ![a, 128]⟩ ![0, 1] h2 (broadcastInDim S1x128 ![1] h1 b)

theorem hBias_apply (h1 : S128.BroadcastsInDim S1x128 (![1] : Fin 1 → Fin S1x128.rank))
    (h2 : S1x128.BroadcastsInDim ⟨2, ![a, 128]⟩ (![0, 1] : Fin 2 → Fin 2)) (b : Vc 128) (p : Fin a) (j : Fin 128) :
    hBias h1 h2 b (ix2 p j) = b (ix1 j) := by
  unfold hBias
  rw [broadcastInDim_1n_an_apply]
  refine broadcastInDim_apply ![1] h1 b (ix2 (0 : Fin 1) j) (ix1 j) fun ax => ?_
  match ax with
  | ⟨0, _⟩ =>
    show j.val = if (128 : ℕ) = 1 then 0 else j.val
    rw [if_neg (by decide)]

variable (D2 : DotDims ⟨2, ![a, 128]⟩ ⟨2, ![128, 128]⟩ ⟨2, ![a, 128]⟩)
  (hS : S_.BroadcastsInDim ⟨2, ![a, 128]⟩ (![] : Fin 0 → Fin 2))
  (h1 : S128.BroadcastsInDim S1x128 (![1] : Fin 1 → Fin S1x128.rank))
  (h2 : S1x128.BroadcastsInDim ⟨2, ![a, 128]⟩ (![0, 1] : Fin 2 → Fin 2))

/-- The second half of a block: the unit on the pre-activations, the product with the second weight, its bias. -/
def hTail (pre : Mat a 128) (W2 : Mat 128 128) (b2 : Vc 128) : Mat a 128 :=
  addf (Host.dotGeneral D2 none (seluChain hS pre) W2) (hBias h1 h2 b2)

theorem hTail_apply (hD2 : DotFacts D2) (pre : Mat a 128) (W2 : Mat 128 128) (b2 : Vc 128) (p : Fin a) (j : Fin 128) :
    hTail D2 hS h1 h2 pre W2 b2 (ix2 p j)
      = rowTail (fun q => pre (ix2 p q)) (fun l q => W2 (ix2 l q)) (fun q => b2 (ix1 q)) j := by
  unfold hTail rowTail
  rw [addf_apply, hD2.dot, hBias_apply]
  refine congrArg (· + b2 (ix1 j)) (Finset.sum_congr rfl fun q _ => ?_)
  rw [seluChain_apply, seluHost_eq]

/-- Two second halves on pre-activations that agree on row p agree at (p, j). -/
theorem rowTail_congr {h h' : Fin 128 → Ideal .f32} (w : Fin 128 → Fin 128 → Ideal .f32) (b : Fin 128 → Ideal .f32) (j : Fin 128)
    (e : ∀ q, h q = h' q) : rowTail h w b j = rowTail h' w b j := by
  rw [funext e]

/-! ### The edge block: three arrays of 128 features -/

section Edge

variable (D1 : DotDims ⟨2, ![a, 384]⟩ ⟨2, ![384, 128]⟩ ⟨2, ![a, 128]⟩)
  (hc : Shape.Concatenates [(⟨2, ![a, 128]⟩ : Shape), ⟨2, ![a, 128]⟩, ⟨2, ![a, 128]⟩] ⟨2, ![a, 384]⟩ 1)

theorem cat3_fst (x y z : Mat a 128) (p : Fin a) (l : Fin 128) :
    concatenate ⟨2, ![a, 384]⟩ 1 [⟨⟨2, ![a, 128]⟩, x⟩, ⟨⟨2, ![a, 128]⟩, y⟩, ⟨⟨2, ![a, 128]⟩, z⟩] hc
      (ix2 p (Fin.castAdd 128 (Fin.castAdd 128 l))) = x (ix2 p l) :=
  concatenate_apply_piece (t := ⟨2, ![a, 384]⟩) 1 [⟨⟨2, ![a, 128]⟩, x⟩, ⟨⟨2, ![a, 128]⟩, y⟩, ⟨⟨2, ![a, 128]⟩, z⟩] hc (ix2 p (Fin.castAdd 128 (Fin.castAdd 128 l))) 0 (by simp) ⟨2, ![a, 128]⟩ x rfl rfl 0 rfl (ix2 p l)
    (fun b hb => by match b with | ⟨0, _⟩ => rfl | ⟨1, _⟩ => exact absurd rfl hb)
    (by show 0 + l.val = l.val; omega)

theorem cat3_snd (x y z : Mat a 128) (p : Fin a) (l : Fin 128) :
    concatenate ⟨2, ![a, 384]⟩ 1 [⟨⟨2, ![a, 128]⟩, x⟩, ⟨⟨2, ![a, 128]⟩, y⟩, ⟨⟨2, ![a, 128]⟩, z⟩] hc
      (ix2 p (Fin.castAdd 128 (Fin.natAdd 128 l))) = y (ix2 p l) :=
  concatenate_apply_piece (t := ⟨2, ![a, 384]⟩) 1 [⟨⟨2, ![a, 128]⟩, x⟩, ⟨⟨2, ![a, 128]⟩, y⟩, ⟨⟨2, ![a, 128]⟩, z⟩] hc (ix2 p (Fin.castAdd 128 (Fin.natAdd 128 l))) 1 (by simp) ⟨2, ![a, 128]⟩ y rfl rfl 128 rfl (ix2 p l)
    (fun b hb => by match b with | ⟨0, _⟩ => rfl | ⟨1, _⟩ => exact absurd rfl hb)
    (by show 128 + l.val = 128 + l.val; rfl)

theorem cat3_thd (x y z : Mat a 128) (p : Fin a) (l : Fin 128) :
    concatenate ⟨2, ![a, 384]⟩ 1 [⟨⟨2, ![a, 128]⟩, x⟩, ⟨⟨2, ![a, 128]⟩, y⟩, ⟨⟨2, ![a, 128]⟩, z⟩] hc
      (ix2 p (Fin.natAdd (128 + 128) l)) = z (ix2 p l) :=
  concatenate_apply_piece (t := ⟨2, ![a, 384]⟩) 1 [⟨⟨2, ![a, 128]⟩, x⟩, ⟨⟨2, ![a, 128]⟩, y⟩, ⟨⟨2, ![a, 128]⟩, z⟩] hc (ix2 p (Fin.natAdd (128 + 128) l)) 2 (by simp) ⟨2, ![a, 128]⟩ z rfl rfl 256 rfl (ix2 p l)
    (fun b hb => by match b with | ⟨0, _⟩ => rfl | ⟨1, _⟩ => exact absurd rfl hb)
    (by show 256 + l.val = 128 + 128 + l.val; omega)

/-- The edge block's pre-activations: the product of [e | vs | vr] with the stacked weight, plus the bias row. -/
def hEdgePre (e vs vr : Mat a 128) (W1 : Mat 384 128) (b1 : Vc 128) : Mat a 128 :=
  addf (Host.dotGeneral D1 none
      (concatenate ⟨2, ![a, 384]⟩ 1 [⟨⟨2, ![a, 128]⟩, e⟩, ⟨⟨2, ![a, 128]⟩, vs⟩, ⟨⟨2, ![a, 128]⟩, vr⟩] hc) W1)
    (hBias h1 h2 b1)

theorem hEdgePre_apply (hD1 : DotFacts D1) (e vs vr : Mat a 128) (W1 : Mat 384 128) (b1 : Vc 128) (p : Fin a) (q : Fin 128) :
    hEdgePre h1 h2 D1 hc e vs vr W1 b1 (ix2 p q)
      = preThree (fun l => e (ix2 p l)) (fun l => vs (ix2 p l)) (fun l => vr (ix2 p l))
          (fun l q => W1 (ix2 (Fin.castAdd 128 (Fin.castAdd 128 l)) q)) (fun l q => W1 (ix2 (Fin.castAdd 128 (Fin.natAdd 128 l)) q))
          (fun l q => W1 (ix2 (Fin.natAdd (128 + 128) l) q)) (fun q => b1 (ix1 q)) q := by
  unfold hEdgePre preThree
  rw [addf_apply, hD1.dot, hBias_apply]
  refine congrArg (· + b1 (ix1 q)) ?_
  refine (sum_three (k := 128) fun q' : Fin (128 + 128 + 128) =>
    concatenate ⟨2, ![a, 384]⟩ 1 [⟨⟨2, ![a, 128]⟩, e⟩, ⟨⟨2, ![a, 128]⟩, vs⟩, ⟨⟨2, ![a, 128]⟩, vr⟩] hc (ix2 p q') * W1 (ix2 q' q)).trans ?_
  exact congrArg₂ (· + ·) (congrArg₂ (· + ·)
      (Finset.sum_congr rfl fun l _ => congrArg (· * W1 (ix2 (Fin.castAdd 128 (Fin.castAdd 128 l)) q)) (cat3_fst hc e vs vr p l))
      (Finset.sum_congr rfl fun l _ => congrArg (· * W1 (ix2 (Fin.castAdd 128 (Fin.natAdd 128 l)) q)) (cat3_snd hc e vs vr p l)))
    (Finset.sum_congr rfl fun l _ => congrArg (· * W1 (ix2 (Fin.natAdd (128 + 128) l) q)) (cat3_thd hc e vs vr p l))

/-- The edge block as the host spells it: the residual array first. -/
def hEdge (e vs vr : Mat a 128) (W1 : Mat 384 128) (b1 : Vc 128) (W2 : Mat 128 128) (b2 : Vc 128) : Mat a 128 :=
  addf e (hTail D2 hS h1 h2 (hEdgePre h1 h2 D1 hc e vs vr W1 b1) W2 b2)

theorem hEdge_eq (hD1 : DotFacts D1) (hD2 : DotFacts D2) (e vs vr : Mat a 128) (W1 : Mat 384 128) (b1 : Vc 128) (W2 : Mat 128 128)
    (b2 : Vc 128) : hEdge D2 hS h1 h2 D1 hc e vs vr W1 b1 W2 b2 = edgeL e vs vr W1 b1 W2 b2 := by
  funext i
  obtain ⟨p, j, rfl⟩ : ∃ (p : Fin a) (j : Fin 128), i = ix2 p j := ⟨i 0, i 1, eq_ix2 i⟩
  unfold hEdge
  rw [addf_apply, hTail_apply D2 hS h1 h2 hD2]
  exact congrArg (e (ix2 p j) + ·) (rowTail_congr _ _ j fun q => hEdgePre_apply h1 h2 D1 hc hD1 e vs vr W1 b1 p q)

end Edge

/-! ### The node block: two arrays of 128 features -/

section Node

variable (D1 : DotDims ⟨2, ![a, 256]⟩ ⟨2, ![256, 128]⟩ ⟨2, ![a, 128]⟩)
  (hc : Shape.Concatenates [(⟨2, ![a, 128]⟩ : Shape), ⟨2, ![a, 128]⟩] ⟨2, ![a, 256]⟩ 1)

theorem cat2_fst (x y : Mat a 128) (p : Fin a) (l : Fin 128) :
    concatenate ⟨2, ![a, 256]⟩ 1 [⟨⟨2, ![a, 128]⟩, x⟩, ⟨⟨2, ![a, 128]⟩, y⟩] hc (ix2 p (Fin.castAdd 128 l)) = x (ix2 p l) :=
  concatenate_pair_apply_left 1 x y hc _ rfl (ix2 p l)
    (fun b => by match b with | ⟨0, _⟩ => rfl | ⟨1, _⟩ => rfl)

theorem cat2_snd (x y : Mat a 128) (p : Fin a) (l : Fin 128) :
    concatenate ⟨2, ![a, 256]⟩ 1 [⟨⟨2, ![a, 128]⟩, x⟩, ⟨⟨2, ![a, 128]⟩, y⟩] hc (ix2 p (Fin.natAdd 128 l)) = y (ix2 p l) :=
  concatenate_pair_apply_right 1 x y hc _ rfl rfl (ix2 p l)
    (fun b hb => by match b with | ⟨0, _⟩ => rfl | ⟨1, _⟩ => exact absurd rfl hb)
    (by show l.val + 128 = 128 + l.val; omega)

/-- The node block's pre-activations: the product of [v | g] with the stacked weight, plus the bias row. -/
def hNodePre (v g : Mat a 128) (W1 : Mat 256 128) (b1 : Vc 128) : Mat a 128 :=
  addf (Host.dotGeneral D1 none
      (concatenate ⟨2, ![a, 256]⟩ 1 [⟨⟨2, ![a, 128]⟩, v⟩, ⟨⟨2, ![a, 128]⟩, g⟩] hc) W1)
    (hBias h1 h2 b1)

theorem hNodePre_apply (hD1 : DotFacts D1) (v g : Mat a 128) (W1 : Mat 256 128) (b1 : Vc 128) (p : Fin a) (q : Fin 128) :
    hNodePre h1 h2 D1 hc v g W1 b1 (ix2 p q)
      = preTwo (fun l => v (ix2 p l)) (fun l => g (ix2 p l))
          (fun l q => W1 (ix2 (Fin.castAdd 128 l) q)) (fun l q => W1 (ix2 (Fin.natAdd 128 l) q)) (fun q => b1 (ix1 q)) q := by
  unfold hNodePre preTwo
  rw [addf_apply, hD1.dot, hBias_apply]
  refine congrArg (· + b1 (ix1 q)) ?_
  refine (sum_two (k := 128) fun q' : Fin (128 + 128) =>
    concatenate ⟨2, ![a, 256]⟩ 1 [⟨⟨2, ![a, 128]⟩, v⟩, ⟨⟨2, ![a, 128]⟩, g⟩] hc (ix2 p q') * W1 (ix2 q' q)).trans ?_
  exact congrArg₂ (· + ·)
    (Finset.sum_congr rfl fun l _ => congrArg (· * W1 (ix2 (Fin.castAdd 128 l) q)) (cat2_fst hc v g p l))
    (Finset.sum_congr rfl fun l _ => congrArg (· * W1 (ix2 (Fin.natAdd 128 l) q)) (cat2_snd hc v g p l))

/-- The node block as the host spells it: the residual array first. -/
def hNode (v g : Mat a 128) (W1 : Mat 256 128) (b1 : Vc 128) (W2 : Mat 128 128) (b2 : Vc 128) : Mat a 128 :=
  addf v (hTail D2 hS h1 h2 (hNodePre h1 h2 D1 hc v g W1 b1) W2 b2)

theorem hNode_eq (hD1 : DotFacts D1) (hD2 : DotFacts D2) (v g : Mat a 128) (W1 : Mat 256 128) (b1 : Vc 128) (W2 : Mat 128 128)
    (b2 : Vc 128) : hNode D2 hS h1 h2 D1 hc v g W1 b1 W2 b2 = nodeL v g W1 b1 W2 b2 := by
  funext i
  obtain ⟨p, j, rfl⟩ : ∃ (p : Fin a) (j : Fin 128), i = ix2 p j := ⟨i 0, i 1, eq_ix2 i⟩
  unfold hNode
  rw [addf_apply, hTail_apply D2 hS h1 h2 hD2]
  exact congrArg (v (ix2 p j) + ·) (rowTail_congr _ _ j fun q => hNodePre_apply h1 h2 D1 hc hD1 v g W1 b1 p q)

end Node

/-! ### The unpooling block: an array of 128 features and one scalar a row -/

section Unpool

variable (D1 : DotDims ⟨2, ![a, 129]⟩ ⟨2, ![129, 128]⟩ ⟨2, ![a, 128]⟩)
  (hc : Shape.Concatenates [(⟨2, ![a, 128]⟩ : Shape), ⟨2, ![a, 1]⟩] ⟨2, ![a, 129]⟩ 1)

theorem cat1_fst (x : Mat a 128) (r : Mat a 1) (p : Fin a) (l : Fin 128) :
    concatenate ⟨2, ![a, 129]⟩ 1 [⟨⟨2, ![a, 128]⟩, x⟩, ⟨⟨2, ![a, 1]⟩, r⟩] hc (ix2 p (Fin.castSucc l)) = x (ix2 p l) :=
  concatenate_pair_apply_left 1 x r hc _ rfl (ix2 p l)
    (fun b => by match b with | ⟨0, _⟩ => rfl | ⟨1, _⟩ => rfl)

theorem cat1_snd (x : Mat a 128) (r : Mat a 1) (p : Fin a) :
    concatenate ⟨2, ![a, 129]⟩ 1 [⟨⟨2, ![a, 128]⟩, x⟩, ⟨⟨2, ![a, 1]⟩, r⟩] hc (ix2 p (Fin.last 128)) = r (ix2 p (0 : Fin 1)) :=
  concatenate_pair_apply_right 1 x r hc _ rfl rfl (ix2 p (0 : Fin 1))
    (fun b hb => by match b with | ⟨0, _⟩ => rfl | ⟨1, _⟩ => exact absurd rfl hb)
    (by show 0 + 128 = 128; rfl)

/-- The unpooling block's pre-activations: the product of [x | r] with the stacked weight, plus the bias row. -/
def hUnpoolPre (x : Mat a 128) (r : Mat a 1) (W1 : Mat 129 128) (b1 : Vc 128) : Mat a 128 :=
  addf (Host.dotGeneral D1 none
      (concatenate ⟨2, ![a, 129]⟩ 1 [⟨⟨2, ![a, 128]⟩, x⟩, ⟨⟨2, ![a, 1]⟩, r⟩] hc) W1)
    (hBias h1 h2 b1)

theorem hUnpoolPre_apply (hD1 : DotFacts D1) (x : Mat a 128) (r : Mat a 1) (W1 : Mat 129 128) (b1 : Vc 128) (p : Fin a) (q : Fin 128) :
    hUnpoolPre h1 h2 D1 hc x r W1 b1 (ix2 p q)
      = preScalar (fun l => x (ix2 p l)) (r (ix2 p (0 : Fin 1)))
          (fun l q => W1 (ix2 (Fin.castSucc l) q)) (fun q => W1 (ix2 (Fin.last 128) q)) (fun q => b1 (ix1 q)) q := by
  unfold hUnpoolPre preScalar
  rw [addf_apply, hD1.dot, hBias_apply]
  refine congrArg (· + b1 (ix1 q)) ?_
  refine (sum_snoc (k := 128) fun q' : Fin (128 + 1) =>
    concatenate ⟨2, ![a, 129]⟩ 1 [⟨⟨2, ![a, 128]⟩, x⟩, ⟨⟨2, ![a, 1]⟩, r⟩] hc (ix2 p q') * W1 (ix2 q' q)).trans ?_
  exact congrArg₂ (· + ·)
    (Finset.sum_congr rfl fun l _ => congrArg (· * W1 (ix2 (Fin.castSucc l) q)) (cat1_fst hc x r p l))
    (congrArg (· * W1 (ix2 (Fin.last 128) q)) (cat1_snd hc x r p))

/-- The unpooling block as the host spells it: the skip array last. -/
def hUnpool (x : Mat a 128) (r : Mat a 1) (res : Mat a 128) (W1 : Mat 129 128) (b1 : Vc 128) (W2 : Mat 128 128) (b2 : Vc 128) :
    Mat a 128 :=
  addf (hTail D2 hS h1 h2 (hUnpoolPre h1 h2 D1 hc x r W1 b1) W2 b2) res

theorem hUnpool_eq (hD1 : DotFacts D1) (hD2 : DotFacts D2) (x : Mat a 128) (r : Mat a 1) (res : Mat a 128) (W1 : Mat 129 128)
    (b1 : Vc 128) (W2 : Mat 128 128) (b2 : Vc 128) :
    hUnpool D2 hS h1 h2 D1 hc x r res W1 b1 W2 b2 = unpoolL x r res W1 b1 W2 b2 := by
  funext i
  obtain ⟨p, j, rfl⟩ : ∃ (p : Fin a) (j : Fin 128), i = ix2 p j := ⟨i 0, i 1, eq_ix2 i⟩
  unfold hUnpool
  rw [addf_apply, hTail_apply D2 hS h1 h2 hD2]
  exact congrArg (· + res (ix2 p j)) (rowTail_congr _ _ j fun q => hUnpoolPre_apply h1 h2 D1 hc hD1 x r W1 b1 p q)

end Unpool

end General

end Cert.ReferenceIdeal.RefValue

end
-- ==== Proof.RefDefs.lean ====
/-
  The reference program's own arrays and blocks, as its host operations spell them.

  The index arrays the gathers and the sum into receivers take (a row of the edge index array as a vector; an index vector
  with its negative entries wrapped by the extent, as a column), the gathers and the scatter-add into the zero array as
  functions of those, the two rounds' weights (a slice of a stacked array, reshaped), the facts the index-level reading
  of a plain product asks of the program's five dimension records, and the three perceptron blocks at the program's
  shapes, each equal to the block of Net. Also: the fold over a concatenation of operation lists.
-/
import proofs.«134789_j62947040690362_1_alg».proof.Proof.RefBlocks

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibSeluMlp Cert.Net Cert.LibAffine

/-! ## The run's own arrays, as the host operations spell them -/

/-- Contents of every buffer at the ideal instance. -/
abbrev IV := Valuation τ sig (Elt Ideal)

/-- Row k of the edge index array as a vector: its slice [k : k + 1], reshaped. -/
abbrev row0 (a16 : IVec S2x393216 32) : IVec S393216 32 :=
  shapeCast S393216 (extractStridedSlice S1x393216 ![0, 0] a16 slices_S2x393216_S1x393216_0_0) shapeCasts_S1x393216_S393216
@[inherit_doc row0]
abbrev row1 (a16 : IVec S2x393216 32) : IVec S393216 32 :=
  shapeCast S393216 (extractStridedSlice S1x393216 ![1, 0] a16 slices_S2x393216_S1x393216_1_0) shapeCasts_S1x393216_S393216

/-- A node index vector with its negative entries wrapped by the number of fine nodes, as a column. -/
abbrev colE (r : IVec S393216 32) : IVec S393216x1 32 :=
  broadcastInDim S393216x1 ![0] bcast_S393216_S393216x1_0
    (select (cmpi .slt r (broadcastInDim S393216 ![] bcast_S_S393216 (constantI S_ 32 0#32)))
      (addi r (broadcastInDim S393216 ![] bcast_S_S393216 (constantI S_ 32 65536#32))) r)

/-- The cluster index vector with its negative entries wrapped by the number of coarse nodes, as a column. -/
abbrev colC (a17 : IVec S65536 32) : IVec S65536x1 32 :=
  broadcastInDim S65536x1 ![0] bcast_S65536_S65536x1_0
    (select (cmpi .slt a17 (broadcastInDim S65536 ![] bcast_S_S65536 (constantI S_ 32 0#32)))
      (addi a17 (broadcastInDim S65536 ![] bcast_S_S65536 (constantI S_ 32 16384#32))) a17)

/-- Coarse rows gathered to the fine nodes. -/
abbrev gC (a17 : IVec S65536 32) (x : Mat 16384 128) : Mat 65536 128 :=
  Host.gather gather_S16384x128_S65536x1_S65536x128_1_0_n_n_0_1_1128 x (colC a17)

/-- Node rows gathered to the edges, by an index vector. -/
abbrev gE (r : IVec S393216 32) (x : Mat 65536 128) : Mat 393216 128 :=
  Host.gather gather_S65536x128_S393216x1_S393216x128_1_0_n_n_0_1_1128 x (colE r)

/-- Node rows gathered to the edges' senders, and to their receivers. -/
abbrev gS (a16 : IVec S2x393216 32) (x : Mat 65536 128) : Mat 393216 128 := gE (row0 a16) x
@[inherit_doc gS]
abbrev gR (a16 : IVec S2x393216 32) (x : Mat 65536 128) : Mat 393216 128 := gE (row1 a16) x

/-- Edge rows summed into the nodes a vector of receivers names: a scatter-add into the zero array. -/
abbrev aggE (r : IVec S393216 32) (u : Mat 393216 128) : Mat 65536 128 :=
  Host.scatterAdd scatter_S65536x128_S393216x1_S393216x128_1_0_0_1
    (broadcastInDim S65536x128 ![] bcast_S_S65536x128 (constant (F := Ideal) S_ .f32 0x00000000#32))
    (broadcastInDim S393216x1 ![0] bcast_S393216_S393216x1_0 r) u

/-- Edge rows summed into their receivers. -/
abbrev agg (a16 : IVec S2x393216 32) (u : Mat 393216 128) : Mat 65536 128 := aggE (row1 a16) u

/-- The two rounds' weights: slice [k : k + 1] of a stacked array, reshaped. -/
abbrev eW1a (a8 : FVec Ideal S2x384x128 .f32) : Mat 384 128 :=
  shapeCast S384x128 (extractStridedSlice S1x384x128 ![0, 0, 0] a8 slices_S2x384x128_S1x384x128_0_0_0) shapeCasts_S1x384x128_S384x128
abbrev eW1b (a8 : FVec Ideal S2x384x128 .f32) : Mat 384 128 :=
  shapeCast S384x128 (extractStridedSlice S1x384x128 ![1, 0, 0] a8 slices_S2x384x128_S1x384x128_1_0_0) shapeCasts_S1x384x128_S384x128
abbrev vec0 (a9 : FVec Ideal S2x128 .f32) : Vc 128 :=
  shapeCast S128 (extractStridedSlice S1x128 ![0, 0] a9 slices_S2x128_S1x128_0_0) shapeCasts_S1x128_S128
abbrev vec1 (a9 : FVec Ideal S2x128 .f32) : Vc 128 :=
  shapeCast S128 (extractStridedSlice S1x128 ![1, 0] a9 slices_S2x128_S1x128_1_0) shapeCasts_S1x128_S128
abbrev sq0 (a10 : FVec Ideal S2x128x128 .f32) : Mat 128 128 :=
  shapeCast S128x128 (extractStridedSlice S1x128x128 ![0, 0, 0] a10 slices_S2x128x128_S1x128x128_0_0_0) shapeCasts_S1x128x128_S128x128
abbrev sq1 (a10 : FVec Ideal S2x128x128 .f32) : Mat 128 128 :=
  shapeCast S128x128 (extractStridedSlice S1x128x128 ![1, 0, 0] a10 slices_S2x128x128_S1x128x128_1_0_0) shapeCasts_S1x128x128_S128x128
abbrev nW1a (a12 : FVec Ideal S2x256x128 .f32) : Mat 256 128 :=
  shapeCast S256x128 (extractStridedSlice S1x256x128 ![0, 0, 0] a12 slices_S2x256x128_S1x256x128_0_0_0) shapeCasts_S1x256x128_S256x128
abbrev nW1b (a12 : FVec Ideal S2x256x128 .f32) : Mat 256 128 :=
  shapeCast S256x128 (extractStridedSlice S1x256x128 ![1, 0, 0] a12 slices_S2x256x128_S1x256x128_1_0_0) shapeCasts_S1x256x128_S256x128
abbrev eb1a := vec0
abbrev eb1b := vec1
abbrev eW2a := sq0
abbrev eW2b := sq1
abbrev eb2a := vec0
abbrev eb2b := vec1
abbrev nb1a := vec0
abbrev nb1b := vec1
abbrev nW2a := sq0
abbrev nW2b := sq1
abbrev nb2a := vec0
abbrev nb2b := vec1

/-! ## The program's five dimension records -/

theorem facts129 : DotFacts dot_S65536x129_S129x128_S65536x128_1_0_0_1_n_n :=
  ⟨rfl, rfl, fun _ _ => rfl, fun i q => DotDims.lhsIdx_val_of_single _ rfl i q, fun i q => DotDims.rhsIdx_val_of_single _ rfl i q,
    fun _ _ => rfl⟩
theorem facts128n : DotFacts dot_S65536x128_S128x128_S65536x128_1_0_0_1_n_n :=
  ⟨rfl, rfl, fun _ _ => rfl, fun i q => DotDims.lhsIdx_val_of_single _ rfl i q, fun i q => DotDims.rhsIdx_val_of_single _ rfl i q,
    fun _ _ => rfl⟩
theorem facts384 : DotFacts dot_S393216x384_S384x128_S393216x128_1_0_0_1_n_n :=
  ⟨rfl, rfl, fun _ _ => rfl, fun i q => DotDims.lhsIdx_val_of_single _ rfl i q, fun i q => DotDims.rhsIdx_val_of_single _ rfl i q,
    fun _ _ => rfl⟩
theorem facts128e : DotFacts dot_S393216x128_S128x128_S393216x128_1_0_0_1_n_n :=
  ⟨rfl, rfl, fun _ _ => rfl, fun i q => DotDims.lhsIdx_val_of_single _ rfl i q, fun i q => DotDims.rhsIdx_val_of_single _ rfl i q,
    fun _ _ => rfl⟩
theorem facts256 : DotFacts dot_S65536x256_S256x128_S65536x128_1_0_0_1_n_n :=
  ⟨rfl, rfl, fun _ _ => rfl, fun i q => DotDims.lhsIdx_val_of_single _ rfl i q, fun i q => DotDims.rhsIdx_val_of_single _ rfl i q,
    fun _ _ => rfl⟩

/-! ## The three blocks at the program's shapes -/

/-- The second half of a block on the nodes, and on the edges. -/
abbrev tailN (pre : Mat 65536 128) (W2 : Mat 128 128) (b2 : Vc 128) : Mat 65536 128 :=
  hTail dot_S65536x128_S128x128_S65536x128_1_0_0_1_n_n bcast_S_S65536x128 bcast_S128_S1x128_1 bcast_S1x128_S65536x128_0_1 pre W2 b2
@[inherit_doc tailN]
abbrev tailE (pre : Mat 393216 128) (W2 : Mat 128 128) (b2 : Vc 128) : Mat 393216 128 :=
  hTail dot_S393216x128_S128x128_S393216x128_1_0_0_1_n_n bcast_S_S393216x128 bcast_S128_S1x128_1 bcast_S1x128_S393216x128_0_1 pre W2 b2

abbrev preU (x : Mat 65536 128) (r : Mat 65536 1) (W1 : Mat 129 128) (b1 : Vc 128) : Mat 65536 128 :=
  hUnpoolPre bcast_S128_S1x128_1 bcast_S1x128_S65536x128_0_1 dot_S65536x129_S129x128_S65536x128_1_0_0_1_n_n
    concatenates_S65536x128_S65536x1_S65536x129_d1 x r W1 b1
abbrev preE (e vs vr : Mat 393216 128) (W1 : Mat 384 128) (b1 : Vc 128) : Mat 393216 128 :=
  hEdgePre bcast_S128_S1x128_1 bcast_S1x128_S393216x128_0_1 dot_S393216x384_S384x128_S393216x128_1_0_0_1_n_n
    concatenates_S393216x128_S393216x128_S393216x128_S393216x384_d1 e vs vr W1 b1
abbrev preN (v g : Mat 65536 128) (W1 : Mat 256 128) (b1 : Vc 128) : Mat 65536 128 :=
  hNodePre bcast_S128_S1x128_1 bcast_S1x128_S65536x128_0_1 dot_S65536x256_S256x128_S65536x128_1_0_0_1_n_n
    concatenates_S65536x128_S65536x128_S65536x256_d1 v g W1 b1

theorem unpool_eq (x : Mat 65536 128) (r : Mat 65536 1) (res : Mat 65536 128) (W1 : Mat 129 128) (b1 : Vc 128) (W2 : Mat 128 128)
    (b2 : Vc 128) : addf (tailN (preU x r W1 b1) W2 b2) res = unpoolL x r res W1 b1 W2 b2 :=
  hUnpool_eq _ _ _ _ _ _ facts129 facts128n x r res W1 b1 W2 b2

theorem edge_eq (e vs vr : Mat 393216 128) (W1 : Mat 384 128) (b1 : Vc 128) (W2 : Mat 128 128) (b2 : Vc 128) :
    addf e (tailE (preE e vs vr W1 b1) W2 b2) = edgeL e vs vr W1 b1 W2 b2 :=
  hEdge_eq _ _ _ _ _ _ facts384 facts128e e vs vr W1 b1 W2 b2

theorem node_eq (v g : Mat 65536 128) (W1 : Mat 256 128) (b1 : Vc 128) (W2 : Mat 128 128) (b2 : Vc 128) :
    addf v (tailN (preN v g W1 b1) W2 b2) = nodeL v g W1 b1 W2 b2 :=
  hNode_eq _ _ _ _ _ _ facts256 facts128n v g W1 b1 W2 b2

/-! ## The run, stretch by stretch -/

/-- The fold over a concatenation is the fold over the second list from the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The blocks at the program's shapes, by name (the edge block without its residual: the program adds that in its next
    stretch). -/
def unpoolH (x : Mat 65536 128) (r : Mat 65536 1) (res : Mat 65536 128) (W1 : Mat 129 128) (b1 : Vc 128) (W2 : Mat 128 128)
    (b2 : Vc 128) : Mat 65536 128 := addf (tailN (preU x r W1 b1) W2 b2) res
@[inherit_doc unpoolH]
def edgeT (e vs vr : Mat 393216 128) (W1 : Mat 384 128) (b1 : Vc 128) (W2 : Mat 128 128) (b2 : Vc 128) : Mat 393216 128 :=
  tailE (preE e vs vr W1 b1) W2 b2
@[inherit_doc unpoolH]
def nodeH (v g : Mat 65536 128) (W1 : Mat 256 128) (b1 : Vc 128) (W2 : Mat 128 128) (b2 : Vc 128) : Mat 65536 128 :=
  addf v (tailN (preN v g W1 b1) W2 b2)

theorem unpoolH_eq (x : Mat 65536 128) (r : Mat 65536 1) (res : Mat 65536 128) (W1 : Mat 129 128) (b1 : Vc 128) (W2 : Mat 128 128)
    (b2 : Vc 128) : unpoolH x r res W1 b1 W2 b2 = unpoolL x r res W1 b1 W2 b2 := unpool_eq x r res W1 b1 W2 b2
theorem edgeT_eq (e vs vr : Mat 393216 128) (W1 : Mat 384 128) (b1 : Vc 128) (W2 : Mat 128 128) (b2 : Vc 128) :
    addf e (edgeT e vs vr W1 b1 W2 b2) = edgeL e vs vr W1 b1 W2 b2 := edge_eq e vs vr W1 b1 W2 b2
theorem nodeH_eq (v g : Mat 65536 128) (W1 : Mat 256 128) (b1 : Vc 128) (W2 : Mat 128 128) (b2 : Vc 128) :
    nodeH v g W1 b1 W2 b2 = nodeL v g W1 b1 W2 b2 := node_eq v g W1 b1 W2 b2

end Cert.ReferenceIdeal.RefValue

end
-- ==== Proof.RefWin0.lean ====
/-
  The first stretch of the reference program's operations, read from any contents: the first node array is the
  unpooling block of the gathered coarse features, the two rows of the edge index array are left as vectors, and the
  stretch ends at the first round's edge block before its residual is added. Each is the fold computed at that buffer.
-/
import proofs.«134789_j62947040690362_1_alg».proof.Proof.RefDefs

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibSeluMlp Cert.Net Cert.LibAffine

set_option maxRecDepth 16384 in
set_option maxHeartbeats 8000000 in
/-- The first stretch from any contents: the first node array is the unpooling block. -/
theorem L0_17 (W : IV) : after (ops0 (F := Ideal)) W (main_v17 : DevRef τ sig) = (unpoolH (gC (W (main_arg17 : DevRef τ sig)) (W (main_arg0 : DevRef τ sig))) (W (main_arg3 : DevRef τ sig)) (W (main_arg1 : DevRef τ sig)) (W (main_arg4 : DevRef τ sig)) (W (main_arg5 : DevRef τ sig)) (W (main_arg6 : DevRef τ sig)) (W (main_arg7 : DevRef τ sig))) := by
  after_results_simp
  rfl

set_option maxRecDepth 16384 in
set_option maxHeartbeats 8000000 in
/-- The first stretch leaves the two rows of the edge index array as vectors. -/
theorem L0_19 (W : IV) : after (ops0 (F := Ideal)) W (main_v19 : DevRef τ sig) = row0 (W (main_arg16 : DevRef τ sig)) := by
  after_results_simp
  rfl

set_option maxRecDepth 16384 in
set_option maxHeartbeats 8000000 in
@[inherit_doc L0_19]
theorem L0_21 (W : IV) : after (ops0 (F := Ideal)) W (main_v21 : DevRef τ sig) = row1 (W (main_arg16 : DevRef τ sig)) := by
  after_results_simp
  rfl

set_option maxRecDepth 16384 in
set_option maxHeartbeats 8000000 in
/-- The first stretch ends at the first round's edge block, its residual not yet added. -/
theorem L0_53 (W : IV) : after (ops0 (F := Ideal)) W (main_v53 : DevRef τ sig)
    = edgeT (W (main_arg2 : DevRef τ sig)) (gE (row0 (W (main_arg16 : DevRef τ sig))) (unpoolH (gC (W (main_arg17 : DevRef τ sig)) (W (main_arg0 : DevRef τ sig))) (W (main_arg3 : DevRef τ sig)) (W (main_arg1 : DevRef τ sig)) (W (main_arg4 : DevRef τ sig)) (W (main_arg5 : DevRef τ sig)) (W (main_arg6 : DevRef τ sig)) (W (main_arg7 : DevRef τ sig)))) (gE (row1 (W (main_arg16 : DevRef τ sig))) (unpoolH (gC (W (main_arg17 : DevRef τ sig)) (W (main_arg0 : DevRef τ sig))) (W (main_arg3 : DevRef τ sig)) (W (main_arg1 : DevRef τ sig)) (W (main_arg4 : DevRef τ sig)) (W (main_arg5 : DevRef τ sig)) (W (main_arg6 : DevRef τ sig)) (W (main_arg7 : DevRef τ sig))))
        (eW1a (W (main_arg8 : DevRef τ sig))) (vec0 (W (main_arg9 : DevRef τ sig))) (sq0 (W (main_arg10 : DevRef τ sig))) (vec0 (W (main_arg11 : DevRef τ sig))) := by
  after_results_simp
  rfl

end Cert.ReferenceIdeal.RefValue

end
-- ==== Proof.RefWin1.lean ====
/-
  The second and third stretches of the reference program's operations, read from any contents: the second stretch adds
  the first round's residual, sums the edge array into its receivers, applies the node block, and ends at the second
  round's edge block before its residual; the third adds that residual, sums into receivers and applies the node block.
  Each is the fold computed at that buffer.
-/
import proofs.«134789_j62947040690362_1_alg».proof.Proof.RefDefs

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibSeluMlp Cert.Net Cert.LibAffine

set_option maxRecDepth 16384 in
set_option maxHeartbeats 8000000 in
/-- The second stretch from any contents: the first round's edge array, with its residual. -/
theorem L1_54 (W : IV) : after (ops1 (F := Ideal)) W (main_v54 : DevRef τ sig)
    = (addf (W (main_arg2 : DevRef τ sig)) (W (main_v53 : DevRef τ sig)) : Mat 393216 128) := by
  after_results_simp

set_option maxRecDepth 16384 in
set_option maxHeartbeats 8000000 in
/-- The second stretch: the first round's node block on the sum of the edge array into its receivers. -/
theorem L1_76 (W : IV) : after (ops1 (F := Ideal)) W (main_v76 : DevRef τ sig) = (nodeH (W (main_v17 : DevRef τ sig)) (aggE (W (main_v21 : DevRef τ sig)) (addf (W (main_arg2 : DevRef τ sig)) (W (main_v53 : DevRef τ sig)))) (nW1a (W (main_arg12 : DevRef τ sig))) (vec0 (W (main_arg13 : DevRef τ sig))) (sq0 (W (main_arg14 : DevRef τ sig))) (vec0 (W (main_arg15 : DevRef τ sig)))) := by
  after_results_simp
  rfl

set_option maxRecDepth 16384 in
set_option maxHeartbeats 8000000 in
/-- The second stretch ends at the second round's edge block, its residual not yet added. -/
theorem L1_108 (W : IV) : after (ops1 (F := Ideal)) W (main_v108 : DevRef τ sig)
    = edgeT (addf (W (main_arg2 : DevRef τ sig)) (W (main_v53 : DevRef τ sig))) (gE (W (main_v19 : DevRef τ sig)) (nodeH (W (main_v17 : DevRef τ sig)) (aggE (W (main_v21 : DevRef τ sig)) (addf (W (main_arg2 : DevRef τ sig)) (W (main_v53 : DevRef τ sig)))) (nW1a (W (main_arg12 : DevRef τ sig))) (vec0 (W (main_arg13 : DevRef τ sig))) (sq0 (W (main_arg14 : DevRef τ sig))) (vec0 (W (main_arg15 : DevRef τ sig))))) (gE (W (main_v21 : DevRef τ sig)) (nodeH (W (main_v17 : DevRef τ sig)) (aggE (W (main_v21 : DevRef τ sig)) (addf (W (main_arg2 : DevRef τ sig)) (W (main_v53 : DevRef τ sig)))) (nW1a (W (main_arg12 : DevRef τ sig))) (vec0 (W (main_arg13 : DevRef τ sig))) (sq0 (W (main_arg14 : DevRef τ sig))) (vec0 (W (main_arg15 : DevRef τ sig)))))
        (eW1b (W (main_arg8 : DevRef τ sig))) (vec1 (W (main_arg9 : DevRef τ sig))) (sq1 (W (main_arg10 : DevRef τ sig))) (vec1 (W (main_arg11 : DevRef τ sig))) := by
  after_results_simp
  rfl

set_option maxRecDepth 16384 in
set_option maxHeartbeats 8000000 in
/-- The last stretch from any contents: the second round's node block on the node and edge arrays the stretch finds. -/
theorem L2_131 (W : IV) : after (ops2 (F := Ideal)) W (main_v131 : DevRef τ sig)
    = nodeH (W (main_v76 : DevRef τ sig)) (aggE (W (main_v21 : DevRef τ sig)) (addf (W (main_v54 : DevRef τ sig)) (W (main_v108 : DevRef τ sig))))
        (nW1b (W (main_arg12 : DevRef τ sig))) (vec1 (W (main_arg13 : DevRef τ sig))) (sq1 (W (main_arg14 : DevRef τ sig))) (vec1 (W (main_arg15 : DevRef τ sig))) := by
  after_results_simp
  rfl

end Cert.ReferenceIdeal.RefValue

end
-- ==== Proof.RefKeep.lean ====
/-
  What each stretch of the reference program's operations leaves alone: the list of the buffers a stretch's operations
  write, and that a buffer outside the list keeps its contents through the stretch.
-/
import proofs.«134789_j62947040690362_1_alg».proof.Proof.RefDefs

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibSeluMlp Cert.Net Cert.LibAffine

/-! ## What each stretch leaves alone -/

/-- The buffers the operations of stretch 0 write. -/
abbrev ops0_W : List (Ref sig .tc) := [main_c, main_v0, main_v1, main_c_0, main_v2, main_v3, main_v4, main_v5, main_v6, main_v7, main_v8, main_v9, main_v10, main_v11, main_call0.cst.ref, main_call0.call0.cst.ref, main_call0.call0.v0.ref, main_call0.call0.v1.ref, main_call0.call0.cst_0.ref, main_call0.call0.v2.ref, main_call0.call0.v3.ref, main_call0.call0.cst_1.ref, main_call0.call0.call0.v0.ref, main_call0.call0.call0.v1.ref, main_call0.call0.call0.v2.ref, main_call0.call0.v5.ref, main_call0.call0.v6.ref, main_call0.call0.v7.ref, main_call0.call0.v8.ref, main_call0.call0.call1.v0.ref, main_call0.cst_0.ref, main_call0.v1.ref, main_call0.v2.ref, main_v13, main_v14, main_v15, main_v16, main_v17, main_v18, main_v19, main_v20, main_v21, main_c_1, main_v22, main_v23, main_c_2, main_v24, main_v25, main_v26, main_v27, main_v28, main_c_3, main_v29, main_v30, main_c_4, main_v31, main_v32, main_v33, main_v34, main_v35, main_v36, main_v37, main_v38, main_v39, main_v40, main_v41, main_v42, main_v43, main_v44, main_v45, main_v46, main_v47, main_v48, main_call1.cst.ref, main_call1.call0.cst.ref, main_call1.call0.v0.ref, main_call1.call0.v1.ref, main_call1.call0.cst_0.ref, main_call1.call0.v2.ref, main_call1.call0.v3.ref, main_call1.call0.cst_1.ref, main_call1.call0.call0.v0.ref, main_call1.call0.call0.v1.ref, main_call1.call0.call0.v2.ref, main_call1.call0.v5.ref, main_call1.call0.v6.ref, main_call1.call0.v7.ref, main_call1.call0.v8.ref, main_call1.call0.call1.v0.ref, main_call1.cst_0.ref, main_call1.v1.ref, main_call1.v2.ref, main_v50, main_v51, main_v52, main_v53]

set_option maxRecDepth 8192 in
set_option maxHeartbeats 4000000 in
theorem ops0_writes : (ops0 : List (HloOp τ sig (Elt Ideal))).Forall fun op =>
    op.writes ⊆ (ops0_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer that stretch 0 does not write keeps its contents through it. -/
theorem keep0 (W : IV) (r : Ref sig .tc) (h : r ∉ ops0_W) :
    after (ops0 (F := Ideal)) W (Proc.devRef .tc r) = W (Proc.devRef .tc r) :=
  after_of_writes_sub ops0 _ ops0_writes h

/-- The buffers the operations of stretch 1 write. -/
abbrev ops1_W : List (Ref sig .tc) := [main_v54, main_cst, main_v55, main_v56, main_v57, main_v58, main_v59, main_v60, main_v61, main_v62, main_v63, main_v64, main_v65, main_v66, main_v67, main_v68, main_v69, main_v70, main_call2.cst.ref, main_call2.call0.cst.ref, main_call2.call0.v0.ref, main_call2.call0.v1.ref, main_call2.call0.cst_0.ref, main_call2.call0.v2.ref, main_call2.call0.v3.ref, main_call2.call0.cst_1.ref, main_call2.call0.call0.v0.ref, main_call2.call0.call0.v1.ref, main_call2.call0.call0.v2.ref, main_call2.call0.v5.ref, main_call2.call0.v6.ref, main_call2.call0.v7.ref, main_call2.call0.v8.ref, main_call2.call0.call1.v0.ref, main_call2.cst_0.ref, main_call2.v1.ref, main_call2.v2.ref, main_v72, main_v73, main_v74, main_v75, main_v76, main_c_5, main_v77, main_v78, main_c_6, main_v79, main_v80, main_v81, main_v82, main_v83, main_c_7, main_v84, main_v85, main_c_8, main_v86, main_v87, main_v88, main_v89, main_v90, main_v91, main_v92, main_v93, main_v94, main_v95, main_v96, main_v97, main_v98, main_v99, main_v100, main_v101, main_v102, main_v103, main_call3.cst.ref, main_call3.call0.cst.ref, main_call3.call0.v0.ref, main_call3.call0.v1.ref, main_call3.call0.cst_0.ref, main_call3.call0.v2.ref, main_call3.call0.v3.ref, main_call3.call0.cst_1.ref, main_call3.call0.call0.v0.ref, main_call3.call0.call0.v1.ref, main_call3.call0.call0.v2.ref, main_call3.call0.v5.ref, main_call3.call0.v6.ref, main_call3.call0.v7.ref, main_call3.call0.v8.ref, main_call3.call0.call1.v0.ref, main_call3.cst_0.ref, main_call3.v1.ref, main_call3.v2.ref, main_v105, main_v106, main_v107, main_v108]

set_option maxRecDepth 8192 in
set_option maxHeartbeats 4000000 in
theorem ops1_writes : (ops1 : List (HloOp τ sig (Elt Ideal))).Forall fun op =>
    op.writes ⊆ (ops1_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer that stretch 1 does not write keeps its contents through it. -/
theorem keep1 (W : IV) (r : Ref sig .tc) (h : r ∉ ops1_W) :
    after (ops1 (F := Ideal)) W (Proc.devRef .tc r) = W (Proc.devRef .tc r) :=
  after_of_writes_sub ops1 _ ops1_writes h

/-- The buffers the operations of stretch 2 write. -/
abbrev ops2_W : List (Ref sig .tc) := [main_v109, main_cst_9, main_v110, main_v111, main_v112, main_v113, main_v114, main_v115, main_v116, main_v117, main_v118, main_v119, main_v120, main_v121, main_v122, main_v123, main_v124, main_v125, main_call4.cst.ref, main_call4.call0.cst.ref, main_call4.call0.v0.ref, main_call4.call0.v1.ref, main_call4.call0.cst_0.ref, main_call4.call0.v2.ref, main_call4.call0.v3.ref, main_call4.call0.cst_1.ref, main_call4.call0.call0.v0.ref, main_call4.call0.call0.v1.ref, main_call4.call0.call0.v2.ref, main_call4.call0.v5.ref, main_call4.call0.v6.ref, main_call4.call0.v7.ref, main_call4.call0.v8.ref, main_call4.call0.call1.v0.ref, main_call4.cst_0.ref, main_call4.v1.ref, main_call4.v2.ref, main_v127, main_v128, main_v129, main_v130, main_v131]

set_option maxRecDepth 8192 in
set_option maxHeartbeats 4000000 in
theorem ops2_writes : (ops2 : List (HloOp τ sig (Elt Ideal))).Forall fun op =>
    op.writes ⊆ (ops2_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer that stretch 2 does not write keeps its contents through it. -/
theorem keep2 (W : IV) (r : Ref sig .tc) (h : r ∉ ops2_W) :
    after (ops2 (F := Ideal)) W (Proc.devRef .tc r) = W (Proc.devRef .tc r) :=
  after_of_writes_sub ops2 _ ops2_writes h

end Cert.ReferenceIdeal.RefValue

end
-- ==== Proof.RefValue.lean ====
/-
  The value of the reference program: what its host function leaves in its result buffer, from any contents of the
  buffers, is the network of Net on the argument arrays; and it leaves every argument as it was.

  The function's fold is the three stretches' folds in turn. The last stretch's result is the node block on the arrays
  the second stretch leaves, those are the blocks on the arrays the first stretch leaves, and those are the blocks on the
  arguments; a buffer a stretch does not write passes through it. Each block as the host spells it is the block of Net,
  and the composition is the network.
-/
import proofs.«134789_j62947040690362_1_alg».proof.Proof.RefWin0
import proofs.«134789_j62947040690362_1_alg».proof.Proof.RefWin1
import proofs.«134789_j62947040690362_1_alg».proof.Proof.RefKeep

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LibSeluMlp Cert.Net Cert.LibAffine

/-! ## The whole run -/

/-- The function's fold is the three stretches' folds in turn. -/
theorem after_ops (V : IV) : after (ops (F := Ideal)) V = after ops2 (after ops1 (after ops0 V)) := by
  rw [show (ops (F := Ideal)) = ops0 ++ (ops1 ++ ops2) from rfl, after_append, after_append]

/-- The network of Net over the program's eighteen array arguments: the gathers, the sum into receivers and the two
    rounds' weights are the program's own host operations on the index and stacked-weight arguments. -/
def netR (a0 : Mat 16384 128) (a1 : Mat 65536 128) (a2 : Mat 393216 128) (a3 : Mat 65536 1) (a4 : Mat 129 128) (a5 : Vc 128)
    (a6 : Mat 128 128) (a7 : Vc 128) (a8 : FVec Ideal S2x384x128 .f32) (a9 : FVec Ideal S2x128 .f32)
    (a10 : FVec Ideal S2x128x128 .f32) (a11 : FVec Ideal S2x128 .f32) (a12 : FVec Ideal S2x256x128 .f32)
    (a13 : FVec Ideal S2x128 .f32) (a14 : FVec Ideal S2x128x128 .f32) (a15 : FVec Ideal S2x128 .f32)
    (a16 : IVec S2x393216 32) (a17 : IVec S65536 32) : Mat 65536 128 :=
  Cert.Net.net (gC a17) (gS a16) (gR a16) (agg a16) a0 a1 a2 a3 a4 a5 a6 a7 (eW1a a8) (eb1a a9) (eW2a a10) (eb2a a11)
    (nW1a a12) (nb1a a13) (nW2a a14) (nb2a a15) (eW1b a8) (eb1b a9) (eW2b a10) (eb2b a11) (nW1b a12) (nb1b a13) (nW2b a14)
    (nb2b a15)

set_option maxRecDepth 16384 in
set_option maxHeartbeats 8000000 in
/-- What the function leaves in its result buffer, from any contents: the network of the argument arrays. -/
theorem result_eq (V : IV) : after (ops (F := Ideal)) V (main_v131 : DevRef τ sig) = netR (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) := by
  rw [after_ops, L2_131, L1_76, L1_54, L1_108, keep1 _ main_v21 (by decide), keep1 _ main_arg12 (by decide),
    keep1 _ main_arg13 (by decide), keep1 _ main_arg14 (by decide), keep1 _ main_arg15 (by decide),
    L0_17, L0_53, L0_19, L0_21, keep0 _ main_arg2 (by decide), keep0 _ main_arg8 (by decide), keep0 _ main_arg9 (by decide),
    keep0 _ main_arg10 (by decide), keep0 _ main_arg11 (by decide), keep0 _ main_arg12 (by decide), keep0 _ main_arg13 (by decide),
    keep0 _ main_arg14 (by decide), keep0 _ main_arg15 (by decide)]
  simp only [unpoolH_eq, edgeT_eq, nodeH_eq]
  rfl

/-- A buffer no stretch writes keeps its contents through the whole function. -/
theorem kept (V : IV) (r : Ref sig .tc) (h0 : r ∉ ops0_W) (h1 : r ∉ ops1_W) (h2 : r ∉ ops2_W) :
    after (ops (F := Ideal)) V (Proc.devRef .tc r) = V (Proc.devRef .tc r) := by
  rw [after_ops, keep2 _ r h2, keep1 _ r h1, keep0 _ r h0]

/-- Argument 0 is left as it was. -/
theorem arg0_kept (V : IV) : after (ops (F := Ideal)) V (main_arg0 : DevRef τ sig) = V (main_arg0 : DevRef τ sig) :=
  kept V main_arg0 (by decide) (by decide) (by decide)

/-- Argument 1 is left as it was. -/
theorem arg1_kept (V : IV) : after (ops (F := Ideal)) V (main_arg1 : DevRef τ sig) = V (main_arg1 : DevRef τ sig) :=
  kept V main_arg1 (by decide) (by decide) (by decide)

/-- Argument 2 is left as it was. -/
theorem arg2_kept (V : IV) : after (ops (F := Ideal)) V (main_arg2 : DevRef τ sig) = V (main_arg2 : DevRef τ sig) :=
  kept V main_arg2 (by decide) (by decide) (by decide)

/-- Argument 3 is left as it was. -/
theorem arg3_kept (V : IV) : after (ops (F := Ideal)) V (main_arg3 : DevRef τ sig) = V (main_arg3 : DevRef τ sig) :=
  kept V main_arg3 (by decide) (by decide) (by decide)

/-- Argument 4 is left as it was. -/
theorem arg4_kept (V : IV) : after (ops (F := Ideal)) V (main_arg4 : DevRef τ sig) = V (main_arg4 : DevRef τ sig) :=
  kept V main_arg4 (by decide) (by decide) (by decide)

/-- Argument 5 is left as it was. -/
theorem arg5_kept (V : IV) : after (ops (F := Ideal)) V (main_arg5 : DevRef τ sig) = V (main_arg5 : DevRef τ sig) :=
  kept V main_arg5 (by decide) (by decide) (by decide)

/-- Argument 6 is left as it was. -/
theorem arg6_kept (V : IV) : after (ops (F := Ideal)) V (main_arg6 : DevRef τ sig) = V (main_arg6 : DevRef τ sig) :=
  kept V main_arg6 (by decide) (by decide) (by decide)

/-- Argument 7 is left as it was. -/
theorem arg7_kept (V : IV) : after (ops (F := Ideal)) V (main_arg7 : DevRef τ sig) = V (main_arg7 : DevRef τ sig) :=
  kept V main_arg7 (by decide) (by decide) (by decide)

/-- Argument 8 is left as it was. -/
theorem arg8_kept (V : IV) : after (ops (F := Ideal)) V (main_arg8 : DevRef τ sig) = V (main_arg8 : DevRef τ sig) :=
  kept V main_arg8 (by decide) (by decide) (by decide)

/-- Argument 9 is left as it was. -/
theorem arg9_kept (V : IV) : after (ops (F := Ideal)) V (main_arg9 : DevRef τ sig) = V (main_arg9 : DevRef τ sig) :=
  kept V main_arg9 (by decide) (by decide) (by decide)

/-- Argument 10 is left as it was. -/
theorem arg10_kept (V : IV) : after (ops (F := Ideal)) V (main_arg10 : DevRef τ sig) = V (main_arg10 : DevRef τ sig) :=
  kept V main_arg10 (by decide) (by decide) (by decide)

/-- Argument 11 is left as it was. -/
theorem arg11_kept (V : IV) : after (ops (F := Ideal)) V (main_arg11 : DevRef τ sig) = V (main_arg11 : DevRef τ sig) :=
  kept V main_arg11 (by decide) (by decide) (by decide)

/-- Argument 12 is left as it was. -/
theorem arg12_kept (V : IV) : after (ops (F := Ideal)) V (main_arg12 : DevRef τ sig) = V (main_arg12 : DevRef τ sig) :=
  kept V main_arg12 (by decide) (by decide) (by decide)

/-- Argument 13 is left as it was. -/
theorem arg13_kept (V : IV) : after (ops (F := Ideal)) V (main_arg13 : DevRef τ sig) = V (main_arg13 : DevRef τ sig) :=
  kept V main_arg13 (by decide) (by decide) (by decide)

/-- Argument 14 is left as it was. -/
theorem arg14_kept (V : IV) : after (ops (F := Ideal)) V (main_arg14 : DevRef τ sig) = V (main_arg14 : DevRef τ sig) :=
  kept V main_arg14 (by decide) (by decide) (by decide)

/-- Argument 15 is left as it was. -/
theorem arg15_kept (V : IV) : after (ops (F := Ideal)) V (main_arg15 : DevRef τ sig) = V (main_arg15 : DevRef τ sig) :=
  kept V main_arg15 (by decide) (by decide) (by decide)

/-- Argument 16 is left as it was. -/
theorem arg16_kept (V : IV) : after (ops (F := Ideal)) V (main_arg16 : DevRef τ sig) = V (main_arg16 : DevRef τ sig) :=
  kept V main_arg16 (by decide) (by decide) (by decide)

/-- Argument 17 is left as it was. -/
theorem arg17_kept (V : IV) : after (ops (F := Ideal)) V (main_arg17 : DevRef τ sig) = V (main_arg17 : DevRef τ sig) :=
  kept V main_arg17 (by decide) (by decide) (by decide)

/-- Argument 18 is left as it was. -/
theorem arg18_kept (V : IV) : after (ops (F := Ideal)) V (main_arg18 : DevRef τ sig) = V (main_arg18 : DevRef τ sig) :=
  kept V main_arg18 (by decide) (by decide) (by decide)

end Cert.ReferenceIdeal.RefValue

end
-- ==== Proof.lean ====
/-
  The certificate's claims, assembled.

  Both idealized programs compute one network on the argument arrays (Net): the fine nodes gather their coarse
  cluster's features and pass them, with one scalar per node, through a two-layer perceptron with a scaled exponential
  linear unit, plus a skip array; then twice, every edge adds to its features a perceptron of them and of its two end
  nodes' features, the new edge features are summed into their receivers, and every node adds a perceptron of its features
  and that sum. The kernel program runs each perceptron block in a region tiled by 4096 rows, with the first weight cut
  into its row blocks and one product per block; the reference multiplies the concatenated features by the stacked
  weight once. A sum over the stacked weight's rows is the sum of the sums over its row blocks, the short float format is
  the identity on extended reals, and exp x − 1 is the exponential-minus-one function, so the two are one function of the
  arguments, entry by entry, on all extended reals: the precondition is not used by the value claim. The gathers and
  the sum into receivers are the same host operations in both programs.
  The three frames: the kernel programs' by the generated frame modules, the reference's by its run as a list of host
  operations, none of which writes an argument. The idealization rewrote nothing, so the preservation claim is trivial.
-/
import proofs.«134789_j62947040690362_1_alg».proof.Defs
import proofs.«134789_j62947040690362_1_alg».proof.Proof.Gen.Kernel
import proofs.«134789_j62947040690362_1_alg».proof.Proof.Gen.Kernel.Skeleton
import proofs.«134789_j62947040690362_1_alg».proof.Proof.Gen.Kernel.Launch
import proofs.«134789_j62947040690362_1_alg».proof.Proof.Gen.Kernel.Points
import proofs.«134789_j62947040690362_1_alg».proof.Proof.Gen.Kernel.Frame
import proofs.«134789_j62947040690362_1_alg».proof.Proof.Gen.KernelIdeal
import proofs.«134789_j62947040690362_1_alg».proof.Proof.Gen.KernelIdeal.Skeleton
import proofs.«134789_j62947040690362_1_alg».proof.Proof.Gen.KernelIdeal.Launch
import proofs.«134789_j62947040690362_1_alg».proof.Proof.Gen.KernelIdeal.Points
import proofs.«134789_j62947040690362_1_alg».proof.Proof.Gen.KernelIdeal.Frame
import proofs.«134789_j62947040690362_1_alg».proof.Proof.Gen.ReferenceIdeal
import proofs.«134789_j62947040690362_1_alg».proof.Proof.Gen.Pre_finite_inputs
import proofs.«134789_j62947040690362_1_alg».proof.Proof.KernelRun
import proofs.«134789_j62947040690362_1_alg».proof.Proof.KernelValue
import proofs.«134789_j62947040690362_1_alg».proof.Proof.RefRun
import proofs.«134789_j62947040690362_1_alg».proof.Proof.RefValue
import Idealize.ShloMosaic.Adequacy
import Idealize.ShloMosaic.Init

set_option maxRecDepth 16384

noncomputable section

namespace Cert.Proof

open Idealize.ShloMosaic Idealize.SL.Sem

/-- The two programs' networks are one function of the argument arrays: the same host gathers, scatter-add and weight
    slices around the same blocks of Net. -/
theorem net_eq (a0 : Cert.Net.Mat 16384 128) (a1 : Cert.Net.Mat 65536 128) (a2 : Cert.Net.Mat 393216 128) (a3 : Cert.Net.Mat 65536 1)
    (a4 : Cert.Net.Mat 129 128) (a5 : Cert.Net.Vc 128) (a6 : Cert.Net.Mat 128 128) (a7 : Cert.Net.Vc 128)
    (a8 : FVec Ideal Cert.KernelIdeal.S2x384x128 .f32) (a9 : FVec Ideal Cert.KernelIdeal.S2x128 .f32) (a10 : FVec Ideal Cert.KernelIdeal.S2x128x128 .f32)
    (a11 : FVec Ideal Cert.KernelIdeal.S2x128 .f32) (a12 : FVec Ideal Cert.KernelIdeal.S2x256x128 .f32) (a13 : FVec Ideal Cert.KernelIdeal.S2x128 .f32)
    (a14 : FVec Ideal Cert.KernelIdeal.S2x128x128 .f32) (a15 : FVec Ideal Cert.KernelIdeal.S2x128 .f32) (a16 : IVec Cert.KernelIdeal.S2x393216 32)
    (a17 : IVec Cert.KernelIdeal.S65536 32) :
    Cert.ReferenceIdeal.RefValue.netR a0 a1 a2 a3 a4 a5 a6 a7 a8 a9 a10 a11 a12 a13 a14 a15 a16 a17
      = Cert.KernelIdeal.KValue.x2 a0 a1 a2 a3 a4 a5 a6 a7 a8 a9 a10 a11 a12 a13 a14 a15 a16 a17 :=
by
  rw [Cert.KernelIdeal.KValue.x2_eq_net]
  rfl

theorem frame_k : Cert.frame_Kernel := fun m ρ _ => Cert.Kernel.Gen.frame m ρ

theorem frame_ki : Cert.frame_KernelIdeal := fun m ρ _ => Cert.KernelIdeal.Gen.frame m ρ

/-- The reference's frame: its run as a list of host operations, none writing an argument. -/
theorem frame_ri : Cert.frame_ReferenceIdeal := fun m ρ _ =>
  (θ_run (Cert.ReferenceIdeal.defs (F := Ideal)) _ _).mono (fun r h c =>
    ⟨(h c Cert.ReferenceIdeal.main_arg0).trans (Cert.ReferenceIdeal.RefValue.arg0_kept _),
     (h c Cert.ReferenceIdeal.main_arg1).trans (Cert.ReferenceIdeal.RefValue.arg1_kept _),
     (h c Cert.ReferenceIdeal.main_arg2).trans (Cert.ReferenceIdeal.RefValue.arg2_kept _),
     (h c Cert.ReferenceIdeal.main_arg3).trans (Cert.ReferenceIdeal.RefValue.arg3_kept _),
     (h c Cert.ReferenceIdeal.main_arg4).trans (Cert.ReferenceIdeal.RefValue.arg4_kept _),
     (h c Cert.ReferenceIdeal.main_arg5).trans (Cert.ReferenceIdeal.RefValue.arg5_kept _),
     (h c Cert.ReferenceIdeal.main_arg6).trans (Cert.ReferenceIdeal.RefValue.arg6_kept _),
     (h c Cert.ReferenceIdeal.main_arg7).trans (Cert.ReferenceIdeal.RefValue.arg7_kept _),
     (h c Cert.ReferenceIdeal.main_arg8).trans (Cert.ReferenceIdeal.RefValue.arg8_kept _),
     (h c Cert.ReferenceIdeal.main_arg9).trans (Cert.ReferenceIdeal.RefValue.arg9_kept _),
     (h c Cert.ReferenceIdeal.main_arg10).trans (Cert.ReferenceIdeal.RefValue.arg10_kept _),
     (h c Cert.ReferenceIdeal.main_arg11).trans (Cert.ReferenceIdeal.RefValue.arg11_kept _),
     (h c Cert.ReferenceIdeal.main_arg12).trans (Cert.ReferenceIdeal.RefValue.arg12_kept _),
     (h c Cert.ReferenceIdeal.main_arg13).trans (Cert.ReferenceIdeal.RefValue.arg13_kept _),
     (h c Cert.ReferenceIdeal.main_arg14).trans (Cert.ReferenceIdeal.RefValue.arg14_kept _),
     (h c Cert.ReferenceIdeal.main_arg15).trans (Cert.ReferenceIdeal.RefValue.arg15_kept _),
     (h c Cert.ReferenceIdeal.main_arg16).trans (Cert.ReferenceIdeal.RefValue.arg16_kept _),
     (h c Cert.ReferenceIdeal.main_arg17).trans (Cert.ReferenceIdeal.RefValue.arg17_kept _),
     (h c Cert.ReferenceIdeal.main_arg18).trans (Cert.ReferenceIdeal.RefValue.arg18_kept _)⟩)
    (Cert.ReferenceIdeal.RefValue.run_main (F := Ideal) m ρ)

theorem preserves : Cert.preserves_Kernel_KernelIdeal := trivial

/-- Both runs end with the network of the argument arrays in their result buffers. -/
theorem algebraic : Cert.algebraic_KernelIdeal_ReferenceIdeal := by
  intro m ρ m' ρ' _ hagree
  refine ⟨_, (θ_run (Cert.KernelIdeal.defs (F := Ideal)) _ _).mono
    (fun r h c => ⟨(h c).1.trans (Cert.KernelIdeal.KValue.at_v115 m ρ c), (h c).2⟩) (Cert.KernelIdeal.Named.run_named (F := Ideal) m ρ), ?_⟩
  refine (θ_run (Cert.ReferenceIdeal.defs (F := Ideal)) _ _).mono (fun r h c =>
    ⟨?_,
     (h c Cert.ReferenceIdeal.main_arg0).trans (Cert.ReferenceIdeal.RefValue.arg0_kept _),
     (h c Cert.ReferenceIdeal.main_arg1).trans (Cert.ReferenceIdeal.RefValue.arg1_kept _),
     (h c Cert.ReferenceIdeal.main_arg2).trans (Cert.ReferenceIdeal.RefValue.arg2_kept _),
     (h c Cert.ReferenceIdeal.main_arg3).trans (Cert.ReferenceIdeal.RefValue.arg3_kept _),
     (h c Cert.ReferenceIdeal.main_arg4).trans (Cert.ReferenceIdeal.RefValue.arg4_kept _),
     (h c Cert.ReferenceIdeal.main_arg5).trans (Cert.ReferenceIdeal.RefValue.arg5_kept _),
     (h c Cert.ReferenceIdeal.main_arg6).trans (Cert.ReferenceIdeal.RefValue.arg6_kept _),
     (h c Cert.ReferenceIdeal.main_arg7).trans (Cert.ReferenceIdeal.RefValue.arg7_kept _),
     (h c Cert.ReferenceIdeal.main_arg8).trans (Cert.ReferenceIdeal.RefValue.arg8_kept _),
     (h c Cert.ReferenceIdeal.main_arg9).trans (Cert.ReferenceIdeal.RefValue.arg9_kept _),
     (h c Cert.ReferenceIdeal.main_arg10).trans (Cert.ReferenceIdeal.RefValue.arg10_kept _),
     (h c Cert.ReferenceIdeal.main_arg11).trans (Cert.ReferenceIdeal.RefValue.arg11_kept _),
     (h c Cert.ReferenceIdeal.main_arg12).trans (Cert.ReferenceIdeal.RefValue.arg12_kept _),
     (h c Cert.ReferenceIdeal.main_arg13).trans (Cert.ReferenceIdeal.RefValue.arg13_kept _),
     (h c Cert.ReferenceIdeal.main_arg14).trans (Cert.ReferenceIdeal.RefValue.arg14_kept _),
     (h c Cert.ReferenceIdeal.main_arg15).trans (Cert.ReferenceIdeal.RefValue.arg15_kept _),
     (h c Cert.ReferenceIdeal.main_arg16).trans (Cert.ReferenceIdeal.RefValue.arg16_kept _),
     (h c Cert.ReferenceIdeal.main_arg17).trans (Cert.ReferenceIdeal.RefValue.arg17_kept _),
     (h c Cert.ReferenceIdeal.main_arg18).trans (Cert.ReferenceIdeal.RefValue.arg18_kept _)⟩)
    (Cert.ReferenceIdeal.RefValue.run_main (F := Ideal) m' ρ')
  obtain ⟨h0, h1, h2, h3, h4, h5, h6, h7, h8, h9, h10, h11, h12, h13, h14, h15, h16, h17, h18⟩ := hagree c
  refine (h c Cert.ReferenceIdeal.main_v131).trans ((Cert.ReferenceIdeal.RefValue.result_eq _).trans ?_)
  show Cert.ReferenceIdeal.RefValue.netR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) = _
  rw [h0, h1, h2, h3, h4, h5, h6, h7, h8, h9, h10, h11, h12, h13, h14, h15, h16, h17]
  exact net_eq _ _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
